-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v101)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v101) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v174) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S128x64 .f32) (main_arg9 : FVec F S64 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg5 : FVec F S128 .f32) (main_arg6 : FVec F S128x128 .f32) (main_arg7 : FVec F S128 .f32) (main_arg8 : FVec F S128x64 .f32) (main_arg9 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x64 .f32) (main_arg9 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S5000x128 : Shape := ⟨2, ![5000, 128]⟩
abbrev S1600000x128 : Shape := ⟨2, ![1600000, 128]⟩
abbrev S1x128 : Shape := ⟨2, ![1, 128]⟩
abbrev S5000x1 : Shape := ⟨2, ![5000, 1]⟩
abbrev S100000x64 : Shape := ⟨2, ![100000, 64]⟩
abbrev S5000x64 : Shape := ⟨2, ![5000, 64]⟩
abbrev S1600000x64 : Shape := ⟨2, ![1600000, 64]⟩
abbrev S1x64 : Shape := ⟨2, ![1, 64]⟩

abbrev nBuf : Space → Nat
  | .hbm => 136
  | .vmem => 56
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x64, .f32⟩
  | 9 => ⟨S64, .f32⟩
  | 10 => ⟨S1x1600000, .i32⟩
  | 11 => ⟨S1600000, .i32⟩
  | 12 => ⟨S1x1600000, .i32⟩
  | 13 => ⟨S1600000, .i32⟩
  | 14 => ⟨S_, .f32⟩
  | 15 => ⟨S1600000, .f32⟩
  | 16 => ⟨S_, .f32⟩
  | 17 => ⟨S100000, .f32⟩
  | 18 => ⟨S1600000x1, .i32⟩
  | 19 => ⟨S100000, .f32⟩
  | 20 => ⟨S_, .f32⟩
  | 21 => ⟨S100000, .f32⟩
  | 22 => ⟨S100000, .f32⟩
  | 23 => ⟨S_, .f32⟩
  | 24 => ⟨S100000, .f32⟩
  | 25 => ⟨S100000, .f32⟩
  | 26 => ⟨S100000, .f32⟩
  | 27 => ⟨S100000x1, .f32⟩
  | 28 => ⟨S100000x128, .f32⟩
  | 29 => ⟨S_, .i32⟩
  | 30 => ⟨S1600000, .i32⟩
  | 31 => ⟨S1600000, .i1⟩
  | 32 => ⟨S_, .i32⟩
  | 33 => ⟨S1600000, .i32⟩
  | 34 => ⟨S1600000, .i32⟩
  | 35 => ⟨S1600000, .i32⟩
  | 36 => ⟨S1600000x1, .i32⟩
  | 37 => ⟨S1600000x128, .f32⟩
  | 38 => ⟨S_, .i32⟩
  | 39 => ⟨S1600000, .i32⟩
  | 40 => ⟨S1600000, .i1⟩
  | 41 => ⟨S_, .i32⟩
  | 42 => ⟨S1600000, .i32⟩
  | 43 => ⟨S1600000, .i32⟩
  | 44 => ⟨S1600000, .i32⟩
  | 45 => ⟨S1600000x1, .i32⟩
  | 46 => ⟨S1600000x1, .f32⟩
  | 47 => ⟨S1600000x128, .f32⟩
  | 48 => ⟨S1600000x128, .f32⟩
  | 49 => ⟨S_, .f32⟩
  | 50 => ⟨S100000x128, .f32⟩
  | 51 => ⟨S1600000x1, .i32⟩
  | 52 => ⟨S100000x128, .f32⟩
  | 53 => ⟨S1x128, .f32⟩
  | 54 => ⟨S100000x128, .f32⟩
  | 55 => ⟨S100000x128, .f32⟩
  | 56 => ⟨S_, .i32⟩
  | 57 => ⟨S1600000, .i32⟩
  | 58 => ⟨S1600000, .i1⟩
  | 59 => ⟨S_, .i32⟩
  | 60 => ⟨S1600000, .i32⟩
  | 61 => ⟨S1600000, .i32⟩
  | 62 => ⟨S1600000, .i32⟩
  | 63 => ⟨S1600000x1, .i32⟩
  | 64 => ⟨S1600000x128, .f32⟩
  | 65 => ⟨S_, .i32⟩
  | 66 => ⟨S1600000, .i32⟩
  | 67 => ⟨S1600000, .i1⟩
  | 68 => ⟨S_, .i32⟩
  | 69 => ⟨S1600000, .i32⟩
  | 70 => ⟨S1600000, .i32⟩
  | 71 => ⟨S1600000, .i32⟩
  | 72 => ⟨S1600000x1, .i32⟩
  | 73 => ⟨S1600000x1, .f32⟩
  | 74 => ⟨S1600000x128, .f32⟩
  | 75 => ⟨S1600000x128, .f32⟩
  | 76 => ⟨S_, .f32⟩
  | 77 => ⟨S100000x128, .f32⟩
  | 78 => ⟨S1600000x1, .i32⟩
  | 79 => ⟨S100000x128, .f32⟩
  | 80 => ⟨S1x128, .f32⟩
  | 81 => ⟨S100000x128, .f32⟩
  | 82 => ⟨S100000x128, .f32⟩
  | 83 => ⟨S_, .i32⟩
  | 84 => ⟨S1600000, .i32⟩
  | 85 => ⟨S1600000, .i1⟩
  | 86 => ⟨S_, .i32⟩
  | 87 => ⟨S1600000, .i32⟩
  | 88 => ⟨S1600000, .i32⟩
  | 89 => ⟨S1600000, .i32⟩
  | 90 => ⟨S1600000x1, .i32⟩
  | 91 => ⟨S1600000x128, .f32⟩
  | 92 => ⟨S_, .i32⟩
  | 93 => ⟨S1600000, .i32⟩
  | 94 => ⟨S1600000, .i1⟩
  | 95 => ⟨S_, .i32⟩
  | 96 => ⟨S1600000, .i32⟩
  | 97 => ⟨S1600000, .i32⟩
  | 98 => ⟨S1600000, .i32⟩
  | 99 => ⟨S1600000x1, .i32⟩
  | 100 => ⟨S1600000x1, .f32⟩
  | 101 => ⟨S1600000x128, .f32⟩
  | 102 => ⟨S1600000x128, .f32⟩
  | 103 => ⟨S_, .f32⟩
  | 104 => ⟨S100000x128, .f32⟩
  | 105 => ⟨S1600000x1, .i32⟩
  | 106 => ⟨S100000x128, .f32⟩
  | 107 => ⟨S1x128, .f32⟩
  | 108 => ⟨S100000x128, .f32⟩
  | 109 => ⟨S100000x64, .f32⟩
  | 110 => ⟨S_, .i32⟩
  | 111 => ⟨S1600000, .i32⟩
  | 112 => ⟨S1600000, .i1⟩
  | 113 => ⟨S_, .i32⟩
  | 114 => ⟨S1600000, .i32⟩
  | 115 => ⟨S1600000, .i32⟩
  | 116 => ⟨S1600000, .i32⟩
  | 117 => ⟨S1600000x1, .i32⟩
  | 118 => ⟨S1600000x64, .f32⟩
  | 119 => ⟨S_, .i32⟩
  | 120 => ⟨S1600000, .i32⟩
  | 121 => ⟨S1600000, .i1⟩
  | 122 => ⟨S_, .i32⟩
  | 123 => ⟨S1600000, .i32⟩
  | 124 => ⟨S1600000, .i32⟩
  | 125 => ⟨S1600000, .i32⟩
  | 126 => ⟨S1600000x1, .i32⟩
  | 127 => ⟨S1600000x1, .f32⟩
  | _ => ⟨S100000x128, .f32⟩

abbrev hbmTy0_1 (i : Nat) : BufTy := match i % 128 with
  | 0 => ⟨S1600000x64, .f32⟩
  | 1 => ⟨S1600000x64, .f32⟩
  | 2 => ⟨S_, .f32⟩
  | 3 => ⟨S100000x64, .f32⟩
  | 4 => ⟨S1600000x1, .i32⟩
  | 5 => ⟨S100000x64, .f32⟩
  | 6 => ⟨S1x64, .f32⟩
  | 7 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x1, .f32⟩
  | .local _ .vmem, ⟨24, _⟩ => ⟨S5000x1, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S128x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x1, .f32⟩
  | .local _ .vmem, ⟨38, _⟩ => ⟨S5000x1, .f32⟩
  | .local _ .vmem, ⟨39, _⟩ => ⟨S1x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S128x64, .f32⟩
  | .local _ .vmem, ⟨45, _⟩ => ⟨S5000x64, .f32⟩
  | .local _ .vmem, ⟨46, _⟩ => ⟨S5000x64, .f32⟩
  | .local _ .vmem, ⟨47, _⟩ => ⟨S5000x64, .f32⟩
  | .local _ .vmem, ⟨48, _⟩ => ⟨S5000x64, .f32⟩
  | .local _ .vmem, ⟨49, _⟩ => ⟨S5000x64, .f32⟩
  | .local _ .vmem, ⟨50, _⟩ => ⟨S5000x64, .f32⟩
  | .local _ .vmem, ⟨51, _⟩ => ⟨S5000x1, .f32⟩
  | .local _ .vmem, ⟨52, _⟩ => ⟨S5000x1, .f32⟩
  | .local _ .vmem, ⟨53, _⟩ => ⟨S1x64, .f32⟩
  | .local _ .vmem, ⟨54, _⟩ => ⟨S5000x64, .f32⟩
  | .local _ .vmem, ⟨55, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_c_7 : Ref sig .tc := ⟨.hbm, 56, rfl⟩
abbrev main_v37 : Ref sig .tc := ⟨.hbm, 57, rfl⟩
abbrev main_v38 : Ref sig .tc := ⟨.hbm, 58, rfl⟩
abbrev main_c_8 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_c_9 : Ref sig .tc := ⟨.hbm, 65, rfl⟩
abbrev main_v44 : Ref sig .tc := ⟨.hbm, 66, rfl⟩
abbrev main_v45 : Ref sig .tc := ⟨.hbm, 67, rfl⟩
abbrev main_c_10 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_c_12 : Ref sig .tc := ⟨.hbm, 83, rfl⟩
abbrev main_v59 : Ref sig .tc := ⟨.hbm, 84, rfl⟩
abbrev main_v60 : Ref sig .tc := ⟨.hbm, 85, rfl⟩
abbrev main_c_13 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_c_14 : Ref sig .tc := ⟨.hbm, 92, rfl⟩
abbrev main_v66 : Ref sig .tc := ⟨.hbm, 93, rfl⟩
abbrev main_v67 : Ref sig .tc := ⟨.hbm, 94, rfl⟩
abbrev main_c_15 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_cst_16 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_c_17 : Ref sig .tc := ⟨.hbm, 110, rfl⟩
abbrev main_v81 : Ref sig .tc := ⟨.hbm, 111, rfl⟩
abbrev main_v82 : Ref sig .tc := ⟨.hbm, 112, rfl⟩
abbrev main_c_18 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_c_19 : Ref sig .tc := ⟨.hbm, 119, rfl⟩
abbrev main_v88 : Ref sig .tc := ⟨.hbm, 120, rfl⟩
abbrev main_v89 : Ref sig .tc := ⟨.hbm, 121, rfl⟩
abbrev main_c_20 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_cst_21 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg2_0 : Ref sig .tc := ⟨.vmem, 45, rfl⟩
abbrev cc6_stg2_1 : Ref sig .tc := ⟨.vmem, 46, rfl⟩
abbrev cc7_stg0_0 : Ref sig .tc := ⟨.vmem, 47, rfl⟩
abbrev cc7_stg0_1 : Ref sig .tc := ⟨.vmem, 48, rfl⟩
abbrev cc7_stg1_0 : Ref sig .tc := ⟨.vmem, 49, rfl⟩
abbrev cc7_stg1_1 : Ref sig .tc := ⟨.vmem, 50, rfl⟩
abbrev cc7_stg2_0 : Ref sig .tc := ⟨.vmem, 51, rfl⟩
abbrev cc7_stg2_1 : Ref sig .tc := ⟨.vmem, 52, rfl⟩
abbrev cc7_stg3_0 : Ref sig .tc := ⟨.vmem, 53, rfl⟩
abbrev cc7_stg4_0 : Ref sig .tc := ⟨.vmem, 54, rfl⟩
abbrev cc7_stg4_1 : Ref sig .tc := ⟨.vmem, 55, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem2_1 : DmaSem sig := 38
abbrev cc5_sem3_0 : DmaSem sig := 39
abbrev cc5_sem4_0 : DmaSem sig := 40
abbrev cc5_sem4_1 : DmaSem sig := 41
abbrev cc6_sem0_0 : DmaSem sig := 42
abbrev cc6_sem0_1 : DmaSem sig := 43
abbrev cc6_sem1_0 : DmaSem sig := 44
abbrev cc6_sem2_0 : DmaSem sig := 45
abbrev cc6_sem2_1 : DmaSem sig := 46
abbrev cc7_sem0_0 : DmaSem sig := 47
abbrev cc7_sem0_1 : DmaSem sig := 48
abbrev cc7_sem1_0 : DmaSem sig := 49
abbrev cc7_sem1_1 : DmaSem sig := 50
abbrev cc7_sem2_0 : DmaSem sig := 51
abbrev cc7_sem2_1 : DmaSem sig := 52
abbrev cc7_sem3_0 : DmaSem sig := 53
abbrev cc7_sem4_0 : DmaSem sig := 54
abbrev cc7_sem4_1 : DmaSem sig := 55

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S5000x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S1x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S5000x64 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S128_S1x128 : S128.ShapeCasts S1x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  shapeCasts_S5000x128_S5000x128 : S5000x128.ShapeCasts S5000x128
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  gather_S100000x1_S1600000x1_S1600000x1_1_0_n_n_0_1_11_wf : GatherDims.WF S100000x1 S1600000x1 S1600000x1 [1] [0] [] [0] [] 1 ![1, 1]
  scatter_S100000x128_S1600000x1_S1600000x128_1_0_0_1_wf : ScatterDims.WF S100000x128 S1600000x1 S1600000x128 [1] [0] [0] 1
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S100000x128.size a
  hwx3_4 : ∀ i : grid3.Coords, EltTy.bits .f32 = 32 ∨ (Rect.block (s := S100000x128) S5000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S100000x128.size a
  hwx4_2 : ∀ i : grid4.Coords, EltTy.bits .f32 = 32 ∨ (Rect.block (s := S100000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S100000x128.size a
  hwx5_1 : ∀ i : grid5.Coords, EltTy.bits .f32 = 32 ∨ (Rect.block (s := S100000x128) S5000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S100000x1.size a
  hwx5_2 : ∀ i : grid5.Coords, EltTy.bits .f32 = 32 ∨ (Rect.block (s := S100000x1) S5000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x128.size a ≤ S100000x128.size a
  hwx5_4 : ∀ i : grid5.Coords, EltTy.bits .f32 = 32 ∨ (Rect.block (s := S100000x128) S5000x128.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x64.size a ≤ S128x64.size a
  hwx6_1 : ∀ i : grid6.Coords, EltTy.bits .f32 = 32 ∨ (Rect.block (s := S128x64) S128x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x64.size a ≤ S100000x64.size a
  hwx6_2 : ∀ i : grid6.Coords, EltTy.bits .f32 = 32 ∨ (Rect.block (s := S100000x64) S5000x64.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S100000x64.size a
  hwx7_0 : ∀ i : grid7.Coords, EltTy.bits .f32 = 32 ∨ (Rect.block (s := S100000x64) S5000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x64.size a ≤ S100000x64.size a
  hwx7_1 : ∀ i : grid7.Coords, EltTy.bits .f32 = 32 ∨ (Rect.block (s := S100000x64) S5000x64.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x1.size a ≤ S100000x1.size a
  hwx7_2 : ∀ i : grid7.Coords, EltTy.bits .f32 = 32 ∨ (Rect.block (s := S100000x1) S5000x1.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x64.size a ≤ S1x64.size a
  hwx7_3 : ∀ i : grid7.Coords, EltTy.bits .f32 = 32 ∨ (Rect.block (s := S1x64) S1x64.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S5000x64.size a ≤ S100000x64.size a
  hwx7_4 : ∀ i : grid7.Coords, EltTy.bits .f32 = 32 ∨ (Rect.block (s := S100000x64) S5000x64.size (cc7_transform_4 i) (hinb7_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def gather_S100000x1_S1600000x1_S1600000x1_1_0_n_n_0_1_11 : GatherDims S100000x1 S1600000x1 S1600000x1 where
  offsetDims := [1]
  collapsedSliceDims := [0]
  operandBatchingDims := []
  startIndicesBatchingDims := []
  startIndexMap := [0]
  indexVectorDim := 1
  sliceSizes := ![1, 1]
  wf := gather_S100000x1_S1600000x1_S1600000x1_1_0_n_n_0_1_11_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v33) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v34) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v35) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v35) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v36) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v55) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v36) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v13) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v56) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v57) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v57) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v58) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v77) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v58) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v13) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v78) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v79) S5000x128.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v79) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg8) S128x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v80) S5000x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v99) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v80) S5000x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v13) S5000x1.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v100) S1x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v101) S5000x64.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 231
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x64, .f32⟩
  | 9 => ⟨S64, .f32⟩
  | 10 => ⟨S1x1600000, .i32⟩
  | 11 => ⟨S1600000, .i32⟩
  | 12 => ⟨S1x1600000, .i32⟩
  | 13 => ⟨S1600000, .i32⟩
  | 14 => ⟨S100000x128, .f32⟩
  | 15 => ⟨S100000, .i32⟩
  | 16 => ⟨S1700000, .i32⟩
  | 17 => ⟨S1700000, .i32⟩
  | 18 => ⟨S_, .f32⟩
  | 19 => ⟨S1700000, .f32⟩
  | 20 => ⟨S_, .f32⟩
  | 21 => ⟨S100000, .f32⟩
  | 22 => ⟨S1700000x1, .i32⟩
  | 23 => ⟨S100000, .f32⟩
  | 24 => ⟨S_, .f32⟩
  | 25 => ⟨S100000, .f32⟩
  | 26 => ⟨S100000, .f32⟩
  | 27 => ⟨S100000, .f32⟩
  | 28 => ⟨S_, .i32⟩
  | 29 => ⟨S1700000, .i32⟩
  | 30 => ⟨S1700000, .i1⟩
  | 31 => ⟨S_, .i32⟩
  | 32 => ⟨S1700000, .i32⟩
  | 33 => ⟨S1700000, .i32⟩
  | 34 => ⟨S1700000, .i32⟩
  | 35 => ⟨S1700000x1, .i32⟩
  | 36 => ⟨S1700000, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S1700000, .f32⟩
  | 47 => ⟨S_, .i32⟩
  | 48 => ⟨S1700000, .i32⟩
  | 49 => ⟨S1700000, .i1⟩
  | 50 => ⟨S_, .i32⟩
  | 51 => ⟨S1700000, .i32⟩
  | 52 => ⟨S1700000, .i32⟩
  | 53 => ⟨S1700000, .i32⟩
  | 54 => ⟨S1700000x1, .i32⟩
  | 55 => ⟨S1700000x128, .f32⟩
  | 56 => ⟨S1700000x1, .f32⟩
  | 57 => ⟨S1700000x128, .f32⟩
  | 58 => ⟨S1700000x128, .f32⟩
  | 59 => ⟨S_, .f32⟩
  | 60 => ⟨S100000x128, .f32⟩
  | 61 => ⟨S1700000x1, .i32⟩
  | 62 => ⟨S100000x128, .f32⟩
  | 63 => ⟨S1x128, .f32⟩
  | 64 => ⟨S100000x128, .f32⟩
  | 65 => ⟨S100000x128, .f32⟩
  | 66 => ⟨S_, .f32⟩
  | 67 => ⟨S100000x128, .f32⟩
  | 68 => ⟨S100000x128, .f32⟩
  | 69 => ⟨S100000x128, .f32⟩
  | 70 => ⟨S100000, .i32⟩
  | 71 => ⟨S1700000, .i32⟩
  | 72 => ⟨S1700000, .i32⟩
  | 73 => ⟨S_, .f32⟩
  | 74 => ⟨S1700000, .f32⟩
  | 75 => ⟨S_, .f32⟩
  | 76 => ⟨S100000, .f32⟩
  | 77 => ⟨S1700000x1, .i32⟩
  | 78 => ⟨S100000, .f32⟩
  | 79 => ⟨S_, .f32⟩
  | 80 => ⟨S100000, .f32⟩
  | 81 => ⟨S100000, .f32⟩
  | 82 => ⟨S100000, .f32⟩
  | 83 => ⟨S_, .i32⟩
  | 84 => ⟨S1700000, .i32⟩
  | 85 => ⟨S1700000, .i1⟩
  | 86 => ⟨S_, .i32⟩
  | 87 => ⟨S1700000, .i32⟩
  | 88 => ⟨S1700000, .i32⟩
  | 89 => ⟨S1700000, .i32⟩
  | 90 => ⟨S1700000x1, .i32⟩
  | 91 => ⟨S1700000, .f32⟩
  | 92 => ⟨S_, .i32⟩
  | 93 => ⟨S1700000, .i32⟩
  | 94 => ⟨S1700000, .i1⟩
  | 95 => ⟨S_, .i32⟩
  | 96 => ⟨S1700000, .i32⟩
  | 97 => ⟨S1700000, .i32⟩
  | 98 => ⟨S1700000, .i32⟩
  | 99 => ⟨S1700000x1, .i32⟩
  | 100 => ⟨S1700000, .f32⟩
  | 101 => ⟨S1700000, .f32⟩
  | 102 => ⟨S_, .i32⟩
  | 103 => ⟨S1700000, .i32⟩
  | 104 => ⟨S1700000, .i1⟩
  | 105 => ⟨S_, .i32⟩
  | 106 => ⟨S1700000, .i32⟩
  | 107 => ⟨S1700000, .i32⟩
  | 108 => ⟨S1700000, .i32⟩
  | 109 => ⟨S1700000x1, .i32⟩
  | 110 => ⟨S1700000x128, .f32⟩
  | 111 => ⟨S1700000x1, .f32⟩
  | 112 => ⟨S1700000x128, .f32⟩
  | 113 => ⟨S1700000x128, .f32⟩
  | 114 => ⟨S_, .f32⟩
  | 115 => ⟨S100000x128, .f32⟩
  | 116 => ⟨S1700000x1, .i32⟩
  | 117 => ⟨S100000x128, .f32⟩
  | 118 => ⟨S1x128, .f32⟩
  | 119 => ⟨S100000x128, .f32⟩
  | 120 => ⟨S100000x128, .f32⟩
  | 121 => ⟨S_, .f32⟩
  | 122 => ⟨S100000x128, .f32⟩
  | 123 => ⟨S100000x128, .f32⟩
  | 124 => ⟨S100000x128, .f32⟩
  | 125 => ⟨S100000, .i32⟩
  | 126 => ⟨S1700000, .i32⟩
  | 127 => ⟨S1700000, .i32⟩
  | _ => ⟨S100000x128, .f32⟩

abbrev hbmTy0_1 (i : Nat) : BufTy := match i % 128 with
  | 0 => ⟨S_, .f32⟩
  | 1 => ⟨S1700000, .f32⟩
  | 2 => ⟨S_, .f32⟩
  | 3 => ⟨S100000, .f32⟩
  | 4 => ⟨S1700000x1, .i32⟩
  | 5 => ⟨S100000, .f32⟩
  | 6 => ⟨S_, .f32⟩
  | 7 => ⟨S100000, .f32⟩
  | 8 => ⟨S100000, .f32⟩
  | 9 => ⟨S100000, .f32⟩
  | 10 => ⟨S_, .i32⟩
  | 11 => ⟨S1700000, .i32⟩
  | 12 => ⟨S1700000, .i1⟩
  | 13 => ⟨S_, .i32⟩
  | 14 => ⟨S1700000, .i32⟩
  | 15 => ⟨S1700000, .i32⟩
  | 16 => ⟨S1700000, .i32⟩
  | 17 => ⟨S1700000x1, .i32⟩
  | 18 => ⟨S1700000, .f32⟩
  | 19 => ⟨S_, .i32⟩
  | 20 => ⟨S1700000, .i32⟩
  | 21 => ⟨S1700000, .i1⟩
  | 22 => ⟨S_, .i32⟩
  | 23 => ⟨S1700000, .i32⟩
  | 24 => ⟨S1700000, .i32⟩
  | 25 => ⟨S1700000, .i32⟩
  | 26 => ⟨S1700000x1, .i32⟩
  | 27 => ⟨S1700000, .f32⟩
  | 28 => ⟨S1700000, .f32⟩
  | 29 => ⟨S_, .i32⟩
  | 30 => ⟨S1700000, .i32⟩
  | 31 => ⟨S1700000, .i1⟩
  | 32 => ⟨S_, .i32⟩
  | 33 => ⟨S1700000, .i32⟩
  | 34 => ⟨S1700000, .i32⟩
  | 35 => ⟨S1700000, .i32⟩
  | 36 => ⟨S1700000x1, .i32⟩
  | 37 => ⟨S1700000x128, .f32⟩
  | 38 => ⟨S1700000x1, .f32⟩
  | 39 => ⟨S1700000x128, .f32⟩
  | 40 => ⟨S1700000x128, .f32⟩
  | 41 => ⟨S_, .f32⟩
  | 42 => ⟨S100000x128, .f32⟩
  | 43 => ⟨S1700000x1, .i32⟩
  | 44 => ⟨S100000x128, .f32⟩
  | 45 => ⟨S1x128, .f32⟩
  | 46 => ⟨S100000x128, .f32⟩
  | 47 => ⟨S100000x128, .f32⟩
  | 48 => ⟨S_, .f32⟩
  | 49 => ⟨S100000x128, .f32⟩
  | 50 => ⟨S100000x128, .f32⟩
  | 51 => ⟨S100000x64, .f32⟩
  | 52 => ⟨S100000, .i32⟩
  | 53 => ⟨S1700000, .i32⟩
  | 54 => ⟨S1700000, .i32⟩
  | 55 => ⟨S_, .f32⟩
  | 56 => ⟨S1700000, .f32⟩
  | 57 => ⟨S_, .f32⟩
  | 58 => ⟨S100000, .f32⟩
  | 59 => ⟨S1700000x1, .i32⟩
  | 60 => ⟨S100000, .f32⟩
  | 61 => ⟨S_, .f32⟩
  | 62 => ⟨S100000, .f32⟩
  | 63 => ⟨S100000, .f32⟩
  | 64 => ⟨S100000, .f32⟩
  | 65 => ⟨S_, .i32⟩
  | 66 => ⟨S1700000, .i32⟩
  | 67 => ⟨S1700000, .i1⟩
  | 68 => ⟨S_, .i32⟩
  | 69 => ⟨S1700000, .i32⟩
  | 70 => ⟨S1700000, .i32⟩
  | 71 => ⟨S1700000, .i32⟩
  | 72 => ⟨S1700000x1, .i32⟩
  | 73 => ⟨S1700000, .f32⟩
  | 74 => ⟨S_, .i32⟩
  | 75 => ⟨S1700000, .i32⟩
  | 76 => ⟨S1700000, .i1⟩
  | 77 => ⟨S_, .i32⟩
  | 78 => ⟨S1700000, .i32⟩
  | 79 => ⟨S1700000, .i32⟩
  | 80 => ⟨S1700000, .i32⟩
  | 81 => ⟨S1700000x1, .i32⟩
  | 82 => ⟨S1700000, .f32⟩
  | 83 => ⟨S1700000, .f32⟩
  | 84 => ⟨S_, .i32⟩
  | 85 => ⟨S1700000, .i32⟩
  | 86 => ⟨S1700000, .i1⟩
  | 87 => ⟨S_, .i32⟩
  | 88 => ⟨S1700000, .i32⟩
  | 89 => ⟨S1700000, .i32⟩
  | 90 => ⟨S1700000, .i32⟩
  | 91 => ⟨S1700000x1, .i32⟩
  | 92 => ⟨S1700000x64, .f32⟩
  | 93 => ⟨S1700000x1, .f32⟩
  | 94 => ⟨S1700000x64, .f32⟩
  | 95 => ⟨S1700000x64, .f32⟩
  | 96 => ⟨S_, .f32⟩
  | 97 => ⟨S100000x64, .f32⟩
  | 98 => ⟨S1700000x1, .i32⟩
  | 99 => ⟨S100000x64, .f32⟩
  | 100 => ⟨S1x64, .f32⟩
  | 101 => ⟨S100000x64, .f32⟩
  | 102 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_3 : Ref sig .tc := ⟨.hbm, 37, rfl⟩
abbrev main_v22 : Ref sig .tc := ⟨.hbm, 38, rfl⟩
abbrev main_v23 : Ref sig .tc := ⟨.hbm, 39, rfl⟩
abbrev main_c_4 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_5 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_call0_cst : Ref sig .tc := ⟨.hbm, 66, rfl⟩
abbrev main_call0_v0 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_8 : Ref sig .tc := ⟨.hbm, 73, rfl⟩
abbrev main_v51 : Ref sig .tc := ⟨.hbm, 74, rfl⟩
abbrev main_cst_9 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_10 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_c_11 : Ref sig .tc := ⟨.hbm, 83, rfl⟩
abbrev main_v58 : Ref sig .tc := ⟨.hbm, 84, rfl⟩
abbrev main_v59 : Ref sig .tc := ⟨.hbm, 85, rfl⟩
abbrev main_c_12 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_c_13 : Ref sig .tc := ⟨.hbm, 92, rfl⟩
abbrev main_v65 : Ref sig .tc := ⟨.hbm, 93, rfl⟩
abbrev main_v66 : Ref sig .tc := ⟨.hbm, 94, rfl⟩
abbrev main_c_14 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_c_15 : Ref sig .tc := ⟨.hbm, 102, rfl⟩
abbrev main_v73 : Ref sig .tc := ⟨.hbm, 103, rfl⟩
abbrev main_v74 : Ref sig .tc := ⟨.hbm, 104, rfl⟩
abbrev main_c_16 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_cst_17 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_call1_cst : Ref sig .tc := ⟨.hbm, 121, rfl⟩
abbrev main_call1_v0 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_cst_18 : Ref sig .tc := ⟨.hbm, 128, rfl⟩
abbrev main_v94 : Ref sig .tc := ⟨.hbm, 129, rfl⟩
abbrev main_cst_19 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_cst_20 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_c_21 : Ref sig .tc := ⟨.hbm, 138, rfl⟩
abbrev main_v101 : Ref sig .tc := ⟨.hbm, 139, rfl⟩
abbrev main_v102 : Ref sig .tc := ⟨.hbm, 140, rfl⟩
abbrev main_c_22 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_c_23 : Ref sig .tc := ⟨.hbm, 147, rfl⟩
abbrev main_v108 : Ref sig .tc := ⟨.hbm, 148, rfl⟩
abbrev main_v109 : Ref sig .tc := ⟨.hbm, 149, rfl⟩
abbrev main_c_24 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_c_25 : Ref sig .tc := ⟨.hbm, 157, rfl⟩
abbrev main_v116 : Ref sig .tc := ⟨.hbm, 158, rfl⟩
abbrev main_v117 : Ref sig .tc := ⟨.hbm, 159, rfl⟩
abbrev main_c_26 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_cst_27 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_call2_cst : Ref sig .tc := ⟨.hbm, 176, rfl⟩
abbrev main_call2_v0 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_cst_28 : Ref sig .tc := ⟨.hbm, 183, rfl⟩
abbrev main_v137 : Ref sig .tc := ⟨.hbm, 184, rfl⟩
abbrev main_cst_29 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_cst_30 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_c_31 : Ref sig .tc := ⟨.hbm, 193, rfl⟩
abbrev main_v144 : Ref sig .tc := ⟨.hbm, 194, rfl⟩
abbrev main_v145 : Ref sig .tc := ⟨.hbm, 195, rfl⟩
abbrev main_c_32 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_c_33 : Ref sig .tc := ⟨.hbm, 202, rfl⟩
abbrev main_v151 : Ref sig .tc := ⟨.hbm, 203, rfl⟩
abbrev main_v152 : Ref sig .tc := ⟨.hbm, 204, rfl⟩
abbrev main_c_34 : Ref sig .tc := ⟨.hbm, 205, rfl⟩
abbrev main_v153 : Ref sig .tc := ⟨.hbm, 206, rfl⟩
abbrev main_v154 : Ref sig .tc := ⟨.hbm, 207, rfl⟩
abbrev main_v155 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩
abbrev main_c_35 : Ref sig .tc := ⟨.hbm, 212, rfl⟩
abbrev main_v159 : Ref sig .tc := ⟨.hbm, 213, rfl⟩
abbrev main_v160 : Ref sig .tc := ⟨.hbm, 214, rfl⟩
abbrev main_c_36 : Ref sig .tc := ⟨.hbm, 215, rfl⟩
abbrev main_v161 : Ref sig .tc := ⟨.hbm, 216, rfl⟩
abbrev main_v162 : Ref sig .tc := ⟨.hbm, 217, rfl⟩
abbrev main_v163 : Ref sig .tc := ⟨.hbm, 218, rfl⟩
abbrev main_v164 : Ref sig .tc := ⟨.hbm, 219, rfl⟩
abbrev main_v165 : Ref sig .tc := ⟨.hbm, 220, rfl⟩
abbrev main_v166 : Ref sig .tc := ⟨.hbm, 221, rfl⟩
abbrev main_v167 : Ref sig .tc := ⟨.hbm, 222, rfl⟩
abbrev main_v168 : Ref sig .tc := ⟨.hbm, 223, rfl⟩
abbrev main_cst_37 : Ref sig .tc := ⟨.hbm, 224, rfl⟩
abbrev main_v169 : Ref sig .tc := ⟨.hbm, 225, rfl⟩
abbrev main_v170 : Ref sig .tc := ⟨.hbm, 226, rfl⟩
abbrev main_v171 : Ref sig .tc := ⟨.hbm, 227, rfl⟩
abbrev main_v172 : Ref sig .tc := ⟨.hbm, 228, rfl⟩
abbrev main_v173 : Ref sig .tc := ⟨.hbm, 229, rfl⟩
abbrev main_v174 : Ref sig .tc := ⟨.hbm, 230, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KernelRun.lean ====
/-
  The run of the idealized kernel program with its result named.

  The program is eight kernel regions among stretches of host operations. Every weakly fair execution terminates with
  nothing faulting; at the end each buffer that outlives the regions holds the contents of the last segment boundary,
  a fold through the program from the launch memory: a stretch of host operations leaves its operations' results, a
  region leaves its arrays at what its write-backs make of them. The result buffer is one of those buffers, so the run
  ends with it at that boundary's contents, and the argument arrays end as launched.
-/
import proofs.«174543_j66812511257314_1_alg».proof.Proof.Gen.KernelIdeal.Frame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the argument arrays as launched. -/
theorem run_result : θ_run defs (onTc (τ := τ) (main (F := F))) ⟨m, fun _ => 0, ρ⟩ (fun r => ∀ c : Dev nD,
      r.2.mem ((c.tc : Thread nD τ).loc main_v101) = W13 m ρ c (Proc.devRef .tc main_v101)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v101 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c)⟩)

end Cert.KernelIdeal.Result

end
-- ==== Proof.LibAfter.lean ====
/-
  General facts for reading the fold of buffer contents through a line of host operations.

  * Over a concatenation: running two lines one after the other is running the first, then the second from what the first
    left (`after_append`).
  * A concatenation of TWO arrays with the arrays as plain arguments (`concat2`, `concatenate_pair`): in `concatenate` the
    operands sit in a list of (shape, array) pairs on which the shape fact depends, so a rewriting pass cannot go inside the
    list; stated over the two arrays it can.
  * `read_fold`: one rewriting pass that reads such a fold back at a buffer — each operation's result at its own result
    buffer is its function of the operands' contents, at any other buffer what was there — going inside two-operand
    concatenations as well.
-/
import Idealize.ShloMosaic.Lib.StableHlo.Run

noncomputable section

namespace Cert.Lib.After

open Idealize.ShloMosaic Idealize.ShloMosaic.StableHlo

variable {τ : Topo} {sig : RefSig} {Val : EltTy → Type}

/-- The contents after `l₁ ++ l₂` are the contents after `l₂` from the contents after `l₁`. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- The concatenation of two arrays along an axis, the arrays as plain arguments. -/
def concat2 {α : Type} (t : Shape) (a : Fin t.rank) (s₁ s₂ : Shape) (x : s₁.Idx → α) (y : s₂.Idx → α)
    (h : Shape.Concatenates [s₁, s₂] t a) : t.Idx → α :=
  concatenate t a [⟨s₁, x⟩, ⟨s₂, y⟩] h

/-- A two-operand `concatenate` is that. -/
theorem concatenate_pair {α : Type} (t : Shape) (a : Fin t.rank) (s₁ s₂ : Shape) (x : s₁.Idx → α) (y : s₂.Idx → α)
    (h : Shape.Concatenates (([⟨s₁, x⟩, ⟨s₂, y⟩] : List ((s : Shape) × (s.Idx → α))).map (·.1)) t a) :
    concatenate t a [⟨s₁, x⟩, ⟨s₂, y⟩] h = concat2 t a s₁ s₂ x y (by simpa using h) := rfl

end Cert.Lib.After

/-- Reads a fold of host operations back at a buffer in one rewriting pass (the library's pass, and inside two-operand
    concatenations). -/
macro "read_fold" : tactic =>
  `(tactic| (simp (disch := decide) only [Idealize.ShloMosaic.StableHlo.after_cons, Idealize.ShloMosaic.StableHlo.after_nil,
      Idealize.ShloMosaic.StableHlo.nullary_result', Idealize.ShloMosaic.StableHlo.unary_result', Idealize.ShloMosaic.StableHlo.binary_result',
      Idealize.ShloMosaic.StableHlo.ternary_result', Idealize.ShloMosaic.StableHlo.quaternary_result', Idealize.ShloMosaic.StableHlo.reshape_result',
      Idealize.ShloMosaic.StableHlo.nary4_result', Idealize.ShloMosaic.StableHlo.nary_result',
      Idealize.ShloMosaic.StableHlo.unaryIndexed_result', Idealize.ShloMosaic.StableHlo.binaryIndexed_result',
      Idealize.ShloMosaic.StableHlo.nullary_result_ne', Idealize.ShloMosaic.StableHlo.unary_result_ne', Idealize.ShloMosaic.StableHlo.binary_result_ne',
      Idealize.ShloMosaic.StableHlo.ternary_result_ne', Idealize.ShloMosaic.StableHlo.quaternary_result_ne', Idealize.ShloMosaic.StableHlo.reshape_result_ne',
      Idealize.ShloMosaic.StableHlo.nary_result_ne', Idealize.ShloMosaic.StableHlo.unaryIndexed_result_ne', Idealize.ShloMosaic.StableHlo.binaryIndexed_result_ne',
      Cert.Lib.After.concatenate_pair]))

end
-- ==== Proof.KernelHost.lean ====
/-
  The stretches of host operations of the kernel program, read back at the buffers later segments use.

  The first stretch takes the two rows of the edge list apart (sources, destinations) and computes the column of node
  coefficients: the degree of a node is the number of edges whose destination word names it, counted by adding ones
  into a zero column, plus one; the coefficient is the reciprocal square root of the maximum of the degree and one.
  Each later stretch computes, for one layer, the neighbourhood sums of the table the preceding matrix product left
  (a gather of source rows, each scaled by the source row's coefficient, added into the destination rows from zero) and
  views the layer's bias vector as a row. A source index is wrapped when negative before it is used to gather; a
  destination word is used as it is. Every buffer a stretch does not write is left as it was.
-/
import proofs.«174543_j66812511257314_1_alg».proof.Proof.Gen.KernelIdeal.Frame
import proofs.«174543_j66812511257314_1_alg».proof.Proof.LibAfter
import Idealize.ShloMosaic.Lib.StableHlo.Run
import Idealize.ShloMosaic.PureOps.Ideal.Laws
import Idealize.ShloMosaic.Lib.Pipeline.Value

set_option maxRecDepth 16384

noncomputable section

namespace Cert.KernelIdeal.HostRead

open Cert.KernelIdeal Cert.KernelIdeal.Gen
open Idealize.ShloMosaic Idealize.ShloMosaic.TcCoe Idealize.SL.Sem

/-- The row of source words of the edge list. -/
def kSrc (ei : IVec S2x1600000 32) : IVec S1600000 32 :=
  shapeCast _ (extractStridedSlice S1x1600000 ![0, 0] ei slices_S2x1600000_S1x1600000_0_0) shapeCasts_S1x1600000_S1600000

/-- The row of destination words of the edge list. -/
def kDst (ei : IVec S2x1600000 32) : IVec S1600000 32 :=
  shapeCast _ (extractStridedSlice S1x1600000 ![1, 0] ei slices_S2x1600000_S1x1600000_1_0) shapeCasts_S1x1600000_S1600000

/-- A vector of index words as a column of index vectors of length one. -/
def kCol (v : IVec S1600000 32) : IVec S1600000x1 32 := broadcastInDim S1600000x1 ![0] bcast_S1600000_S1600000x1_0 v

/-- The wrap of possibly negative indices: a negative word has the number of nodes added to it. -/
def kWrap (v : IVec S1600000 32) : IVec S1600000 32 :=
  select (cmpi .slt v (broadcastInDim S1600000 ![] bcast_S_S1600000 (constantI S_ 32 0#32)))
    (addi v (broadcastInDim S1600000 ![] bcast_S_S1600000 (constantI S_ 32 100000#32))) v

/-- The column of node coefficients, from the destination words. -/
def kDinvCol (dst : IVec S1600000 32) : FVec Ideal S100000x1 .f32 :=
  shapeCast _ (Host.rsqrt (F := Ideal) (maximumf (addf (Host.scatterAdd (F := Ideal) scatter_S100000_S1600000x1_S1600000_n_0_0_1
      (broadcastInDim S100000 ![] bcast_S_S100000 (constant (F := Ideal) S_ .f32 0x00000000#32)) (kCol dst)
      (broadcastInDim S1600000 ![] bcast_S_S1600000 (constant (F := Ideal) S_ .f32 0x3F800000#32)))
    (broadcastInDim S100000 ![] bcast_S_S100000 (constant (F := Ideal) S_ .f32 0x3F800000#32)))
    (broadcastInDim S100000 ![] bcast_S_S100000 (constant (F := Ideal) S_ .f32 0x3F800000#32)))) shapeCasts_S100000_S100000x1

/-- The neighbourhood sums of a table of `128` columns: from zero, each edge adds the source row's features times the
    source row's coefficient to the row its destination word names. -/
def kAgg128 (src dst : IVec S1600000 32) (d : FVec Ideal S100000x1 .f32) (h : FVec Ideal S100000x128 .f32) :
    FVec Ideal S100000x128 .f32 :=
  Host.scatterAdd (F := Ideal) scatter_S100000x128_S1600000x1_S1600000x128_1_0_0_1
    (broadcastInDim S100000x128 ![] bcast_S_S100000x128 (constant (F := Ideal) S_ .f32 0x00000000#32)) (kCol dst)
    (mulf (Host.gather gather_S100000x128_S1600000x1_S1600000x128_1_0_n_n_0_1_1128 h (kCol (kWrap src)))
      (broadcastInDim S1600000x128 ![0, 1] bcast_S1600000x1_S1600000x128_0_1
        (Host.gather gather_S100000x1_S1600000x1_S1600000x1_1_0_n_n_0_1_11 d (kCol (kWrap src)))))

/-- The neighbourhood sums of a table of `64` columns: from zero, each edge adds the source row's features times the
    source row's coefficient to the row its destination word names. -/
def kAgg64 (src dst : IVec S1600000 32) (d : FVec Ideal S100000x1 .f32) (h : FVec Ideal S100000x64 .f32) :
    FVec Ideal S100000x64 .f32 :=
  Host.scatterAdd (F := Ideal) scatter_S100000x64_S1600000x1_S1600000x64_1_0_0_1
    (broadcastInDim S100000x64 ![] bcast_S_S100000x64 (constant (F := Ideal) S_ .f32 0x00000000#32)) (kCol dst)
    (mulf (Host.gather gather_S100000x64_S1600000x1_S1600000x64_1_0_n_n_0_1_164 h (kCol (kWrap src)))
      (broadcastInDim S1600000x64 ![0, 1] bcast_S1600000x1_S1600000x64_0_1
        (Host.gather gather_S100000x1_S1600000x1_S1600000x1_1_0_n_n_0_1_11 d (kCol (kWrap src)))))

/-- A bias vector viewed as a row. -/
def kBias128 (b : FVec Ideal S128 .f32) : FVec Ideal S1x128 .f32 := shapeCast _ b shapeCasts_S128_S1x128
def kBias64 (b : FVec Ideal S64 .f32) : FVec Ideal S1x64 .f32 := shapeCast _ b shapeCasts_S64_S1x64

variable (W : Valuation τ sig (Elt Ideal))

/-! ### The first stretch -/

theorem hostOps0_main_v1 : StableHlo.after (hostOps0 (F := Ideal)) W (Proc.devRef .tc main_v1) = kSrc (W (Proc.devRef .tc main_arg1)) := by
  read_fold
  rfl
theorem hostOps0_main_v3 : StableHlo.after (hostOps0 (F := Ideal)) W (Proc.devRef .tc main_v3) = kDst (W (Proc.devRef .tc main_arg1)) := by
  read_fold
  rfl
theorem hostOps0_main_v13 : StableHlo.after (hostOps0 (F := Ideal)) W (Proc.devRef .tc main_v13) = kDinvCol (kDst (W (Proc.devRef .tc main_arg1))) := by
  read_fold
  rfl
theorem hostOps0_keep_main_arg0 : StableHlo.after (hostOps0 (F := Ideal)) W (Proc.devRef .tc main_arg0) = W (Proc.devRef .tc main_arg0) := by
  read_fold
theorem hostOps0_keep_main_arg2 : StableHlo.after (hostOps0 (F := Ideal)) W (Proc.devRef .tc main_arg2) = W (Proc.devRef .tc main_arg2) := by
  read_fold
theorem hostOps0_keep_main_arg3 : StableHlo.after (hostOps0 (F := Ideal)) W (Proc.devRef .tc main_arg3) = W (Proc.devRef .tc main_arg3) := by
  read_fold
theorem hostOps0_keep_main_arg4 : StableHlo.after (hostOps0 (F := Ideal)) W (Proc.devRef .tc main_arg4) = W (Proc.devRef .tc main_arg4) := by
  read_fold
theorem hostOps0_keep_main_arg5 : StableHlo.after (hostOps0 (F := Ideal)) W (Proc.devRef .tc main_arg5) = W (Proc.devRef .tc main_arg5) := by
  read_fold
theorem hostOps0_keep_main_arg6 : StableHlo.after (hostOps0 (F := Ideal)) W (Proc.devRef .tc main_arg6) = W (Proc.devRef .tc main_arg6) := by
  read_fold
theorem hostOps0_keep_main_arg7 : StableHlo.after (hostOps0 (F := Ideal)) W (Proc.devRef .tc main_arg7) = W (Proc.devRef .tc main_arg7) := by
  read_fold
theorem hostOps0_keep_main_arg8 : StableHlo.after (hostOps0 (F := Ideal)) W (Proc.devRef .tc main_arg8) = W (Proc.devRef .tc main_arg8) := by
  read_fold
theorem hostOps0_keep_main_arg9 : StableHlo.after (hostOps0 (F := Ideal)) W (Proc.devRef .tc main_arg9) = W (Proc.devRef .tc main_arg9) := by
  read_fold

/-! ### The stretch `hostOps1` -/

theorem hostOps1_main_v33 : StableHlo.after (hostOps1 (F := Ideal)) W (Proc.devRef .tc main_v33)
    = kAgg128 (W (Proc.devRef .tc main_v1)) (W (Proc.devRef .tc main_v3)) (W (Proc.devRef .tc main_v13)) (W (Proc.devRef .tc main_v14)) := by
  read_fold
  rfl
theorem hostOps1_main_v34 : StableHlo.after (hostOps1 (F := Ideal)) W (Proc.devRef .tc main_v34)
    = kBias128 (W (Proc.devRef .tc main_arg3)) := by
  read_fold
  rfl
theorem hostOps1_keep_main_v1 : StableHlo.after (hostOps1 (F := Ideal)) W (Proc.devRef .tc main_v1) = W (Proc.devRef .tc main_v1) := by
  read_fold
theorem hostOps1_keep_main_v3 : StableHlo.after (hostOps1 (F := Ideal)) W (Proc.devRef .tc main_v3) = W (Proc.devRef .tc main_v3) := by
  read_fold
theorem hostOps1_keep_main_v13 : StableHlo.after (hostOps1 (F := Ideal)) W (Proc.devRef .tc main_v13) = W (Proc.devRef .tc main_v13) := by
  read_fold
theorem hostOps1_keep_main_v14 : StableHlo.after (hostOps1 (F := Ideal)) W (Proc.devRef .tc main_v14) = W (Proc.devRef .tc main_v14) := by
  read_fold
theorem hostOps1_keep_main_arg3 : StableHlo.after (hostOps1 (F := Ideal)) W (Proc.devRef .tc main_arg3) = W (Proc.devRef .tc main_arg3) := by
  read_fold
theorem hostOps1_keep_main_arg4 : StableHlo.after (hostOps1 (F := Ideal)) W (Proc.devRef .tc main_arg4) = W (Proc.devRef .tc main_arg4) := by
  read_fold
theorem hostOps1_keep_main_arg5 : StableHlo.after (hostOps1 (F := Ideal)) W (Proc.devRef .tc main_arg5) = W (Proc.devRef .tc main_arg5) := by
  read_fold
theorem hostOps1_keep_main_arg6 : StableHlo.after (hostOps1 (F := Ideal)) W (Proc.devRef .tc main_arg6) = W (Proc.devRef .tc main_arg6) := by
  read_fold
theorem hostOps1_keep_main_arg7 : StableHlo.after (hostOps1 (F := Ideal)) W (Proc.devRef .tc main_arg7) = W (Proc.devRef .tc main_arg7) := by
  read_fold
theorem hostOps1_keep_main_arg8 : StableHlo.after (hostOps1 (F := Ideal)) W (Proc.devRef .tc main_arg8) = W (Proc.devRef .tc main_arg8) := by
  read_fold
theorem hostOps1_keep_main_arg9 : StableHlo.after (hostOps1 (F := Ideal)) W (Proc.devRef .tc main_arg9) = W (Proc.devRef .tc main_arg9) := by
  read_fold

/-! ### The stretch `hostOps3` -/

theorem hostOps3_main_v55 : StableHlo.after (hostOps3 (F := Ideal)) W (Proc.devRef .tc main_v55)
    = kAgg128 (W (Proc.devRef .tc main_v1)) (W (Proc.devRef .tc main_v3)) (W (Proc.devRef .tc main_v13)) (W (Proc.devRef .tc main_v36)) := by
  read_fold
  rfl
theorem hostOps3_main_v56 : StableHlo.after (hostOps3 (F := Ideal)) W (Proc.devRef .tc main_v56)
    = kBias128 (W (Proc.devRef .tc main_arg5)) := by
  read_fold
  rfl
theorem hostOps3_keep_main_v1 : StableHlo.after (hostOps3 (F := Ideal)) W (Proc.devRef .tc main_v1) = W (Proc.devRef .tc main_v1) := by
  read_fold
theorem hostOps3_keep_main_v3 : StableHlo.after (hostOps3 (F := Ideal)) W (Proc.devRef .tc main_v3) = W (Proc.devRef .tc main_v3) := by
  read_fold
theorem hostOps3_keep_main_v13 : StableHlo.after (hostOps3 (F := Ideal)) W (Proc.devRef .tc main_v13) = W (Proc.devRef .tc main_v13) := by
  read_fold
theorem hostOps3_keep_main_v36 : StableHlo.after (hostOps3 (F := Ideal)) W (Proc.devRef .tc main_v36) = W (Proc.devRef .tc main_v36) := by
  read_fold
theorem hostOps3_keep_main_arg3 : StableHlo.after (hostOps3 (F := Ideal)) W (Proc.devRef .tc main_arg3) = W (Proc.devRef .tc main_arg3) := by
  read_fold
theorem hostOps3_keep_main_arg4 : StableHlo.after (hostOps3 (F := Ideal)) W (Proc.devRef .tc main_arg4) = W (Proc.devRef .tc main_arg4) := by
  read_fold
theorem hostOps3_keep_main_arg5 : StableHlo.after (hostOps3 (F := Ideal)) W (Proc.devRef .tc main_arg5) = W (Proc.devRef .tc main_arg5) := by
  read_fold
theorem hostOps3_keep_main_arg6 : StableHlo.after (hostOps3 (F := Ideal)) W (Proc.devRef .tc main_arg6) = W (Proc.devRef .tc main_arg6) := by
  read_fold
theorem hostOps3_keep_main_arg7 : StableHlo.after (hostOps3 (F := Ideal)) W (Proc.devRef .tc main_arg7) = W (Proc.devRef .tc main_arg7) := by
  read_fold
theorem hostOps3_keep_main_arg8 : StableHlo.after (hostOps3 (F := Ideal)) W (Proc.devRef .tc main_arg8) = W (Proc.devRef .tc main_arg8) := by
  read_fold
theorem hostOps3_keep_main_arg9 : StableHlo.after (hostOps3 (F := Ideal)) W (Proc.devRef .tc main_arg9) = W (Proc.devRef .tc main_arg9) := by
  read_fold

/-! ### The stretch `hostOps5` -/

theorem hostOps5_main_v77 : StableHlo.after (hostOps5 (F := Ideal)) W (Proc.devRef .tc main_v77)
    = kAgg128 (W (Proc.devRef .tc main_v1)) (W (Proc.devRef .tc main_v3)) (W (Proc.devRef .tc main_v13)) (W (Proc.devRef .tc main_v58)) := by
  read_fold
  rfl
theorem hostOps5_main_v78 : StableHlo.after (hostOps5 (F := Ideal)) W (Proc.devRef .tc main_v78)
    = kBias128 (W (Proc.devRef .tc main_arg7)) := by
  read_fold
  rfl
theorem hostOps5_keep_main_v1 : StableHlo.after (hostOps5 (F := Ideal)) W (Proc.devRef .tc main_v1) = W (Proc.devRef .tc main_v1) := by
  read_fold
theorem hostOps5_keep_main_v3 : StableHlo.after (hostOps5 (F := Ideal)) W (Proc.devRef .tc main_v3) = W (Proc.devRef .tc main_v3) := by
  read_fold
theorem hostOps5_keep_main_v13 : StableHlo.after (hostOps5 (F := Ideal)) W (Proc.devRef .tc main_v13) = W (Proc.devRef .tc main_v13) := by
  read_fold
theorem hostOps5_keep_main_v58 : StableHlo.after (hostOps5 (F := Ideal)) W (Proc.devRef .tc main_v58) = W (Proc.devRef .tc main_v58) := by
  read_fold
theorem hostOps5_keep_main_arg3 : StableHlo.after (hostOps5 (F := Ideal)) W (Proc.devRef .tc main_arg3) = W (Proc.devRef .tc main_arg3) := by
  read_fold
theorem hostOps5_keep_main_arg4 : StableHlo.after (hostOps5 (F := Ideal)) W (Proc.devRef .tc main_arg4) = W (Proc.devRef .tc main_arg4) := by
  read_fold
theorem hostOps5_keep_main_arg5 : StableHlo.after (hostOps5 (F := Ideal)) W (Proc.devRef .tc main_arg5) = W (Proc.devRef .tc main_arg5) := by
  read_fold
theorem hostOps5_keep_main_arg6 : StableHlo.after (hostOps5 (F := Ideal)) W (Proc.devRef .tc main_arg6) = W (Proc.devRef .tc main_arg6) := by
  read_fold
theorem hostOps5_keep_main_arg7 : StableHlo.after (hostOps5 (F := Ideal)) W (Proc.devRef .tc main_arg7) = W (Proc.devRef .tc main_arg7) := by
  read_fold
theorem hostOps5_keep_main_arg8 : StableHlo.after (hostOps5 (F := Ideal)) W (Proc.devRef .tc main_arg8) = W (Proc.devRef .tc main_arg8) := by
  read_fold
theorem hostOps5_keep_main_arg9 : StableHlo.after (hostOps5 (F := Ideal)) W (Proc.devRef .tc main_arg9) = W (Proc.devRef .tc main_arg9) := by
  read_fold

/-! ### The stretch `hostOps7` -/

theorem hostOps7_main_v99 : StableHlo.after (hostOps7 (F := Ideal)) W (Proc.devRef .tc main_v99)
    = kAgg64 (W (Proc.devRef .tc main_v1)) (W (Proc.devRef .tc main_v3)) (W (Proc.devRef .tc main_v13)) (W (Proc.devRef .tc main_v80)) := by
  read_fold
  rfl
theorem hostOps7_main_v100 : StableHlo.after (hostOps7 (F := Ideal)) W (Proc.devRef .tc main_v100)
    = kBias64 (W (Proc.devRef .tc main_arg9)) := by
  read_fold
  rfl
theorem hostOps7_keep_main_v13 : StableHlo.after (hostOps7 (F := Ideal)) W (Proc.devRef .tc main_v13) = W (Proc.devRef .tc main_v13) := by
  read_fold
theorem hostOps7_keep_main_v80 : StableHlo.after (hostOps7 (F := Ideal)) W (Proc.devRef .tc main_v80) = W (Proc.devRef .tc main_v80) := by
  read_fold

end Cert.KernelIdeal.HostRead

end
-- ==== Proof.LibRealOps.lean ====
/-
  The reals are closed under the ideal operations a normalisation uses.

  At the ideal instance a float is an extended real, and most laws that join two spellings of one formula (a variance,
  a product moved across a sum) hold only where every value is a REAL. These lemmas carry "is a real" through the
  operations, one value at a time, each naming the real the result is:
  * `rsqrt_coe_of_pos`: the reciprocal square root of a real `r > 0` is the real `(√r)⁻¹`, which is positive
    (`inv_sqrt_pos`); `rsqrt_add_eps`: so is that of `v + ε` for `v ≥ 0`, `ε > 0` (a variance plus its epsilon);
  * `coe_max`: the maximum of two reals; `dot_coe`: the inner product of two real rows; `sum_ones`: a sum of ones
    over a finite set is the number of its elements (a node's degree, counted by scattering ones);
  * `cmp_ogt_eq_one_iff`: the comparison `x > y` is the flag 1 exactly when `y < x`;
  * `gcn_coeff_coe`: the symmetric-normalisation coefficient `where(d > 0, rsqrt(max(d, 1)), 0)` of a real degree
    `d` is a real, and `gcn_coeff_nonneg`: it is non-negative — what lets it move across a neighbourhood sum.
-/
import Idealize.ShloMosaic.PureOps.Ideal
import Mathlib.Algebra.BigOperators.Fin
import Mathlib.Tactic.Linarith

noncomputable section

namespace ProofLib.RealOps

open Idealize.ShloMosaic

variable {ι : Type*}

/-- The inclusion of the reals in the extended reals commutes with finite sums. -/
theorem coe_sum (s : Finset ι) (f : ι → ℝ) : ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- The reciprocal square root of a positive real is the real `(√r)⁻¹`. -/
theorem rsqrt_coe_of_pos {r : ℝ} (hr : 0 < r) : Ideal.rsqrt (r : EReal) = (((Real.sqrt r)⁻¹ : ℝ) : EReal) := by
  rw [Ideal.rsqrt_coe, if_neg (not_lt.mpr hr.le), if_neg hr.ne']

/-- That real is positive. -/
theorem inv_sqrt_pos {r : ℝ} (hr : 0 < r) : 0 < (Real.sqrt r)⁻¹ := inv_pos.mpr (Real.sqrt_pos.mpr hr)

/-- The reciprocal square root of `v + ε`, `v ≥ 0` and `ε > 0` reals: a variance plus its epsilon. -/
theorem rsqrt_add_eps {v eps : ℝ} (hv : 0 ≤ v) (he : 0 < eps) :
    Ideal.rsqrt ((v : EReal) + (eps : EReal)) = (((Real.sqrt (v + eps))⁻¹ : ℝ) : EReal) := by
  rw [← EReal.coe_add, rsqrt_coe_of_pos (add_pos_of_nonneg_of_pos hv he)]

/-- The maximum of two reals, in the extended reals, is their real maximum. -/
theorem coe_max (x y : ℝ) : ((max x y : ℝ) : EReal) = max (x : EReal) (y : EReal) :=
  EReal.coe_strictMono.monotone.map_max

/-- The inner product of two real rows is the real inner product. -/
theorem dot_coe (s : Finset ι) (a b : ι → ℝ) :
    ∑ k ∈ s, (a k : EReal) * (b k : EReal) = ((∑ k ∈ s, a k * b k : ℝ) : EReal) := by
  rw [coe_sum]; exact Finset.sum_congr rfl fun k _ => (EReal.coe_mul _ _).symm

/-- A sum of ones over a finite set is the number of its elements. -/
theorem sum_ones (s : Finset ι) : ∑ _i ∈ s, (1 : EReal) = ((s.card : ℝ) : EReal) := by
  have h1 : ∑ _i ∈ s, (1 : EReal) = ∑ _i ∈ s, ((1 : ℝ) : EReal) := by simp
  rw [h1, ← coe_sum]; simp

/-- The comparison `x > y` is the flag 1 exactly when `y < x`. -/
theorem cmp_ogt_eq_one_iff (x y : EReal) : Ideal.cmp .ogt x y = 1#1 ↔ y < x := by
  unfold Ideal.cmp
  by_cases h : y < x <;> simp [h]

/-- The symmetric-normalisation coefficient of a real degree `d`: `(√(max d 1))⁻¹` where `d > 0`, else `0`. -/
def gcnCoeff (d : ℝ) : ℝ := if 0 < d then (Real.sqrt (max d 1))⁻¹ else 0

/-- `where(d > 0, rsqrt(max(d, 1)), 0)` at a real `d` is the real `gcnCoeff d`. -/
theorem gcn_coeff_coe (d : ℝ) :
    Scalar.select (Ideal.cmp .ogt (d : EReal) 0) (Ideal.rsqrt (max (d : EReal) 1)) (0 : EReal) = ((gcnCoeff d : ℝ) : EReal) := by
  have h1 : (1 : EReal) = ((1 : ℝ) : EReal) := EReal.coe_one.symm
  have hpos : (0 : ℝ) < max d 1 := lt_of_lt_of_le one_pos (le_max_right d 1)
  unfold Scalar.select gcnCoeff
  by_cases hd : 0 < d
  · have hc : Ideal.cmp .ogt (d : EReal) 0 = (1 : BitVec 1) := (cmp_ogt_eq_one_iff _ _).mpr (by exact_mod_cast hd)
    rw [if_pos hc, if_pos hd, h1, ← coe_max, rsqrt_coe_of_pos hpos]
  · have hc : ¬ Ideal.cmp .ogt (d : EReal) 0 = (1 : BitVec 1) := fun e => hd (by exact_mod_cast (cmp_ogt_eq_one_iff _ _).mp e)
    rw [if_neg hc, if_neg hd, EReal.coe_zero]

/-- The coefficient is non-negative. -/
theorem gcn_coeff_nonneg (d : ℝ) : 0 ≤ gcnCoeff d := by
  unfold gcnCoeff
  split
  · exact inv_nonneg.mpr (Real.sqrt_nonneg _)
  · exact le_rfl

end ProofLib.RealOps

end
-- ==== Proof.LibBatchNormVar.lean ====
/-
  Batch statistics of a column of finitely many REAL entries, read on the extended reals.

  A column `h i` (`i` over a finite index type of `n > 0` elements) has two spellings of its biased variance:
  the mean of the squared deviations from the mean, `(1/n) Σ (h i − μ)²` with `μ = (1/n) Σ h i`, and the mean
  of the squares less the squared mean, `(1/n) Σ (h i)² − μ²`, clamped below at zero. Over the reals the two are
  one number, and it is non-negative, so the clamp is the identity (`var_clamped_eq`). On the extended reals this
  needs every entry to be a real: with an infinite entry `⊤ − ⊤` appears and the two spellings part.

  Beside it: the inclusion of the reals commutes with finite sums (`coe_sum`) and with a quotient by a non-zero
  real at the ideal instance's division (`div_coe_coe`); a real factor `c ≥ 0` distributes over ANY finite sum of
  extended reals, infinite terms included (`mul_sum_of_nonneg_real`); a sum over `T · R` rows is the sum over
  `T` blocks of the sums over the `R` rows of a block (`sum_blocks`, row `r + R · t` in block `t`); and a running
  total that starts at zero and grows by `b t` at step `t` ends at `Σ b t` (`acc_eq_sum`).
-/
import Idealize.ShloMosaic.PureOps.Ideal
import Mathlib.Algebra.BigOperators.Fin
import Mathlib.Tactic.FieldSimp
import Mathlib.Tactic.Ring
import Mathlib.Tactic.Linarith

noncomputable section

namespace ProofLib.BatchNorm

local notation "idiv" => Idealize.ShloMosaic.Ideal.div

variable {ι : Type*}

/-- The inclusion of the reals in the extended reals commutes with finite sums. -/
theorem coe_sum (s : Finset ι) (f : ι → ℝ) : ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- At the ideal instance a real divided by a non-zero real is the real quotient. -/
theorem div_coe_coe (x : ℝ) {n : ℝ} (hn : n ≠ 0) : idiv (x : EReal) (n : EReal) = ((x / n : ℝ) : EReal) := by
  rw [Idealize.ShloMosaic.Ideal.div_coe hn, ← EReal.coe_mul, mul_one_div]

/-- The sum of the squared deviations from any centre `μ`, expanded. -/
theorem real_sum_sq_dev [Fintype ι] (f : ι → ℝ) (μ : ℝ) {n : ℝ} (hcard : (Fintype.card ι : ℝ) = n) :
    ∑ i, (f i - μ) * (f i - μ) = (∑ i, f i * f i) - 2 * μ * (∑ i, f i) + n * (μ * μ) := by
  calc ∑ i, (f i - μ) * (f i - μ) = ∑ i, (f i * f i - 2 * μ * f i + μ * μ) :=
        Finset.sum_congr rfl fun i _ => by ring
    _ = (∑ i, f i * f i) - 2 * μ * (∑ i, f i) + n * (μ * μ) := by
        rw [Finset.sum_add_distrib, Finset.sum_sub_distrib, ← Finset.mul_sum, Finset.sum_const, Finset.card_univ,
          nsmul_eq_mul, hcard]

/-- Over the reals: the mean of the squares less the squared mean is the mean of the squared deviations from the mean. -/
theorem real_var_eq [Fintype ι] (f : ι → ℝ) {n : ℝ} (hn : n ≠ 0) (hcard : (Fintype.card ι : ℝ) = n) :
    (∑ i, f i * f i) / n - ((∑ i, f i) / n) * ((∑ i, f i) / n)
      = (∑ i, (f i - (∑ j, f j) / n) * (f i - (∑ j, f j) / n)) / n := by
  rw [real_sum_sq_dev f _ hcard]
  field_simp
  ring

/-- The mean of squared deviations is non-negative. -/
theorem real_var_nonneg [Fintype ι] (f : ι → ℝ) (μ : ℝ) {n : ℝ} (hn : 0 < n) :
    0 ≤ (∑ i, (f i - μ) * (f i - μ)) / n :=
  div_nonneg (Finset.sum_nonneg fun i _ => mul_self_nonneg _) hn.le

/-- On the extended reals, for a column of REAL entries: the mean of squares less the squared mean, clamped below at
    zero, is the mean of the squared deviations from the mean (divisions the ideal instance's, by the real `n`, the
    number of entries). -/
theorem var_clamped_eq [Fintype ι] (h : ι → EReal) (f : ι → ℝ) (hh : ∀ i, h i = (f i : EReal))
    {n : ℝ} (hn : 0 < n) (hcard : (Fintype.card ι : ℝ) = n) :
    max (idiv (∑ i, h i * h i) (n : EReal) - idiv (∑ i, h i) (n : EReal) * idiv (∑ i, h i) (n : EReal)) 0
      = idiv (∑ i, (h i - idiv (∑ j, h j) (n : EReal)) * (h i - idiv (∑ j, h j) (n : EReal))) (n : EReal) := by
  have hn0 : n ≠ 0 := hn.ne'
  have e1 : ∑ i, h i = ((∑ i, f i : ℝ) : EReal) := by
    rw [coe_sum]; exact Finset.sum_congr rfl fun i _ => hh i
  have e2 : ∑ i, h i * h i = ((∑ i, f i * f i : ℝ) : EReal) := by
    rw [coe_sum]; exact Finset.sum_congr rfl fun i _ => by rw [hh i, EReal.coe_mul]
  have e4 : ∑ i, (h i - (((∑ j, f j) / n : ℝ) : EReal)) * (h i - (((∑ j, f j) / n : ℝ) : EReal))
      = ((∑ i, (f i - (∑ j, f j) / n) * (f i - (∑ j, f j) / n) : ℝ) : EReal) := by
    rw [coe_sum]; exact Finset.sum_congr rfl fun i _ => by rw [hh i, EReal.coe_mul, EReal.coe_sub]
  rw [e1, e2, div_coe_coe _ hn0, div_coe_coe _ hn0, e4, div_coe_coe _ hn0, ← EReal.coe_mul, ← EReal.coe_sub,
    real_var_eq f hn0 hcard]
  exact max_eq_left (EReal.coe_nonneg.mpr (real_var_nonneg f _ hn))

/-- The mean of a column of real entries is a real: the ideal instance's quotient of their sum by `n ≠ 0`. -/
theorem mean_coe [Fintype ι] (h : ι → EReal) (f : ι → ℝ) (hh : ∀ i, h i = (f i : EReal)) {n : ℝ} (hn : n ≠ 0) :
    idiv (∑ i, h i) (n : EReal) = (((∑ i, f i) / n : ℝ) : EReal) := by
  have e1 : ∑ i, h i = ((∑ i, f i : ℝ) : EReal) := by
    rw [coe_sum]; exact Finset.sum_congr rfl fun i _ => hh i
  rw [e1, div_coe_coe _ hn]

/-- A real factor `c ≥ 0` distributes over a finite sum of extended reals, whatever the terms (an infinite term
    included: `c · (⊤ + ⊥) = c · ⊤ + c · ⊥` for `0 ≤ c < ⊤`). -/
theorem mul_sum_of_nonneg_real (c : ℝ) (hc : 0 ≤ c) (s : Finset ι) (g : ι → EReal) :
    (c : EReal) * ∑ i ∈ s, g i = ∑ i ∈ s, (c : EReal) * g i := by
  classical
  refine Finset.induction_on s ?_ ?_
  · simp
  · intro a s ha ih
    rw [Finset.sum_insert ha, Finset.sum_insert ha,
      EReal.left_distrib_of_nonneg_of_ne_top (EReal.coe_nonneg.mpr hc) (EReal.coe_ne_top c), ih]

/-- A sum over `T · R` rows is the sum over `T` blocks of the sums over the `R` rows of each block: row
    `r + R · t` is row `r` of block `t`. -/
theorem sum_blocks {M : Type*} [AddCommMonoid M] (T R : ℕ) (f : Fin (T * R) → M) :
    ∑ i, f i = ∑ t : Fin T, ∑ r : Fin R, f (finProdFinEquiv (t, r)) :=
  (Equiv.sum_comp finProdFinEquiv f).symm.trans (Fintype.sum_prod_type _)

/-- A running total that starts at zero and grows by `b t` at step `t` ends, after `T` steps, at `Σ_{t < T} b t`. -/
theorem acc_eq_sum {M : Type*} [AddCommMonoid M] (b : ℕ → M) (acc : ℕ → M) (h0 : acc 0 = 0) :
    ∀ T : ℕ, (∀ t, t < T → acc (t + 1) = acc t + b t) → acc T = ∑ t ∈ Finset.range T, b t := by
  intro T
  induction T with
  | zero => intro _; simp [h0]
  | succ k ih =>
    intro hs
    rw [hs k (Nat.lt_succ_self k), Finset.sum_range_succ, ih fun t ht => hs t (Nat.lt_succ_of_lt ht)]

end ProofLib.BatchNorm

end
-- ==== Proof.Algebra.lean ====
/-
  The symmetric normalisation of a graph convolution, on the extended reals.

  A node `n` receives the edges `L n` (a finite set); edge `e` reads the node `g e`. The degree of a node is the
  number of edges it receives plus one for its self loop, and its coefficient is `dinv n = 1/sqrt(max(deg n, 1))`:
  a REAL number, not negative. One layer sends a table `h` of node features to
  `out n c = Σ_{e ∈ L n} h (g e) c · dinv (g e) · dinv n + h n c · dinv n · dinv n + b c`.
  Two spellings of it are joined here: the factor `dinv n` applied once to the finished neighbourhood sum, and the factor
  applied inside the sum, term by term, with the self loop as one more term. Because `dinv n` is a non-negative real it
  distributes over the sum whatever the terms are (an infinite term included), so the features need not be finite.
-/
import proofs.«174543_j66812511257314_1_alg».proof.Proof.LibRealOps
import proofs.«174543_j66812511257314_1_alg».proof.Proof.LibBatchNormVar
import Idealize.ShloMosaic.PureOps.Ideal.Laws

noncomputable section

open scoped BigOperators

namespace Cert.Gcn

open Idealize.ShloMosaic

/-- The float pattern of `1.0` denotes the real `1`. -/
theorem one_bits : Ideal.ofBits .f32 0x3F800000#32 = 1 := by
  simp [Ideal.ofBits, Ideal.ieee, -EReal.coe_mul]; norm_num

variable {ε : Type*}

/-- The degree of a node receiving the edges `L`: their number, counted as a sum of ones from zero, plus one. -/
def deg (L : Finset ε) : EReal := (0 + ∑ _e ∈ L, (1 : EReal)) + 1

/-- The node's coefficient, `1/sqrt(max(deg, 1))`. -/
def dinv (L : Finset ε) : EReal := Ideal.rsqrt (max (deg L) 1)

/-- The real number the coefficient is. -/
def dinvR (L : Finset ε) : ℝ := (Real.sqrt (max ((L.card : ℝ) + 1) 1))⁻¹

theorem deg_eq (L : Finset ε) : deg L = (((L.card : ℝ) + 1 : ℝ) : EReal) := by
  unfold deg
  rw [zero_add, ProofLib.RealOps.sum_ones, EReal.coe_add, EReal.coe_one]

theorem dinv_eq (L : Finset ε) : dinv L = ((dinvR L : ℝ) : EReal) := by
  unfold dinv dinvR
  rw [deg_eq, ← EReal.coe_one, ← ProofLib.RealOps.coe_max,
    ProofLib.RealOps.rsqrt_coe_of_pos (lt_of_lt_of_le one_pos (le_max_right _ _))]

theorem dinvR_nonneg (L : Finset ε) : 0 ≤ dinvR L := inv_nonneg.mpr (Real.sqrt_nonneg _)

/-- The degree counted with the self loop among the ones: a sum of ones over the received edges and one more. -/
theorem deg_self (L : Finset ε) : 0 + (∑ _e ∈ L, (1 : EReal) + 1) = deg L := by
  unfold deg; rw [zero_add, zero_add]

/-- A non-negative real factor applied to the finished neighbourhood sum, beside the self-loop term, is the sum with the
    factor inside every term and the self loop as one more term. -/
theorem agg_eq (c : ℝ) (hc : 0 ≤ c) (L : Finset ε) (a d : ε → EReal) (hn : EReal) :
    (c : EReal) * (0 + ∑ e ∈ L, a e * d e) + ((c : EReal) * c) * hn
      = 0 + (∑ e ∈ L, a e * (d e * c) + hn * ((c : EReal) * c)) := by
  rw [zero_add, zero_add, ProofLib.BatchNorm.mul_sum_of_nonneg_real c hc, mul_comm ((c : EReal) * c) hn]
  congr 1
  exact Finset.sum_congr rfl fun e _ => by rw [mul_comm (c : EReal), mul_assoc]

variable {ν κ : Type*}

/-- One layer with the coefficient of the receiving node applied to the finished sum. -/
def layerK (L : ν → Finset ε) (g : ε → ν) (h : ν → κ → EReal) (b : κ → EReal) (n : ν) (c : κ) : EReal :=
  (dinv (L n) * (0 + ∑ e ∈ L n, h (g e) c * dinv (L (g e))) + (dinv (L n) * dinv (L n)) * h n c) + b c

/-- One layer with both coefficients inside the sum and the self loop as a term of it. -/
def layerR (L : ν → Finset ε) (g : ε → ν) (h : ν → κ → EReal) (b : κ → EReal) (n : ν) (c : κ) : EReal :=
  (0 + (∑ e ∈ L n, h (g e) c * (dinv (L (g e)) * dinv (L n)) + h n c * (dinv (L n) * dinv (L n)))) + b c

/-- The two spellings of a layer are one function. -/
theorem layerK_eq_layerR (L : ν → Finset ε) (g : ε → ν) (h : ν → κ → EReal) (b : κ → EReal) (n : ν) (c : κ) :
    layerK L g h b n c = layerR L g h b n c := by
  unfold layerK layerR
  rw [dinv_eq (L n)]
  rw [agg_eq (dinvR (L n)) (dinvR_nonneg _) (L n) (fun e => h (g e) c) (fun e => dinv (L (g e))) (h n c)]

end Cert.Gcn

end
-- ==== Proof.LibRowScatter.lean ====
/-
  A row gather and a row scatter-add, read at an index.

  For a table `x` of `N` rows and `C` columns and a column `idx` of `M` integer words:

  * the gather of rows takes result row `e` from the operand row `idx[e]` read as a signed integer and clamped into
    `[0, N − 1]`: entry `(e, c)` of the result is `x (gatherRow idx e, c)`;
  * the scatter-add of rows adds update row `e` into the operand row `idx[e]` read as a signed integer and not
    clamped (an update whose row is outside `[0, N − 1]` is dropped): entry `(n, c)` of the result is
    `x (n, c) + ∑ e ∈ landsOn idx N n, upd (e, c)`, the sum over the update rows whose index is `n`.

  Neither the row `gatherRow idx e` nor the set `landsOn idx N n` depends on the number of columns or on the entries.
-/
import Idealize.ShloMosaic.Lib.ValueIdx
import Idealize.ShloMosaic.PureOps.Ideal.Laws
import Idealize.ShloMosaic.Lib.Pipeline.Value

noncomputable section

open scoped BigOperators

namespace Cert.Lib.RowScatter

open Idealize.ShloMosaic Idealize.ShloMosaic.ValueIdx

/-! ## The gather of rows -/

section Gather
variable {α : Type}

/-- The dimension numbers of a gather of whole rows: operand `[N, C]`, start indices `[M, 1]`, result `[M, C]`;
    the result's axis 1 is the offset axis, the operand's axis 0 is collapsed and is the one the start index names,
    the index vector lies along axis 1 of the start indices, and a slice is one row, `1 × C`. Their conditions `wf`
    are decided on literal shapes. -/
abbrev rowGatherDims (N M C : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- The operand row that result row `e` reads: the word `idx (e, 0)` as a signed integer, negative values taken to
    `0`, then cut to at most `N − 1`. It depends on neither the number of columns nor the entries. -/
def gatherRow (N : Nat) (hN : 0 < N) {M w : Nat} (idx : IVec ⟨2, ![M, 1]⟩ w) (e : Fin M) : Fin N :=
  ⟨min (idx (ix2 e (0 : Fin 1))).toInt.toNat (N - 1), by omega⟩

/-- On the row axis the operand index of result entry `(e, c)` is the clamped start index: no batching coordinate,
    and no offset coordinate on a collapsed axis. -/
theorem gather_operandIdx_zero {N M C w : Nat}
    (wf : GatherDims.WF ⟨2, ![N, C]⟩ ⟨2, ![M, 1]⟩ ⟨2, ![M, C]⟩ [1] [0] [] [0] [] 1 ![1, C])
    (idx : IVec ⟨2, ![M, 1]⟩ w) (e : Fin M) (c : Fin C) :
    ((rowGatherDims N M C wf).operandIdx (ix2 e c) idx 0).val = min (idx (ix2 e (0 : Fin 1))).toInt.toNat (N - 1) := by
  show (rowGatherDims N M C wf).start (ix2 e c) idx 0 + (rowGatherDims N M C wf).batchCoord (ix2 e c) 0
    + (rowGatherDims N M C wf).offCoord (ix2 e c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGatherDims N M C wf).startIndexMap from List.mem_singleton.mpr rfl)]
  have hsi : (rowGatherDims N M C wf).siIdx (ix2 e c) ⟨List.idxOf (0 : Fin 2) (rowGatherDims N M C wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- On the column axis the operand index of result entry `(e, c)` is `c`: the start is `0` on an axis the start
    index does not name, and the offset coordinate is the result's column. -/
theorem gather_operandIdx_one {N M C w : Nat}
    (wf : GatherDims.WF ⟨2, ![N, C]⟩ ⟨2, ![M, 1]⟩ ⟨2, ![M, C]⟩ [1] [0] [] [0] [] 1 ![1, C])
    (idx : IVec ⟨2, ![M, 1]⟩ w) (e : Fin M) (c : Fin C) :
    ((rowGatherDims N M C wf).operandIdx (ix2 e c) idx 1).val = c.val := by
  show (rowGatherDims N M C wf).start (ix2 e c) idx 1 + (rowGatherDims N M C wf).batchCoord (ix2 e c) 1
    + (rowGatherDims N M C wf).offCoord (ix2 e c) 1 = _
  rw [GatherDims.batchCoord_eq_zero _ _ _ List.not_mem_nil]
  have hs : (rowGatherDims N M C wf).start (ix2 e c) idx 1 = 0 := by
    unfold GatherDims.start
    rw [dif_neg (fun h => absurd (List.mem_singleton.mp h) (show ¬ ((1 : Fin 2) = 0) by decide))]
  rw [hs]
  simp only [Nat.add_zero, Nat.zero_add]
  unfold GatherDims.offCoord
  rw [dif_pos ((GatherDims.mem_sKept _ _).mpr
    ⟨fun h => absurd (List.mem_singleton.mp h) (show ¬ ((1 : Fin 2) = 0) by decide), List.not_mem_nil⟩)]
  rfl

/-- THE GATHER OF ROWS READ AT `(e, c)`: the operand at row `gatherRow N hN idx e` — the start index `idx (e, 0)` read
    signed and clamped into `[0, N − 1]` — and column `c`. -/
theorem gather_rows_apply {N M C w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (c : Fin C) :
    Host.gather (rowGatherDims N M C wf) x idx (ix2 e c) = x (ix2 (gatherRow N hN idx e) c) := by
  unfold Host.gather
  congr 1
  funext a
  match a with
  | ⟨0, _⟩ => exact Fin.ext (gather_operandIdx_zero wf idx e c)
  | ⟨1, _⟩ => exact Fin.ext (gather_operandIdx_one wf idx e c)

end Gather

/-! ## The scatter-add of rows -/

section Scatter

/-- The dimension numbers of a scatter of whole rows: operand `[N, C]`, scatter indices `[M, 1]`, updates `[M, C]`;
    the updates' axis 1 is the window axis, the operand's axis 0 is inserted and is the one the scatter index names,
    and the index vector lies along axis 1 of the scatter indices. Their conditions `wf` are decided on literal
    shapes. -/
abbrev rowScatterDims (N M C : Nat)
    (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-- The update rows that land on operand row `n`: the rows `e` whose index word `idx (e, 0)`, read as a signed
    integer and not clamped, is `n`. It depends on neither the number of columns nor the entries. -/
def landsOn {M w : Nat} (idx : IVec ⟨2, ![M, 1]⟩ w) (N : Nat) (n : Fin N) : Finset (Fin M) :=
  Finset.univ.filter (fun e => (idx (ix2 e (0 : Fin 1))).toInt = (n.val : Int))

/-- An axis is among the kept axes exactly when it is not among the removed ones. -/
theorem mem_kept {s : Shape} (axes : List (Fin s.rank)) (a : Fin s.rank) : a ∈ s.kept axes ↔ a ∉ axes := by
  simp [Shape.kept, List.mem_filter, List.mem_finRange]

/-- An update index `j` lands at the operand index `i` exactly when, on every axis, the signed start plus the window
    coordinate is `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro h a
    split at h
    · rename_i hb
      have h' := Option.some.inj h
      have h2 : (d.start j idx a + (d.window j a : Int)).toNat = (i a).val := congrArg Fin.val (congrFun h' a)
      have := hb a
      omega
    · cases h
  · intro h
    have hb : ∀ a, 0 ≤ d.start j idx a + (d.window j a : Int) ∧ d.start j idx a + (d.window j a : Int) < s.size a := by
      intro a
      rw [h a]
      exact ⟨Int.natCast_nonneg _, by exact_mod_cast (i a).isLt⟩
    rw [dif_pos hb]
    congr 1
    funext a
    apply Fin.ext
    show (d.start j idx a + (d.window j a : Int)).toNat = (i a).val
    rw [h a]
    exact Int.toNat_natCast _

/-- On the row axis the start of update entry `(e, c)` is the index word `idx (e, 0)` read as a signed integer. -/
theorem scatter_start_zero {N M C w : Nat} (wf : ScatterDims.WF ⟨2, ![N, C]⟩ ⟨2, ![M, 1]⟩ ⟨2, ![M, C]⟩ [1] [0] [0] 1)
    (idx : IVec ⟨2, ![M, 1]⟩ w) (e : Fin M) (c : Fin C) :
    (rowScatterDims N M C wf).start (ix2 e c) idx 0 = (idx (ix2 e (0 : Fin 1))).toInt := by
  unfold ScatterDims.start
  rw [dif_pos (show (0 : Fin 2) ∈ (rowScatterDims N M C wf).scatterDimsToOperandDims from List.mem_singleton.mpr rfl)]
  have hsi : (rowScatterDims N M C wf).siIdx (ix2 e c)
      ⟨List.idxOf (0 : Fin 2) (rowScatterDims N M C wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis, which the scatter index does not name, the start is `0`. -/
theorem scatter_start_one {N M C w : Nat} (wf : ScatterDims.WF ⟨2, ![N, C]⟩ ⟨2, ![M, 1]⟩ ⟨2, ![M, C]⟩ [1] [0] [0] 1)
    (idx : IVec ⟨2, ![M, 1]⟩ w) (e : Fin M) (c : Fin C) :
    (rowScatterDims N M C wf).start (ix2 e c) idx 1 = 0 := by
  unfold ScatterDims.start
  rw [dif_neg (fun h => absurd (List.mem_singleton.mp h) (show ¬ ((1 : Fin 2) = 0) by decide))]

/-- On the row axis, an inserted one, the window coordinate is `0`. -/
theorem scatter_window_zero {N M C : Nat} (wf : ScatterDims.WF ⟨2, ![N, C]⟩ ⟨2, ![M, 1]⟩ ⟨2, ![M, C]⟩ [1] [0] [0] 1)
    (e : Fin M) (c : Fin C) :
    (rowScatterDims N M C wf).window (ix2 e c) 0 = 0 := by
  unfold ScatterDims.window
  rw [dif_neg (fun h => (mem_kept _ _).mp h (List.mem_singleton.mpr rfl))]

/-- On the column axis the window coordinate of update entry `(e, c)` is `c`. -/
theorem scatter_window_one {N M C : Nat} (wf : ScatterDims.WF ⟨2, ![N, C]⟩ ⟨2, ![M, 1]⟩ ⟨2, ![M, C]⟩ [1] [0] [0] 1)
    (e : Fin M) (c : Fin C) :
    (rowScatterDims N M C wf).window (ix2 e c) 1 = c.val := by
  unfold ScatterDims.window
  rw [dif_pos ((mem_kept _ _).mpr
    (fun h => absurd (List.mem_singleton.mp h) (show ¬ ((1 : Fin 2) = 0) by decide)))]
  rfl

/-- Update entry `(e, c')` lands at operand entry `(n, c)` exactly when the columns agree and the signed index word
    of row `e` is `n`. -/
theorem resultIdx?_rows {N M C w : Nat} (wf : ScatterDims.WF ⟨2, ![N, C]⟩ ⟨2, ![M, 1]⟩ ⟨2, ![M, C]⟩ [1] [0] [0] 1)
    (idx : IVec ⟨2, ![M, 1]⟩ w) (e : Fin M) (c' c : Fin C) (n : Fin N) :
    (rowScatterDims N M C wf).resultIdx? (ix2 e c') idx = some (ix2 n c)
      ↔ c' = c ∧ (idx (ix2 e (0 : Fin 1))).toInt = (n.val : Int) := by
  rw [resultIdx?_eq_some_iff]
  rw [Fin.forall_fin_two]
  rw [scatter_start_zero, scatter_window_zero, scatter_start_one, scatter_window_one]
  show ((idx (ix2 e (0 : Fin 1))).toInt + ((0 : Nat) : Int) = (n.val : Int)
    ∧ (0 : Int) + (c'.val : Int) = (c.val : Int)) ↔ _
  constructor
  · rintro ⟨h0, h1⟩
    exact ⟨Fin.ext (by omega), by omega⟩
  · rintro ⟨rfl, h⟩
    exact ⟨by omega, by omega⟩

/-- THE SCATTER-ADD OF ROWS READ AT `(n, c)`: the operand's entry plus the sum, over the update rows `e` whose signed
    index word is `n`, of the update's entry `(e, c)`. -/
theorem scatterAdd_rows_apply {N M C w : Nat}
    (wf : ScatterDims.WF ⟨2, ![N, C]⟩ ⟨2, ![M, 1]⟩ ⟨2, ![M, C]⟩ [1] [0] [0] 1)
    (x : FVec Ideal ⟨2, ![N, C]⟩ .f32) (idx : IVec ⟨2, ![M, 1]⟩ w) (upd : FVec Ideal ⟨2, ![M, C]⟩ .f32)
    (n : Fin N) (c : Fin C) :
    Host.scatterAdd (F := Ideal) (rowScatterDims N M C wf) x idx upd (ix2 n c)
      = x (ix2 n c) + ∑ e ∈ landsOn idx N n, upd (ix2 e c) := by
  unfold Host.scatterAdd
  rw [Ideal.hostScatterAdd_def]
  unfold Ideal.hostScatterAdd
  congr 1
  rw [Finset.sum_filter, sum_idx2]
  unfold landsOn
  rw [Finset.sum_filter]
  refine Finset.sum_congr rfl (fun e _ => ?_)
  simp only [resultIdx?_rows]
  by_cases hP : (idx (ix2 e (0 : Fin 1))).toInt = (n.val : Int)
  · simp [hP]
  · simp [hP]

end Scatter

end Cert.Lib.RowScatter

end
-- ==== Proof.LibColumn.lean ====
/-
  General facts about a column of row values, read at an entry.

  * A vector of length `M` viewed as an `M × 1` column reads, at `(p, 0)`, the vector at `p` (`col_apply`).
  * An `M × 1` column repeated along `N` lanes reads, at `(p, q)`, the column at `(p, 0)` (`colBroadcast_apply`).
  * Summing an `M × 1` column down its rows gives, at the one entry, the sum of the column's entries (`colSum_apply`).
-/
import Idealize.ShloMosaic.Lib.ValueIdx
import Idealize.ShloMosaic.Lib.Pipeline.Value
import Idealize.ShloMosaic.PureOps.Ideal.Laws

noncomputable section

open scoped BigOperators

namespace Cert.Lib.Column

open Idealize.ShloMosaic Idealize.ShloMosaic.ValueIdx

variable {α : Type} {M N : Nat}

/-- A vector of length `M` viewed as an `M × 1` column: at `(p, 0)`, the vector at `p`. -/
theorem col_apply (v : (⟨1, ![M]⟩ : Shape).Idx → α) (hc : (⟨1, ![M]⟩ : Shape).ShapeCasts ⟨2, ![M, 1]⟩) (p : Fin M) :
    shapeCast ⟨2, ![M, 1]⟩ v hc (ix2 p (0 : Fin 1)) = v (ix1 p) := by
  refine shapeCast_apply v hc (ix2 p (0 : Fin 1)) (ix1 p) ?_
  rw [Shape.rowMajor_val_one, Shape.rowMajor_val_two]
  show p.val = p.val * 1 + 0
  omega

/-- An `M × 1` column repeated along `N` lanes: at `(p, q)`, the column at `(p, 0)`. -/
theorem colBroadcast_apply (v : (⟨2, ![M, 1]⟩ : Shape).Idx → α) (hb : (⟨2, ![M, 1]⟩ : Shape).Broadcasts ⟨2, ![M, N]⟩)
    (p : Fin M) (q : Fin N) :
    broadcastTo ⟨2, ![M, N]⟩ v hb (ix2 p q) = v (ix2 p (0 : Fin 1)) := by
  refine broadcastTo_apply _ hb (ix2 p q) (ix2 p (0 : Fin 1)) (fun a => ?_)
  match a with
  | ⟨0, _⟩ =>
    show p.val = if M = 1 then 0 else p.val
    split
    · have := p.isLt; omega
    · rfl
  | ⟨1, _⟩ => exact (if_pos rfl).symm

/-- Over the one entry of the result, the index with `k` put on the row axis is `(k, 0)`. -/
theorem lift_col (h : (⟨2, ![M, 1]⟩ : Shape).Reduces [0] ⟨1, ![1]⟩) (k : Fin M) :
    h.lift (ix1 (0 : Fin 1)) k = ix2 k (0 : Fin 1) := by
  funext a
  apply Fin.ext
  match a with
  | ⟨0, _⟩ => rfl
  | ⟨1, _⟩ => rfl

/-- The sum of an `M × 1` column down its rows. -/
theorem colSum_apply {φ : FTy} (src : FVec Ideal ⟨2, ![M, 1]⟩ φ) (acc : BitVec φ.bits)
    (h : (⟨2, ![M, 1]⟩ : Shape).Reduces [0] ⟨1, ![1]⟩) (hφ : FKind.Formats φ) (hacc : acc = FKind.add.neutral φ hφ) :
    multiReduction .add [0] ⟨1, ![1]⟩ src acc h hφ hacc (ix1 (0 : Fin 1)) = ∑ k : Fin M, src (ix2 k (0 : Fin 1)) := by
  rw [Ideal.multiReduction_add_single]
  exact Finset.sum_congr rfl fun k _ => congrArg src (lift_col h k)

end Cert.Lib.Column

end
-- ==== Proof.Spec.lean ====
/-
  The pieces of a graph-convolution layer as whole-array functions, index by index, on the extended reals.

  * `mmG x w`: the matrix product, entry `(n, c)` the sum over `k` of `x (n, k) · w (k, c)`.
  * `combG s h d b`: the layer's last step from the neighbourhood sums `s`, the node's own features `h`, the column
    `d` of node coefficients and the bias row `b`: entry `(n, c)` is `d n · s (n, c) + (d n · d n) · h (n, c) + b c`.
  * `reluG y`: the maximum with zero, entry by entry.
  * `aggG`: the neighbourhood sums themselves, from zero: entry `(n, c)` is the sum, over the edges `e` whose
    destination word is `n`, of the source row's feature times the source row's coefficient.
  Beside them, a `1 × C` row repeated down the rows read at an entry, and the sum over the edges landing on a node when
  the edge list is a first list followed by one self loop per node.
-/
import proofs.«174543_j66812511257314_1_alg».proof.Proof.Algebra
import proofs.«174543_j66812511257314_1_alg».proof.Proof.LibRowScatter
import proofs.«174543_j66812511257314_1_alg».proof.Proof.LibColumn
import Idealize.ShloMosaic.Lib.ValueIdx
import Idealize.ShloMosaic.Lib.Pipeline.Value

noncomputable section

open scoped BigOperators

namespace Cert.Gcn

open Idealize.ShloMosaic Idealize.ShloMosaic.ValueIdx Cert.Lib.RowScatter

/-- The matrix product. -/
def mmG {N K C : Nat} (x : (⟨2, ![N, K]⟩ : Shape).Idx → EReal) (w : (⟨2, ![K, C]⟩ : Shape).Idx → EReal) :
    (⟨2, ![N, C]⟩ : Shape).Idx → EReal :=
  fun i => ∑ k : Fin K, x (ix2 (i 0) k) * w (ix2 k (i 1))

/-- The layer's last step: the coefficient on the neighbourhood sum, its square on the node's own features, the bias. -/
def combG {N C : Nat} (s h : (⟨2, ![N, C]⟩ : Shape).Idx → EReal) (d : (⟨2, ![N, 1]⟩ : Shape).Idx → EReal)
    (b : (⟨2, ![1, C]⟩ : Shape).Idx → EReal) : (⟨2, ![N, C]⟩ : Shape).Idx → EReal :=
  fun i => (d (ix2 (i 0) (0 : Fin 1)) * s i + (d (ix2 (i 0) (0 : Fin 1)) * d (ix2 (i 0) (0 : Fin 1))) * h i)
    + b (ix2 (0 : Fin 1) (i 1))

/-- The maximum with zero. -/
def reluG {s : Shape} (y : s.Idx → EReal) : s.Idx → EReal := fun i => max (y i) (Ideal.ofBits .f32 0x00000000#32)

/-- A `1 × C` row repeated down `N` rows: at `(p, q)`, the row at `(0, q)`. -/
theorem rowBroadcast2_apply {α : Type} {N C : Nat} (v : (⟨2, ![1, C]⟩ : Shape).Idx → α)
    (hb : (⟨2, ![1, C]⟩ : Shape).Broadcasts ⟨2, ![N, C]⟩) (p : Fin N) (q : Fin C) :
    broadcastTo ⟨2, ![N, C]⟩ v hb (ix2 p q) = v (ix2 (0 : Fin 1) q) := by
  refine broadcastTo_apply _ hb (ix2 p q) (ix2 (0 : Fin 1) q) (fun a => ?_)
  match a with
  | ⟨0, _⟩ => exact (if_pos rfl).symm
  | ⟨1, _⟩ =>
    show q.val = if C = 1 then 0 else q.val
    split
    · have := q.isLt; omega
    · rfl

/-- The sum over the edges that land on node `n` when the edge list is `E` edges followed by one self loop per node
    (`σ` places the two parts in the long list): the sum over the first part's edges that land on `n`, and node `n`'s own
    self loop. -/
theorem sum_landsOn_concat {E N M : Nat} (σ : Fin E ⊕ Fin N ≃ Fin M)
    (colK : IVec ⟨2, ![E, 1]⟩ 32) (colR : IVec ⟨2, ![M, 1]⟩ 32)
    (h1 : ∀ e : Fin E, colR (ix2 (σ (Sum.inl e)) (0 : Fin 1)) = colK (ix2 e (0 : Fin 1)))
    (h2 : ∀ j : Fin N, (colR (ix2 (σ (Sum.inr j)) (0 : Fin 1))).toInt = (j.val : Int))
    {A : Type*} [AddCommMonoid A] (f : Fin M → A) (n : Fin N) :
    ∑ e' ∈ landsOn colR N n, f e' = ∑ e ∈ landsOn colK N n, f (σ (Sum.inl e)) + f (σ (Sum.inr n)) := by
  unfold landsOn
  rw [Finset.sum_filter, ← Equiv.sum_comp σ, Fintype.sum_sum_type, Finset.sum_filter]
  congr 1
  · exact Finset.sum_congr rfl fun e _ => by rw [h1 e]
  · have : ∀ j : Fin N, (if (colR (ix2 (σ (Sum.inr j)) (0 : Fin 1))).toInt = (n.val : Int) then f (σ (Sum.inr j)) else 0)
        = if j = n then f (σ (Sum.inr j)) else 0 := by
      intro j
      rw [h2 j]
      by_cases hj : j = n
      · subst hj; simp
      · have : ¬ ((j.val : Int) = (n.val : Int)) := fun h => hj (Fin.ext (by exact_mod_cast h))
        rw [if_neg this, if_neg hj]
    rw [Finset.sum_congr rfl fun j _ => this j, Finset.sum_ite_eq' Finset.univ n]
    simp

end Cert.Gcn

end
-- ==== Proof.LibPlainDot.lean ====
/-
  A plain matrix product read at one entry.

  For the dimension numbers of an `M × K` by `K × N` product (the left operand contracted on its columns, the
  right on its rows, no batch axis) the entry at row `p`, column `q` of a `tpu.matmul` into the zero
  accumulator, and of the host's `dot_general`, is at the ideal values the sum over `k` of the left operand at
  `(p, k)` times the right operand at `(k, q)`. The contraction index of the dimension numbers is re-indexed by
  its one coordinate, so the sum runs over the literal `Fin K`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : Nat}

/-- The left operand's index at output entry `(p, q)` and contraction position `k` is `(p, k)`. -/
theorem lhsIdx_plain (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p q) _).trans hk

/-- The right operand's index at output entry `(p, q)` and contraction position `k` is `(k, q)`. -/
theorem rhsIdx_plain (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl (ix2 p q) _).trans hk
  | ⟨1, _⟩ => rfl

/-- A `tpu.matmul` into the zero accumulator, at entry `(p, q)`. -/
theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  exact Finset.sum_congr rfl fun k _ => by rw [lhsIdx_plain, rhsIdx_plain]

/-- The host's `dot_general`, at entry `(p, q)`. -/
theorem dotGeneral_apply {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  exact Finset.sum_congr rfl fun k _ => by rw [lhsIdx_plain, rhsIdx_plain]

end Cert.Lib.PlainDot

end
-- ==== Proof.Reg0.lean ====
/-
  Region 0 of the program, a matrix product tiled over the rows: grid point `t` loads rows `5000 t … 5000 t + 4999` of
  the left array and the whole right array, multiplies them (the change of float format is the identity on the
  extended reals, the accumulator starts at zero) and writes the product to the same rows of the output array. The twenty
  row blocks fill the output array, so it ends holding the product of the two arrays as the region found them.
-/
import proofs.«174543_j66812511257314_1_alg».proof.Proof.Gen.KernelIdeal.Frame
import proofs.«174543_j66812511257314_1_alg».proof.Proof.Spec
import proofs.«174543_j66812511257314_1_alg».proof.Proof.LibPlainDot
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Reg0

open Cert.KernelIdeal Cert.KernelIdeal.Gen Cert.Gcn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's value at an entry: the inner product of a row of the left block and a column of the right array. -/
theorem pay (x0 : Vec Ideal S5000x128 .f32) (x1 : Vec Ideal S128x128 .f32) (p : Fin 5000) (q : Fin 128) :
    k0_pay1 (F := Ideal) x0 x1 (ix2 p q) = ∑ k : Fin 128, x0 (ix2 p k) * x1 (ix2 k q) := by
  unfold k0_pay1
  exact Cert.Lib.PlainDot.matmul_zero_apply (M := 5000) (K := 128) (N := 128) none _ _ p q

/-- The printed index maps over the grid: the left and the output blocks are row block `t`, the right array is whole. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the two arrays as the region finds them. -/
theorem flushed_eq (c : Dev nD) (t : Fin cfg0.N) :
    (dat0 V c).flushed 2 t = ((cfg0.win 2).blk t).view.read (Elt Ideal)
      (mmG (N := 100000) (K := 128) (C := 128) (V c main_arg0) (V c main_arg2)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨e0, e1, e2, e3, e4, e5⟩ := idx_facts t
  funext j
  obtain ⟨p, q, rfl⟩ : ∃ (p : Fin 5000) (q : Fin 128), j = ix2 p q := ⟨j 0, j 1, eq_ix2 j⟩
  show k0_pay1 (F := Ideal) (iblk0 V c 0 t) (iblk0 V c 1 t) (ix2 p q) = _
  refine (pay (iblk0 V c 0 t) (iblk0 V c 1 t) p q).trans ?_
  show ∑ k : Fin 128, (show EReal from V c main_arg0 (((cfg0.win 0).blk t).view.emb (ix2 p k))) * (show EReal from V c main_arg2 (((cfg0.win 1).blk t).view.emb (ix2 k q)))
    = ∑ k : Fin 128, (show EReal from V c main_arg0 (ix2 ((((cfg0.win 2).blk t).view.emb (ix2 p q)) 0) k)) * (show EReal from V c main_arg2 (ix2 k ((((cfg0.win 2).blk t).view.emb (ix2 p q)) 1)))
  refine Finset.sum_congr rfl fun k _ => ?_
  have h0 : ((cfg0.win 0).blk t).view.emb (ix2 p k) = ix2 ((((cfg0.win 2).blk t).view.emb (ix2 p q)) 0) k := by
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * k.val = k.val; omega
  have h1 : ((cfg0.win 1).blk t).view.emb (ix2 k q) = ix2 k ((((cfg0.win 2).blk t).view.emb (ix2 p q)) 1) := by
    funext a; apply Fin.ext
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega
  rw [h0, h1]
  rfl

/-- An index of the output array is in point `t`'s block iff each coordinate is in the block's range on its axis. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v14).slice (win0_2.rect t)).set ↔ _
  rw [View.set_slice_whole, Rect.mem_set_unit]
  exact Iff.rfl

/-- Every entry of the output array is in some point's block: row `r` is in block `r / 5000`. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : grid0.N = 20 := N_0
  obtain ⟨t, ht⟩ : ∃ t : Fin cfg0.N, t.val = (i 0).val / 5000 := ⟨⟨(i 0).val / 5000, by show _ < grid0.N; rw [hN]; omega⟩, rfl⟩
  obtain ⟨e0, e1, e2, e3, e4, e5⟩ := idx_facts t
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The output array after the region: the product of the two arrays as the region found them. -/
theorem final (c : Dev nD) : (dat0 V c).arrAt 2 cfg0.N
    = mmG (N := 100000) (K := 128) (C := 128) (V c main_arg0) (V c main_arg2) :=
  (dat0 V c).arrAt_eq_of_cover 2 _ (fun t _ => flushed_eq V c t) cover

end Cert.KernelIdeal.Reg0

end
-- ==== Proof.Reg1.lean ====
/-
  Region 1 of the program, the layer's last step tiled over the rows: grid point `t` loads rows `5000 t … 5000 t + 4999`
  of the neighbourhood sums, of the node features and of the coefficient column, and the whole bias row; entry by entry
  it forms coefficient · sum + coefficient² · feature + bias, takes the maximum with zero, and writes the same rows of the output
  array. The twenty row blocks fill the output array, so it ends holding that function of the four arrays as the region
  found them.
-/
import proofs.«174543_j66812511257314_1_alg».proof.Proof.Gen.KernelIdeal.Frame
import proofs.«174543_j66812511257314_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Reg1

open Cert.KernelIdeal Cert.KernelIdeal.Gen Cert.Gcn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's value at an entry. -/
theorem pay (v0 : Vec Ideal S5000x1 .f32) (v2 v7 : Vec Ideal S5000x128 .f32) (v12 : Vec Ideal S1x128 .f32) (p : Fin 5000) (q : Fin 128) :
    k1_pay1 (F := Ideal) v0 v2 v7 v12 (ix2 p q)
      = max ((v0 (ix2 p (0 : Fin 1)) * v2 (ix2 p q) + (v0 (ix2 p (0 : Fin 1)) * v0 (ix2 p (0 : Fin 1))) * v7 (ix2 p q))
          + v12 (ix2 (0 : Fin 1) q)) (Ideal.ofBits .f32 0x00000000#32) := by
  unfold k1_pay1
  simp only [shapeCast_self, maximumf_apply, addf_apply, mulf_apply, broadcast_apply, Cert.Lib.Column.colBroadcast_apply,
    rowBroadcast2_apply]
  rfl

/-- The printed index maps over the grid: the bias row is whole, every other block is row block `t`. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

set_option maxHeartbeats 1600000 in
/-- What point `t` writes back is block `t` of the layer's last step of the four arrays as the region finds them. -/
theorem flushed_eq (c : Dev nD) (t : Fin cfg1.N) :
    (dat1 V c).flushed 4 t = ((cfg1.win 4).blk t).view.read (Elt Ideal)
      (reluG (combG (N := 100000) (C := 128) (V c main_v33) (V c main_v14) (V c main_v13) (V c main_v34))) := by
  show (cfg1.win 4).cut (grid1.coords t) ((dat1 V c).after 4 t) = _
  rw [after1_4]
  unfold out1_4
  rw [View.canon_unit_zero hz]
  simp only [View.ld_unit_zero (S := S5000x128) hz, View.ld_unit_zero (S := S5000x1) hz, View.ld_unit_zero (S := S1x128) hz]
  obtain ⟨e0, e1, e2, e3, e4, e5, e6, e7, e8, e9⟩ := idx_facts t
  funext j
  obtain ⟨p, q, rfl⟩ : ∃ (p : Fin 5000) (q : Fin 128), j = ix2 p q := ⟨j 0, j 1, eq_ix2 j⟩
  show k1_pay1 (F := Ideal) (iblk1 V c 2 t) (iblk1 V c 0 t) (iblk1 V c 1 t) (iblk1 V c 3 t) (ix2 p q) = _
  refine (pay (iblk1 V c 2 t) (iblk1 V c 0 t) (iblk1 V c 1 t) (iblk1 V c 3 t) p q).trans ?_
  have h0 : ((cfg1.win 0).blk t).view.emb (ix2 p q) = ((cfg1.win 4).blk t).view.emb (ix2 p q) := by
    funext a; apply Fin.ext
    match a with
    | ⟨0, _⟩ => show win1_0.index t (0 : Fin 2) * 5000 + 1 * p.val = win1_4.index t (0 : Fin 2) * 5000 + 1 * p.val; omega
    | ⟨1, _⟩ => show win1_0.index t (1 : Fin 2) * 128 + 1 * q.val = win1_4.index t (1 : Fin 2) * 128 + 1 * q.val; omega
  have h1 : ((cfg1.win 1).blk t).view.emb (ix2 p q) = ((cfg1.win 4).blk t).view.emb (ix2 p q) := by
    funext a; apply Fin.ext
    match a with
    | ⟨0, _⟩ => show win1_1.index t (0 : Fin 2) * 5000 + 1 * p.val = win1_4.index t (0 : Fin 2) * 5000 + 1 * p.val; omega
    | ⟨1, _⟩ => show win1_1.index t (1 : Fin 2) * 128 + 1 * q.val = win1_4.index t (1 : Fin 2) * 128 + 1 * q.val; omega
  have h2 : ((cfg1.win 2).blk t).view.emb (ix2 p (0 : Fin 1))
      = ix2 ((((cfg1.win 4).blk t).view.emb (ix2 p q)) 0) (0 : Fin 1) := by
    funext a; apply Fin.ext
    match a with
    | ⟨0, _⟩ => show win1_2.index t (0 : Fin 2) * 5000 + 1 * p.val = win1_4.index t (0 : Fin 2) * 5000 + 1 * p.val; omega
    | ⟨1, _⟩ => show win1_2.index t (1 : Fin 2) * 1 + 1 * 0 = 0; omega
  have h3 : ((cfg1.win 3).blk t).view.emb (ix2 (0 : Fin 1) q)
      = ix2 (0 : Fin 1) ((((cfg1.win 4).blk t).view.emb (ix2 p q)) 1) := by
    funext a; apply Fin.ext
    match a with
    | ⟨0, _⟩ => show win1_3.index t (0 : Fin 2) * 1 + 1 * 0 = 0; omega
    | ⟨1, _⟩ => show win1_3.index t (1 : Fin 2) * 128 + 1 * q.val = win1_4.index t (1 : Fin 2) * 128 + 1 * q.val; omega
  show max (((show EReal from V c main_v13 (((cfg1.win 2).blk t).view.emb (ix2 p (0 : Fin 1)))) * (show EReal from V c main_v33 (((cfg1.win 0).blk t).view.emb (ix2 p q)))
      + ((show EReal from V c main_v13 (((cfg1.win 2).blk t).view.emb (ix2 p (0 : Fin 1)))) * (show EReal from V c main_v13 (((cfg1.win 2).blk t).view.emb (ix2 p (0 : Fin 1)))))
        * (show EReal from V c main_v14 (((cfg1.win 1).blk t).view.emb (ix2 p q))))
      + (show EReal from V c main_v34 (((cfg1.win 3).blk t).view.emb (ix2 (0 : Fin 1) q)))) (Ideal.ofBits .f32 0x00000000#32)
    = max (((show EReal from V c main_v13 (ix2 ((((cfg1.win 4).blk t).view.emb (ix2 p q)) 0) (0 : Fin 1))) * (show EReal from V c main_v33 (((cfg1.win 4).blk t).view.emb (ix2 p q)))
      + ((show EReal from V c main_v13 (ix2 ((((cfg1.win 4).blk t).view.emb (ix2 p q)) 0) (0 : Fin 1))) * (show EReal from V c main_v13 (ix2 ((((cfg1.win 4).blk t).view.emb (ix2 p q)) 0) (0 : Fin 1))))
        * (show EReal from V c main_v14 (((cfg1.win 4).blk t).view.emb (ix2 p q))))
      + (show EReal from V c main_v34 (ix2 (0 : Fin 1) ((((cfg1.win 4).blk t).view.emb (ix2 p q)) 1)))) (Ideal.ofBits .f32 0x00000000#32)
  rw [h0, h1, h2, h3]
  rfl

/-- An index of the output array is in point `t`'s block iff each coordinate is in the block's range on its axis. -/
theorem mem_blk (t : Fin cfg1.N) (i : S100000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v35).slice (win1_4.rect t)).set ↔ _
  rw [View.set_slice_whole, Rect.mem_set_unit]
  exact Iff.rfl

/-- Every entry of the output array is in some point's block: row `r` is in block `r / 5000`. -/
theorem cover (i : S100000x128.Idx) : ∃ t : Fin cfg1.N, (cfg1.win 4).flush t = true ∧ i ∈ ((cfg1.win 4).blk t).view.set := by
  have hi0 : (i 0).val < 100000 := (i 0).isLt
  have hi1 : (i 1).val < 128 := (i 1).isLt
  have hN : grid1.N = 20 := N_1
  obtain ⟨t, ht⟩ : ∃ t : Fin cfg1.N, t.val = (i 0).val / 5000 := ⟨⟨(i 0).val / 5000, by show _ < grid1.N; rw [hN]; omega⟩, rfl⟩
  obtain ⟨e0, e1, e2, e3, e4, e5, e6, e7, e8, e9⟩ := idx_facts t
  refine ⟨t, flush1_4 t, ?_⟩
  rw [mem_blk]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

/-- The output array after the region: the layer's last step of the four arrays as the region found them. -/
theorem final (c : Dev nD) : (dat1 V c).arrAt 4 cfg1.N
    = (reluG (combG (N := 100000) (C := 128) (V c main_v33) (V c main_v14) (V c main_v13) (V c main_v34))) :=
  (dat1 V c).arrAt_eq_of_cover 4 _ (fun t _ => flushed_eq V c t) cover

end Cert.KernelIdeal.Reg1

end
-- ==== Proof.Reg2.lean ====
/-
  Region 2 of the program, a matrix product tiled over the rows: grid point `t` loads rows `5000 t … 5000 t + 4999` of
  the left array and the whole right array, multiplies them (the change of float format is the identity on the
  extended reals, the accumulator starts at zero) and writes the product to the same rows of the output array. The twenty
  row blocks fill the output array, so it ends holding the product of the two arrays as the region found them.
-/
import proofs.«174543_j66812511257314_1_alg».proof.Proof.Gen.KernelIdeal.Frame
import proofs.«174543_j66812511257314_1_alg».proof.Proof.Spec
import proofs.«174543_j66812511257314_1_alg».proof.Proof.LibPlainDot
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Reg2

open Cert.KernelIdeal Cert.KernelIdeal.Gen Cert.Gcn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's value at an entry: the inner product of a row of the left block and a column of the right array. -/
theorem pay (x0 : Vec Ideal S5000x128 .f32) (x1 : Vec Ideal S128x128 .f32) (p : Fin 5000) (q : Fin 128) :
    k2_pay1 (F := Ideal) x0 x1 (ix2 p q) = ∑ k : Fin 128, x0 (ix2 p k) * x1 (ix2 k q) := by
  unfold k2_pay1
  simp only [shapeCast_self]
  exact Cert.Lib.PlainDot.matmul_zero_apply (M := 5000) (K := 128) (N := 128) none _ _ p q

/-- The printed index maps over the grid: the left and the output blocks are row block `t`, the right array is whole. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the product of the two arrays as the region finds them. -/
theorem flushed_eq (c : Dev nD) (t : Fin cfg2.N) :
    (dat2 V c).flushed 2 t = ((cfg2.win 2).blk t).view.read (Elt Ideal)
      (mmG (N := 100000) (K := 128) (C := 128) (V c main_v35) (V c main_arg4)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x128) hz]
  obtain ⟨e0, e1, e2, e3, e4, e5⟩ := idx_facts t
  funext j
  obtain ⟨p, q, rfl⟩ : ∃ (p : Fin 5000) (q : Fin 128), j = ix2 p q := ⟨j 0, j 1, eq_ix2 j⟩
  show k2_pay1 (F := Ideal) (iblk2 V c 0 t) (iblk2 V c 1 t) (ix2 p q) = _
  refine (pay (iblk2 V c 0 t) (iblk2 V c 1 t) p q).trans ?_
  show ∑ k : Fin 128, (show EReal from V c main_v35 (((cfg2.win 0).blk t).view.emb (ix2 p k))) * (show EReal from V c main_arg4 (((cfg2.win 1).blk t).view.emb (ix2 k q)))
    = ∑ k : Fin 128, (show EReal from V c main_v35 (ix2 ((((cfg2.win 2).blk t).view.emb (ix2 p q)) 0) k)) * (show EReal from V c main_arg4 (ix2 k ((((cfg2.win 2).blk t).view.emb (ix2 p q)) 1)))
  refine Finset.sum_congr rfl fun k _ => ?_
  have h0 : ((cfg2.win 0).blk t).view.emb (ix2 p k) = ix2 ((((cfg2.win 2).blk t).view.emb (ix2 p q)) 0) k := by
    funext a; apply Fin.ext
    match a with
    | ⟨0, _⟩ => show win2_0.index t (0 : Fin 2) * 5000 + 1 * p.val = win2_2.index t (0 : Fin 2) * 5000 + 1 * p.val; omega
    | ⟨1, _⟩ => show win2_0.index t (1 : Fin 2) * 128 + 1 * k.val = k.val; omega
  have h1 : ((cfg2.win 1).blk t).view.emb (ix2 k q) = ix2 k ((((cfg2.win 2).blk t).view.emb (ix2 p q)) 1) := by
    funext a; apply Fin.ext
    match a with
    | ⟨0, _⟩ => show win2_1.index t (0 : Fin 2) * 128 + 1 * k.val = k.val; omega
    | ⟨1, _⟩ => show win2_1.index t (1 : Fin 2) * 128 + 1 * q.val = win2_2.index t (1 : Fin 2) * 128 + 1 * q.val; omega
  rw [h0, h1]
  rfl

/-- An index of the output array is in point `t`'s block iff each coordinate is in the block's range on its axis. -/
theorem mem_blk (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v36).slice (win2_2.rect t)).set ↔ _
  rw [View.set_slice_whole, Rect.mem_set_unit]
  exact Iff.rfl

/-- Every entry of the output array is in some point's block: row `r` is in block `r / 5000`. -/
theorem cover (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  have hN : grid2.N = 20 := N_2
  obtain ⟨t, ht⟩ : ∃ t : Fin cfg2.N, t.val = (i 0).val / 5000 := ⟨⟨(i 0).val / 5000, by show _ < grid2.N; rw [hN]; omega⟩, rfl⟩
  obtain ⟨e0, e1, e2, e3, e4, e5⟩ := idx_facts t
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- The output array after the region: the product of the two arrays as the region found them. -/
theorem final (c : Dev nD) : (dat2 V c).arrAt 2 cfg2.N
    = mmG (N := 100000) (K := 128) (C := 128) (V c main_v35) (V c main_arg4) :=
  (dat2 V c).arrAt_eq_of_cover 2 _ (fun t _ => flushed_eq V c t) cover

end Cert.KernelIdeal.Reg2

end
-- ==== Proof.Reg3.lean ====
/-
  Region 3 of the program, the layer's last step tiled over the rows: grid point `t` loads rows `5000 t … 5000 t + 4999`
  of the neighbourhood sums, of the node features and of the coefficient column, and the whole bias row; entry by entry
  it forms coefficient · sum + coefficient² · feature + bias, takes the maximum with zero, and writes the same rows of the output
  array. The twenty row blocks fill the output array, so it ends holding that function of the four arrays as the region
  found them.
-/
import proofs.«174543_j66812511257314_1_alg».proof.Proof.Gen.KernelIdeal.Frame
import proofs.«174543_j66812511257314_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Reg3

open Cert.KernelIdeal Cert.KernelIdeal.Gen Cert.Gcn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's value at an entry. -/
theorem pay (v0 : Vec Ideal S5000x1 .f32) (v2 v7 : Vec Ideal S5000x128 .f32) (v12 : Vec Ideal S1x128 .f32) (p : Fin 5000) (q : Fin 128) :
    k3_pay1 (F := Ideal) v0 v2 v7 v12 (ix2 p q)
      = max ((v0 (ix2 p (0 : Fin 1)) * v2 (ix2 p q) + (v0 (ix2 p (0 : Fin 1)) * v0 (ix2 p (0 : Fin 1))) * v7 (ix2 p q))
          + v12 (ix2 (0 : Fin 1) q)) (Ideal.ofBits .f32 0x00000000#32) := by
  unfold k3_pay1
  simp only [shapeCast_self, maximumf_apply, addf_apply, mulf_apply, broadcast_apply, Cert.Lib.Column.colBroadcast_apply,
    rowBroadcast2_apply]
  rfl

/-- The printed index maps over the grid: the bias row is whole, every other block is row block `t`. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

set_option maxHeartbeats 1600000 in
/-- What point `t` writes back is block `t` of the layer's last step of the four arrays as the region finds them. -/
theorem flushed_eq (c : Dev nD) (t : Fin cfg3.N) :
    (dat3 V c).flushed 4 t = ((cfg3.win 4).blk t).view.read (Elt Ideal)
      (reluG (combG (N := 100000) (C := 128) (V c main_v55) (V c main_v36) (V c main_v13) (V c main_v56))) := by
  show (cfg3.win 4).cut (grid3.coords t) ((dat3 V c).after 4 t) = _
  rw [after3_4]
  unfold out3_4
  rw [View.canon_unit_zero hz]
  simp only [View.ld_unit_zero (S := S5000x128) hz, View.ld_unit_zero (S := S5000x1) hz, View.ld_unit_zero (S := S1x128) hz]
  obtain ⟨e0, e1, e2, e3, e4, e5, e6, e7, e8, e9⟩ := idx_facts t
  funext j
  obtain ⟨p, q, rfl⟩ : ∃ (p : Fin 5000) (q : Fin 128), j = ix2 p q := ⟨j 0, j 1, eq_ix2 j⟩
  show k3_pay1 (F := Ideal) (iblk3 V c 2 t) (iblk3 V c 0 t) (iblk3 V c 1 t) (iblk3 V c 3 t) (ix2 p q) = _
  refine (pay (iblk3 V c 2 t) (iblk3 V c 0 t) (iblk3 V c 1 t) (iblk3 V c 3 t) p q).trans ?_
  have h0 : ((cfg3.win 0).blk t).view.emb (ix2 p q) = ((cfg3.win 4).blk t).view.emb (ix2 p q) := by
    funext a; apply Fin.ext
    match a with
    | ⟨0, _⟩ => show win3_0.index t (0 : Fin 2) * 5000 + 1 * p.val = win3_4.index t (0 : Fin 2) * 5000 + 1 * p.val; omega
    | ⟨1, _⟩ => show win3_0.index t (1 : Fin 2) * 128 + 1 * q.val = win3_4.index t (1 : Fin 2) * 128 + 1 * q.val; omega
  have h1 : ((cfg3.win 1).blk t).view.emb (ix2 p q) = ((cfg3.win 4).blk t).view.emb (ix2 p q) := by
    funext a; apply Fin.ext
    match a with
    | ⟨0, _⟩ => show win3_1.index t (0 : Fin 2) * 5000 + 1 * p.val = win3_4.index t (0 : Fin 2) * 5000 + 1 * p.val; omega
    | ⟨1, _⟩ => show win3_1.index t (1 : Fin 2) * 128 + 1 * q.val = win3_4.index t (1 : Fin 2) * 128 + 1 * q.val; omega
  have h2 : ((cfg3.win 2).blk t).view.emb (ix2 p (0 : Fin 1))
      = ix2 ((((cfg3.win 4).blk t).view.emb (ix2 p q)) 0) (0 : Fin 1) := by
    funext a; apply Fin.ext
    match a with
    | ⟨0, _⟩ => show win3_2.index t (0 : Fin 2) * 5000 + 1 * p.val = win3_4.index t (0 : Fin 2) * 5000 + 1 * p.val; omega
    | ⟨1, _⟩ => show win3_2.index t (1 : Fin 2) * 1 + 1 * 0 = 0; omega
  have h3 : ((cfg3.win 3).blk t).view.emb (ix2 (0 : Fin 1) q)
      = ix2 (0 : Fin 1) ((((cfg3.win 4).blk t).view.emb (ix2 p q)) 1) := by
    funext a; apply Fin.ext
    match a with
    | ⟨0, _⟩ => show win3_3.index t (0 : Fin 2) * 1 + 1 * 0 = 0; omega
    | ⟨1, _⟩ => show win3_3.index t (1 : Fin 2) * 128 + 1 * q.val = win3_4.index t (1 : Fin 2) * 128 + 1 * q.val; omega
  show max (((show EReal from V c main_v13 (((cfg3.win 2).blk t).view.emb (ix2 p (0 : Fin 1)))) * (show EReal from V c main_v55 (((cfg3.win 0).blk t).view.emb (ix2 p q)))
      + ((show EReal from V c main_v13 (((cfg3.win 2).blk t).view.emb (ix2 p (0 : Fin 1)))) * (show EReal from V c main_v13 (((cfg3.win 2).blk t).view.emb (ix2 p (0 : Fin 1)))))
        * (show EReal from V c main_v36 (((cfg3.win 1).blk t).view.emb (ix2 p q))))
      + (show EReal from V c main_v56 (((cfg3.win 3).blk t).view.emb (ix2 (0 : Fin 1) q)))) (Ideal.ofBits .f32 0x00000000#32)
    = max (((show EReal from V c main_v13 (ix2 ((((cfg3.win 4).blk t).view.emb (ix2 p q)) 0) (0 : Fin 1))) * (show EReal from V c main_v55 (((cfg3.win 4).blk t).view.emb (ix2 p q)))
      + ((show EReal from V c main_v13 (ix2 ((((cfg3.win 4).blk t).view.emb (ix2 p q)) 0) (0 : Fin 1))) * (show EReal from V c main_v13 (ix2 ((((cfg3.win 4).blk t).view.emb (ix2 p q)) 0) (0 : Fin 1))))
        * (show EReal from V c main_v36 (((cfg3.win 4).blk t).view.emb (ix2 p q))))
      + (show EReal from V c main_v56 (ix2 (0 : Fin 1) ((((cfg3.win 4).blk t).view.emb (ix2 p q)) 1)))) (Ideal.ofBits .f32 0x00000000#32)
  rw [h0, h1, h2, h3]
  rfl

/-- An index of the output array is in point `t`'s block iff each coordinate is in the block's range on its axis. -/
theorem mem_blk (t : Fin cfg3.N) (i : S100000x128.Idx) :
    i ∈ ((cfg3.win 4).blk t).view.set ↔ ∀ a : Fin 2, win3_4.index t a * S5000x128.size a ≤ (i a).val ∧ (i a).val < win3_4.index t a * S5000x128.size a + S5000x128.size a := by
  show i ∈ ((View.whole main_v57).slice (win3_4.rect t)).set ↔ _
  rw [View.set_slice_whole, Rect.mem_set_unit]
  exact Iff.rfl

/-- Every entry of the output array is in some point's block: row `r` is in block `r / 5000`. -/
theorem cover (i : S100000x128.Idx) : ∃ t : Fin cfg3.N, (cfg3.win 4).flush t = true ∧ i ∈ ((cfg3.win 4).blk t).view.set := by
  have hi0 : (i 0).val < 100000 := (i 0).isLt
  have hi1 : (i 1).val < 128 := (i 1).isLt
  have hN : grid3.N = 20 := N_3
  obtain ⟨t, ht⟩ : ∃ t : Fin cfg3.N, t.val = (i 0).val / 5000 := ⟨⟨(i 0).val / 5000, by show _ < grid3.N; rw [hN]; omega⟩, rfl⟩
  obtain ⟨e0, e1, e2, e3, e4, e5, e6, e7, e8, e9⟩ := idx_facts t
  refine ⟨t, flush3_4 t, ?_⟩
  rw [mem_blk]
  intro a
  match a with
  | ⟨0, _⟩ => show win3_4.index t (0 : Fin 2) * 5000 ≤ (i 0).val ∧ (i 0).val < win3_4.index t (0 : Fin 2) * 5000 + 5000; omega
  | ⟨1, _⟩ => show win3_4.index t (1 : Fin 2) * 128 ≤ (i 1).val ∧ (i 1).val < win3_4.index t (1 : Fin 2) * 128 + 128; omega

/-- The output array after the region: the layer's last step of the four arrays as the region found them. -/
theorem final (c : Dev nD) : (dat3 V c).arrAt 4 cfg3.N
    = (reluG (combG (N := 100000) (C := 128) (V c main_v55) (V c main_v36) (V c main_v13) (V c main_v56))) :=
  (dat3 V c).arrAt_eq_of_cover 4 _ (fun t _ => flushed_eq V c t) cover

end Cert.KernelIdeal.Reg3

end
-- ==== Proof.Reg4.lean ====
/-
  Region 4 of the program, a matrix product tiled over the rows: grid point `t` loads rows `5000 t … 5000 t + 4999` of
  the left array and the whole right array, multiplies them (the change of float format is the identity on the
  extended reals, the accumulator starts at zero) and writes the product to the same rows of the output array. The twenty
  row blocks fill the output array, so it ends holding the product of the two arrays as the region found them.
-/
import proofs.«174543_j66812511257314_1_alg».proof.Proof.Gen.KernelIdeal.Frame
import proofs.«174543_j66812511257314_1_alg».proof.Proof.Spec
import proofs.«174543_j66812511257314_1_alg».proof.Proof.LibPlainDot
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Reg4

open Cert.KernelIdeal Cert.KernelIdeal.Gen Cert.Gcn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's value at an entry: the inner product of a row of the left block and a column of the right array. -/
theorem pay (x0 : Vec Ideal S5000x128 .f32) (x1 : Vec Ideal S128x128 .f32) (p : Fin 5000) (q : Fin 128) :
    k4_pay1 (F := Ideal) x0 x1 (ix2 p q) = ∑ k : Fin 128, x0 (ix2 p k) * x1 (ix2 k q) := by
  unfold k4_pay1
  simp only [shapeCast_self]
  exact Cert.Lib.PlainDot.matmul_zero_apply (M := 5000) (K := 128) (N := 128) none _ _ p q

/-- The printed index maps over the grid: the left and the output blocks are row block `t`, the right array is whole. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point `t` writes back is block `t` of the product of the two arrays as the region finds them. -/
theorem flushed_eq (c : Dev nD) (t : Fin cfg4.N) :
    (dat4 V c).flushed 2 t = ((cfg4.win 2).blk t).view.read (Elt Ideal)
      (mmG (N := 100000) (K := 128) (C := 128) (V c main_v57) (V c main_arg6)) := by
  show (cfg4.win 2).cut (grid4.coords t) ((dat4 V c).after 2 t) = _
  rw [after4_2]
  unfold out4_2
  rw [View.canon_unit_zero hz]
  simp only [View.ld_unit_zero (S := S5000x128) hz, View.ld_unit_zero (S := S128x128) hz]
  obtain ⟨e0, e1, e2, e3, e4, e5⟩ := idx_facts t
  funext j
  obtain ⟨p, q, rfl⟩ : ∃ (p : Fin 5000) (q : Fin 128), j = ix2 p q := ⟨j 0, j 1, eq_ix2 j⟩
  show k4_pay1 (F := Ideal) (iblk4 V c 0 t) (iblk4 V c 1 t) (ix2 p q) = _
  refine (pay (iblk4 V c 0 t) (iblk4 V c 1 t) p q).trans ?_
  show ∑ k : Fin 128, (show EReal from V c main_v57 (((cfg4.win 0).blk t).view.emb (ix2 p k))) * (show EReal from V c main_arg6 (((cfg4.win 1).blk t).view.emb (ix2 k q)))
    = ∑ k : Fin 128, (show EReal from V c main_v57 (ix2 ((((cfg4.win 2).blk t).view.emb (ix2 p q)) 0) k)) * (show EReal from V c main_arg6 (ix2 k ((((cfg4.win 2).blk t).view.emb (ix2 p q)) 1)))
  refine Finset.sum_congr rfl fun k _ => ?_
  have h0 : ((cfg4.win 0).blk t).view.emb (ix2 p k) = ix2 ((((cfg4.win 2).blk t).view.emb (ix2 p q)) 0) k := by
    funext a; apply Fin.ext
    match a with
    | ⟨0, _⟩ => show win4_0.index t (0 : Fin 2) * 5000 + 1 * p.val = win4_2.index t (0 : Fin 2) * 5000 + 1 * p.val; omega
    | ⟨1, _⟩ => show win4_0.index t (1 : Fin 2) * 128 + 1 * k.val = k.val; omega
  have h1 : ((cfg4.win 1).blk t).view.emb (ix2 k q) = ix2 k ((((cfg4.win 2).blk t).view.emb (ix2 p q)) 1) := by
    funext a; apply Fin.ext
    match a with
    | ⟨0, _⟩ => show win4_1.index t (0 : Fin 2) * 128 + 1 * k.val = k.val; omega
    | ⟨1, _⟩ => show win4_1.index t (1 : Fin 2) * 128 + 1 * q.val = win4_2.index t (1 : Fin 2) * 128 + 1 * q.val; omega
  rw [h0, h1]
  rfl

/-- An index of the output array is in point `t`'s block iff each coordinate is in the block's range on its axis. -/
theorem mem_blk (t : Fin cfg4.N) (i : S100000x128.Idx) :
    i ∈ ((cfg4.win 2).blk t).view.set ↔ ∀ a : Fin 2, win4_2.index t a * S5000x128.size a ≤ (i a).val ∧ (i a).val < win4_2.index t a * S5000x128.size a + S5000x128.size a := by
  show i ∈ ((View.whole main_v58).slice (win4_2.rect t)).set ↔ _
  rw [View.set_slice_whole, Rect.mem_set_unit]
  exact Iff.rfl

/-- Every entry of the output array is in some point's block: row `r` is in block `r / 5000`. -/
theorem cover (i : S100000x128.Idx) : ∃ t : Fin cfg4.N, (cfg4.win 2).flush t = true ∧ i ∈ ((cfg4.win 2).blk t).view.set := by
  have hi0 : (i 0).val < 100000 := (i 0).isLt
  have hi1 : (i 1).val < 128 := (i 1).isLt
  have hN : grid4.N = 20 := N_4
  obtain ⟨t, ht⟩ : ∃ t : Fin cfg4.N, t.val = (i 0).val / 5000 := ⟨⟨(i 0).val / 5000, by show _ < grid4.N; rw [hN]; omega⟩, rfl⟩
  obtain ⟨e0, e1, e2, e3, e4, e5⟩ := idx_facts t
  refine ⟨t, flush4_2 t, ?_⟩
  rw [mem_blk]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 128 ≤ (i 1).val ∧ (i 1).val < win4_2.index t (1 : Fin 2) * 128 + 128; omega

/-- The output array after the region: the product of the two arrays as the region found them. -/
theorem final (c : Dev nD) : (dat4 V c).arrAt 2 cfg4.N
    = mmG (N := 100000) (K := 128) (C := 128) (V c main_v57) (V c main_arg6) :=
  (dat4 V c).arrAt_eq_of_cover 2 _ (fun t _ => flushed_eq V c t) cover

end Cert.KernelIdeal.Reg4

end
-- ==== Proof.Reg5.lean ====
/-
  Region 5 of the program, the layer's last step tiled over the rows: grid point `t` loads rows `5000 t … 5000 t + 4999`
  of the neighbourhood sums, of the node features and of the coefficient column, and the whole bias row; entry by entry
  it forms coefficient · sum + coefficient² · feature + bias, takes the maximum with zero, and writes the same rows of the output
  array. The twenty row blocks fill the output array, so it ends holding that function of the four arrays as the region
  found them.
-/
import proofs.«174543_j66812511257314_1_alg».proof.Proof.Gen.KernelIdeal.Frame
import proofs.«174543_j66812511257314_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Reg5

open Cert.KernelIdeal Cert.KernelIdeal.Gen Cert.Gcn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's value at an entry. -/
theorem pay (v0 : Vec Ideal S5000x1 .f32) (v2 v7 : Vec Ideal S5000x128 .f32) (v12 : Vec Ideal S1x128 .f32) (p : Fin 5000) (q : Fin 128) :
    k5_pay1 (F := Ideal) v0 v2 v7 v12 (ix2 p q)
      = max ((v0 (ix2 p (0 : Fin 1)) * v2 (ix2 p q) + (v0 (ix2 p (0 : Fin 1)) * v0 (ix2 p (0 : Fin 1))) * v7 (ix2 p q))
          + v12 (ix2 (0 : Fin 1) q)) (Ideal.ofBits .f32 0x00000000#32) := by
  unfold k5_pay1
  simp only [shapeCast_self, maximumf_apply, addf_apply, mulf_apply, broadcast_apply, Cert.Lib.Column.colBroadcast_apply,
    rowBroadcast2_apply]
  rfl

/-- The printed index maps over the grid: the bias row is whole, every other block is row block `t`. -/
theorem idx_facts : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

set_option maxHeartbeats 1600000 in
/-- What point `t` writes back is block `t` of the layer's last step of the four arrays as the region finds them. -/
theorem flushed_eq (c : Dev nD) (t : Fin cfg5.N) :
    (dat5 V c).flushed 4 t = ((cfg5.win 4).blk t).view.read (Elt Ideal)
      (reluG (combG (N := 100000) (C := 128) (V c main_v77) (V c main_v58) (V c main_v13) (V c main_v78))) := by
  show (cfg5.win 4).cut (grid5.coords t) ((dat5 V c).after 4 t) = _
  rw [after5_4]
  unfold out5_4
  rw [View.canon_unit_zero hz]
  simp only [View.ld_unit_zero (S := S5000x128) hz, View.ld_unit_zero (S := S5000x1) hz, View.ld_unit_zero (S := S1x128) hz]
  obtain ⟨e0, e1, e2, e3, e4, e5, e6, e7, e8, e9⟩ := idx_facts t
  funext j
  obtain ⟨p, q, rfl⟩ : ∃ (p : Fin 5000) (q : Fin 128), j = ix2 p q := ⟨j 0, j 1, eq_ix2 j⟩
  show k5_pay1 (F := Ideal) (iblk5 V c 2 t) (iblk5 V c 0 t) (iblk5 V c 1 t) (iblk5 V c 3 t) (ix2 p q) = _
  refine (pay (iblk5 V c 2 t) (iblk5 V c 0 t) (iblk5 V c 1 t) (iblk5 V c 3 t) p q).trans ?_
  have h0 : ((cfg5.win 0).blk t).view.emb (ix2 p q) = ((cfg5.win 4).blk t).view.emb (ix2 p q) := by
    funext a; apply Fin.ext
    match a with
    | ⟨0, _⟩ => show win5_0.index t (0 : Fin 2) * 5000 + 1 * p.val = win5_4.index t (0 : Fin 2) * 5000 + 1 * p.val; omega
    | ⟨1, _⟩ => show win5_0.index t (1 : Fin 2) * 128 + 1 * q.val = win5_4.index t (1 : Fin 2) * 128 + 1 * q.val; omega
  have h1 : ((cfg5.win 1).blk t).view.emb (ix2 p q) = ((cfg5.win 4).blk t).view.emb (ix2 p q) := by
    funext a; apply Fin.ext
    match a with
    | ⟨0, _⟩ => show win5_1.index t (0 : Fin 2) * 5000 + 1 * p.val = win5_4.index t (0 : Fin 2) * 5000 + 1 * p.val; omega
    | ⟨1, _⟩ => show win5_1.index t (1 : Fin 2) * 128 + 1 * q.val = win5_4.index t (1 : Fin 2) * 128 + 1 * q.val; omega
  have h2 : ((cfg5.win 2).blk t).view.emb (ix2 p (0 : Fin 1))
      = ix2 ((((cfg5.win 4).blk t).view.emb (ix2 p q)) 0) (0 : Fin 1) := by
    funext a; apply Fin.ext
    match a with
    | ⟨0, _⟩ => show win5_2.index t (0 : Fin 2) * 5000 + 1 * p.val = win5_4.index t (0 : Fin 2) * 5000 + 1 * p.val; omega
    | ⟨1, _⟩ => show win5_2.index t (1 : Fin 2) * 1 + 1 * 0 = 0; omega
  have h3 : ((cfg5.win 3).blk t).view.emb (ix2 (0 : Fin 1) q)
      = ix2 (0 : Fin 1) ((((cfg5.win 4).blk t).view.emb (ix2 p q)) 1) := by
    funext a; apply Fin.ext
    match a with
    | ⟨0, _⟩ => show win5_3.index t (0 : Fin 2) * 1 + 1 * 0 = 0; omega
    | ⟨1, _⟩ => show win5_3.index t (1 : Fin 2) * 128 + 1 * q.val = win5_4.index t (1 : Fin 2) * 128 + 1 * q.val; omega
  show max (((show EReal from V c main_v13 (((cfg5.win 2).blk t).view.emb (ix2 p (0 : Fin 1)))) * (show EReal from V c main_v77 (((cfg5.win 0).blk t).view.emb (ix2 p q)))
      + ((show EReal from V c main_v13 (((cfg5.win 2).blk t).view.emb (ix2 p (0 : Fin 1)))) * (show EReal from V c main_v13 (((cfg5.win 2).blk t).view.emb (ix2 p (0 : Fin 1)))))
        * (show EReal from V c main_v58 (((cfg5.win 1).blk t).view.emb (ix2 p q))))
      + (show EReal from V c main_v78 (((cfg5.win 3).blk t).view.emb (ix2 (0 : Fin 1) q)))) (Ideal.ofBits .f32 0x00000000#32)
    = max (((show EReal from V c main_v13 (ix2 ((((cfg5.win 4).blk t).view.emb (ix2 p q)) 0) (0 : Fin 1))) * (show EReal from V c main_v77 (((cfg5.win 4).blk t).view.emb (ix2 p q)))
      + ((show EReal from V c main_v13 (ix2 ((((cfg5.win 4).blk t).view.emb (ix2 p q)) 0) (0 : Fin 1))) * (show EReal from V c main_v13 (ix2 ((((cfg5.win 4).blk t).view.emb (ix2 p q)) 0) (0 : Fin 1))))
        * (show EReal from V c main_v58 (((cfg5.win 4).blk t).view.emb (ix2 p q))))
      + (show EReal from V c main_v78 (ix2 (0 : Fin 1) ((((cfg5.win 4).blk t).view.emb (ix2 p q)) 1)))) (Ideal.ofBits .f32 0x00000000#32)
  rw [h0, h1, h2, h3]
  rfl

/-- An index of the output array is in point `t`'s block iff each coordinate is in the block's range on its axis. -/
theorem mem_blk (t : Fin cfg5.N) (i : S100000x128.Idx) :
    i ∈ ((cfg5.win 4).blk t).view.set ↔ ∀ a : Fin 2, win5_4.index t a * S5000x128.size a ≤ (i a).val ∧ (i a).val < win5_4.index t a * S5000x128.size a + S5000x128.size a := by
  show i ∈ ((View.whole main_v79).slice (win5_4.rect t)).set ↔ _
  rw [View.set_slice_whole, Rect.mem_set_unit]
  exact Iff.rfl

/-- Every entry of the output array is in some point's block: row `r` is in block `r / 5000`. -/
theorem cover (i : S100000x128.Idx) : ∃ t : Fin cfg5.N, (cfg5.win 4).flush t = true ∧ i ∈ ((cfg5.win 4).blk t).view.set := by
  have hi0 : (i 0).val < 100000 := (i 0).isLt
  have hi1 : (i 1).val < 128 := (i 1).isLt
  have hN : grid5.N = 20 := N_5
  obtain ⟨t, ht⟩ : ∃ t : Fin cfg5.N, t.val = (i 0).val / 5000 := ⟨⟨(i 0).val / 5000, by show _ < grid5.N; rw [hN]; omega⟩, rfl⟩
  obtain ⟨e0, e1, e2, e3, e4, e5, e6, e7, e8, e9⟩ := idx_facts t
  refine ⟨t, flush5_4 t, ?_⟩
  rw [mem_blk]
  intro a
  match a with
  | ⟨0, _⟩ => show win5_4.index t (0 : Fin 2) * 5000 ≤ (i 0).val ∧ (i 0).val < win5_4.index t (0 : Fin 2) * 5000 + 5000; omega
  | ⟨1, _⟩ => show win5_4.index t (1 : Fin 2) * 128 ≤ (i 1).val ∧ (i 1).val < win5_4.index t (1 : Fin 2) * 128 + 128; omega

/-- The output array after the region: the layer's last step of the four arrays as the region found them. -/
theorem final (c : Dev nD) : (dat5 V c).arrAt 4 cfg5.N
    = (reluG (combG (N := 100000) (C := 128) (V c main_v77) (V c main_v58) (V c main_v13) (V c main_v78))) :=
  (dat5 V c).arrAt_eq_of_cover 4 _ (fun t _ => flushed_eq V c t) cover

end Cert.KernelIdeal.Reg5

end
-- ==== Proof.Reg6.lean ====
/-
  Region 6 of the program, a matrix product tiled over the rows: grid point `t` loads rows `5000 t … 5000 t + 4999` of
  the left array and the whole right array, multiplies them (the change of float format is the identity on the
  extended reals, the accumulator starts at zero) and writes the product to the same rows of the output array. The twenty
  row blocks fill the output array, so it ends holding the product of the two arrays as the region found them.
-/
import proofs.«174543_j66812511257314_1_alg».proof.Proof.Gen.KernelIdeal.Frame
import proofs.«174543_j66812511257314_1_alg».proof.Proof.Spec
import proofs.«174543_j66812511257314_1_alg».proof.Proof.LibPlainDot
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Reg6

open Cert.KernelIdeal Cert.KernelIdeal.Gen Cert.Gcn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's value at an entry: the inner product of a row of the left block and a column of the right array. -/
theorem pay (x0 : Vec Ideal S5000x128 .f32) (x1 : Vec Ideal S128x64 .f32) (p : Fin 5000) (q : Fin 64) :
    k6_pay1 (F := Ideal) x0 x1 (ix2 p q) = ∑ k : Fin 128, x0 (ix2 p k) * x1 (ix2 k q) := by
  unfold k6_pay1
  simp only [shapeCast_self]
  exact Cert.Lib.PlainDot.matmul_zero_apply (M := 5000) (K := 128) (N := 64) none _ _ p q

/-- The printed index maps over the grid: the left and the output blocks are row block `t`, the right array is whole. -/
theorem idx_facts : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- What point `t` writes back is block `t` of the product of the two arrays as the region finds them. -/
theorem flushed_eq (c : Dev nD) (t : Fin cfg6.N) :
    (dat6 V c).flushed 2 t = ((cfg6.win 2).blk t).view.read (Elt Ideal)
      (mmG (N := 100000) (K := 128) (C := 64) (V c main_v79) (V c main_arg8)) := by
  show (cfg6.win 2).cut (grid6.coords t) ((dat6 V c).after 2 t) = _
  rw [after6_2]
  unfold out6_2
  rw [View.canon_unit_zero hz]
  simp only [View.ld_unit_zero (S := S5000x128) hz, View.ld_unit_zero (S := S128x64) hz]
  obtain ⟨e0, e1, e2, e3, e4, e5⟩ := idx_facts t
  funext j
  obtain ⟨p, q, rfl⟩ : ∃ (p : Fin 5000) (q : Fin 64), j = ix2 p q := ⟨j 0, j 1, eq_ix2 j⟩
  show k6_pay1 (F := Ideal) (iblk6 V c 0 t) (iblk6 V c 1 t) (ix2 p q) = _
  refine (pay (iblk6 V c 0 t) (iblk6 V c 1 t) p q).trans ?_
  show ∑ k : Fin 128, (show EReal from V c main_v79 (((cfg6.win 0).blk t).view.emb (ix2 p k))) * (show EReal from V c main_arg8 (((cfg6.win 1).blk t).view.emb (ix2 k q)))
    = ∑ k : Fin 128, (show EReal from V c main_v79 (ix2 ((((cfg6.win 2).blk t).view.emb (ix2 p q)) 0) k)) * (show EReal from V c main_arg8 (ix2 k ((((cfg6.win 2).blk t).view.emb (ix2 p q)) 1)))
  refine Finset.sum_congr rfl fun k _ => ?_
  have h0 : ((cfg6.win 0).blk t).view.emb (ix2 p k) = ix2 ((((cfg6.win 2).blk t).view.emb (ix2 p q)) 0) k := by
    funext a; apply Fin.ext
    match a with
    | ⟨0, _⟩ => show win6_0.index t (0 : Fin 2) * 5000 + 1 * p.val = win6_2.index t (0 : Fin 2) * 5000 + 1 * p.val; omega
    | ⟨1, _⟩ => show win6_0.index t (1 : Fin 2) * 128 + 1 * k.val = k.val; omega
  have h1 : ((cfg6.win 1).blk t).view.emb (ix2 k q) = ix2 k ((((cfg6.win 2).blk t).view.emb (ix2 p q)) 1) := by
    funext a; apply Fin.ext
    match a with
    | ⟨0, _⟩ => show win6_1.index t (0 : Fin 2) * 128 + 1 * k.val = k.val; omega
    | ⟨1, _⟩ => show win6_1.index t (1 : Fin 2) * 64 + 1 * q.val = win6_2.index t (1 : Fin 2) * 64 + 1 * q.val; omega
  rw [h0, h1]
  rfl

/-- An index of the output array is in point `t`'s block iff each coordinate is in the block's range on its axis. -/
theorem mem_blk (t : Fin cfg6.N) (i : S100000x64.Idx) :
    i ∈ ((cfg6.win 2).blk t).view.set ↔ ∀ a : Fin 2, win6_2.index t a * S5000x64.size a ≤ (i a).val ∧ (i a).val < win6_2.index t a * S5000x64.size a + S5000x64.size a := by
  show i ∈ ((View.whole main_v80).slice (win6_2.rect t)).set ↔ _
  rw [View.set_slice_whole, Rect.mem_set_unit]
  exact Iff.rfl

/-- Every entry of the output array is in some point's block: row `r` is in block `r / 5000`. -/
theorem cover (i : S100000x64.Idx) : ∃ t : Fin cfg6.N, (cfg6.win 2).flush t = true ∧ i ∈ ((cfg6.win 2).blk t).view.set := by
  have hi0 : (i 0).val < 100000 := (i 0).isLt
  have hi1 : (i 1).val < 64 := (i 1).isLt
  have hN : grid6.N = 20 := N_6
  obtain ⟨t, ht⟩ : ∃ t : Fin cfg6.N, t.val = (i 0).val / 5000 := ⟨⟨(i 0).val / 5000, by show _ < grid6.N; rw [hN]; omega⟩, rfl⟩
  obtain ⟨e0, e1, e2, e3, e4, e5⟩ := idx_facts t
  refine ⟨t, flush6_2 t, ?_⟩
  rw [mem_blk]
  intro a
  match a with
  | ⟨0, _⟩ => show win6_2.index t (0 : Fin 2) * 5000 ≤ (i 0).val ∧ (i 0).val < win6_2.index t (0 : Fin 2) * 5000 + 5000; omega
  | ⟨1, _⟩ => show win6_2.index t (1 : Fin 2) * 64 ≤ (i 1).val ∧ (i 1).val < win6_2.index t (1 : Fin 2) * 64 + 64; omega

/-- The output array after the region: the product of the two arrays as the region found them. -/
theorem final (c : Dev nD) : (dat6 V c).arrAt 2 cfg6.N
    = mmG (N := 100000) (K := 128) (C := 64) (V c main_v79) (V c main_arg8) :=
  (dat6 V c).arrAt_eq_of_cover 2 _ (fun t _ => flushed_eq V c t) cover

end Cert.KernelIdeal.Reg6

end
-- ==== Proof.Reg7.lean ====
/-
  Region 7 of the program, the layer's last step tiled over the rows: grid point `t` loads rows `5000 t … 5000 t + 4999`
  of the neighbourhood sums, of the node features and of the coefficient column, and the whole bias row; entry by entry
  it forms coefficient · sum + coefficient² · feature + bias and writes the same rows of the output
  array. The twenty row blocks fill the output array, so it ends holding that function of the four arrays as the region
  found them.
-/
import proofs.«174543_j66812511257314_1_alg».proof.Proof.Gen.KernelIdeal.Frame
import proofs.«174543_j66812511257314_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Reg7

open Cert.KernelIdeal Cert.KernelIdeal.Gen Cert.Gcn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's value at an entry. -/
theorem pay (v0 : Vec Ideal S5000x1 .f32) (v2 v7 : Vec Ideal S5000x64 .f32) (v12 : Vec Ideal S1x64 .f32) (p : Fin 5000) (q : Fin 64) :
    k7_pay1 (F := Ideal) v0 v2 v7 v12 (ix2 p q)
      = (v0 (ix2 p (0 : Fin 1)) * v2 (ix2 p q) + (v0 (ix2 p (0 : Fin 1)) * v0 (ix2 p (0 : Fin 1))) * v7 (ix2 p q))
          + v12 (ix2 (0 : Fin 1) q) := by
  unfold k7_pay1
  simp only [shapeCast_self, maximumf_apply, addf_apply, mulf_apply, broadcast_apply, Cert.Lib.Column.colBroadcast_apply,
    rowBroadcast2_apply]

/-- The printed index maps over the grid: the bias row is whole, every other block is row block `t`. -/
theorem idx_facts : ∀ t : Fin cfg7.N, win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0
    ∧ win7_3.index t (0 : Fin 2) = 0 ∧ win7_3.index t (1 : Fin 2) = 0
    ∧ win7_4.index t (0 : Fin 2) = t.val ∧ win7_4.index t (1 : Fin 2) = 0 :=
  (by decide +kernel : ∀ t : Fin grid7.N, _)

set_option maxHeartbeats 1600000 in
/-- What point `t` writes back is block `t` of the layer's last step of the four arrays as the region finds them. -/
theorem flushed_eq (c : Dev nD) (t : Fin cfg7.N) :
    (dat7 V c).flushed 4 t = ((cfg7.win 4).blk t).view.read (Elt Ideal)
      (combG (N := 100000) (C := 64) (V c main_v99) (V c main_v80) (V c main_v13) (V c main_v100)) := by
  show (cfg7.win 4).cut (grid7.coords t) ((dat7 V c).after 4 t) = _
  rw [after7_4]
  unfold out7_4
  rw [View.canon_unit_zero hz]
  simp only [View.ld_unit_zero (S := S5000x64) hz, View.ld_unit_zero (S := S5000x1) hz, View.ld_unit_zero (S := S1x64) hz]
  obtain ⟨e0, e1, e2, e3, e4, e5, e6, e7, e8, e9⟩ := idx_facts t
  funext j
  obtain ⟨p, q, rfl⟩ : ∃ (p : Fin 5000) (q : Fin 64), j = ix2 p q := ⟨j 0, j 1, eq_ix2 j⟩
  show k7_pay1 (F := Ideal) (iblk7 V c 2 t) (iblk7 V c 0 t) (iblk7 V c 1 t) (iblk7 V c 3 t) (ix2 p q) = _
  refine (pay (iblk7 V c 2 t) (iblk7 V c 0 t) (iblk7 V c 1 t) (iblk7 V c 3 t) p q).trans ?_
  have h0 : ((cfg7.win 0).blk t).view.emb (ix2 p q) = ((cfg7.win 4).blk t).view.emb (ix2 p q) := by
    funext a; apply Fin.ext
    match a with
    | ⟨0, _⟩ => show win7_0.index t (0 : Fin 2) * 5000 + 1 * p.val = win7_4.index t (0 : Fin 2) * 5000 + 1 * p.val; omega
    | ⟨1, _⟩ => show win7_0.index t (1 : Fin 2) * 64 + 1 * q.val = win7_4.index t (1 : Fin 2) * 64 + 1 * q.val; omega
  have h1 : ((cfg7.win 1).blk t).view.emb (ix2 p q) = ((cfg7.win 4).blk t).view.emb (ix2 p q) := by
    funext a; apply Fin.ext
    match a with
    | ⟨0, _⟩ => show win7_1.index t (0 : Fin 2) * 5000 + 1 * p.val = win7_4.index t (0 : Fin 2) * 5000 + 1 * p.val; omega
    | ⟨1, _⟩ => show win7_1.index t (1 : Fin 2) * 64 + 1 * q.val = win7_4.index t (1 : Fin 2) * 64 + 1 * q.val; omega
  have h2 : ((cfg7.win 2).blk t).view.emb (ix2 p (0 : Fin 1))
      = ix2 ((((cfg7.win 4).blk t).view.emb (ix2 p q)) 0) (0 : Fin 1) := by
    funext a; apply Fin.ext
    match a with
    | ⟨0, _⟩ => show win7_2.index t (0 : Fin 2) * 5000 + 1 * p.val = win7_4.index t (0 : Fin 2) * 5000 + 1 * p.val; omega
    | ⟨1, _⟩ => show win7_2.index t (1 : Fin 2) * 1 + 1 * 0 = 0; omega
  have h3 : ((cfg7.win 3).blk t).view.emb (ix2 (0 : Fin 1) q)
      = ix2 (0 : Fin 1) ((((cfg7.win 4).blk t).view.emb (ix2 p q)) 1) := by
    funext a; apply Fin.ext
    match a with
    | ⟨0, _⟩ => show win7_3.index t (0 : Fin 2) * 1 + 1 * 0 = 0; omega
    | ⟨1, _⟩ => show win7_3.index t (1 : Fin 2) * 64 + 1 * q.val = win7_4.index t (1 : Fin 2) * 64 + 1 * q.val; omega
  show ((show EReal from V c main_v13 (((cfg7.win 2).blk t).view.emb (ix2 p (0 : Fin 1)))) * (show EReal from V c main_v99 (((cfg7.win 0).blk t).view.emb (ix2 p q)))
      + ((show EReal from V c main_v13 (((cfg7.win 2).blk t).view.emb (ix2 p (0 : Fin 1)))) * (show EReal from V c main_v13 (((cfg7.win 2).blk t).view.emb (ix2 p (0 : Fin 1)))))
        * (show EReal from V c main_v80 (((cfg7.win 1).blk t).view.emb (ix2 p q))))
      + (show EReal from V c main_v100 (((cfg7.win 3).blk t).view.emb (ix2 (0 : Fin 1) q)))
    = ((show EReal from V c main_v13 (ix2 ((((cfg7.win 4).blk t).view.emb (ix2 p q)) 0) (0 : Fin 1))) * (show EReal from V c main_v99 (((cfg7.win 4).blk t).view.emb (ix2 p q)))
      + ((show EReal from V c main_v13 (ix2 ((((cfg7.win 4).blk t).view.emb (ix2 p q)) 0) (0 : Fin 1))) * (show EReal from V c main_v13 (ix2 ((((cfg7.win 4).blk t).view.emb (ix2 p q)) 0) (0 : Fin 1))))
        * (show EReal from V c main_v80 (((cfg7.win 4).blk t).view.emb (ix2 p q))))
      + (show EReal from V c main_v100 (ix2 (0 : Fin 1) ((((cfg7.win 4).blk t).view.emb (ix2 p q)) 1)))
  rw [h0, h1, h2, h3]
  rfl

/-- An index of the output array is in point `t`'s block iff each coordinate is in the block's range on its axis. -/
theorem mem_blk (t : Fin cfg7.N) (i : S100000x64.Idx) :
    i ∈ ((cfg7.win 4).blk t).view.set ↔ ∀ a : Fin 2, win7_4.index t a * S5000x64.size a ≤ (i a).val ∧ (i a).val < win7_4.index t a * S5000x64.size a + S5000x64.size a := by
  show i ∈ ((View.whole main_v101).slice (win7_4.rect t)).set ↔ _
  rw [View.set_slice_whole, Rect.mem_set_unit]
  exact Iff.rfl

/-- Every entry of the output array is in some point's block: row `r` is in block `r / 5000`. -/
theorem cover (i : S100000x64.Idx) : ∃ t : Fin cfg7.N, (cfg7.win 4).flush t = true ∧ i ∈ ((cfg7.win 4).blk t).view.set := by
  have hi0 : (i 0).val < 100000 := (i 0).isLt
  have hi1 : (i 1).val < 64 := (i 1).isLt
  have hN : grid7.N = 20 := N_7
  obtain ⟨t, ht⟩ : ∃ t : Fin cfg7.N, t.val = (i 0).val / 5000 := ⟨⟨(i 0).val / 5000, by show _ < grid7.N; rw [hN]; omega⟩, rfl⟩
  obtain ⟨e0, e1, e2, e3, e4, e5, e6, e7, e8, e9⟩ := idx_facts t
  refine ⟨t, flush7_4 t, ?_⟩
  rw [mem_blk]
  intro a
  match a with
  | ⟨0, _⟩ => show win7_4.index t (0 : Fin 2) * 5000 ≤ (i 0).val ∧ (i 0).val < win7_4.index t (0 : Fin 2) * 5000 + 5000; omega
  | ⟨1, _⟩ => show win7_4.index t (1 : Fin 2) * 64 ≤ (i 1).val ∧ (i 1).val < win7_4.index t (1 : Fin 2) * 64 + 64; omega

/-- The output array after the region: the layer's last step of the four arrays as the region found them. -/
theorem final (c : Dev nD) : (dat7 V c).arrAt 4 cfg7.N
    = (combG (N := 100000) (C := 64) (V c main_v99) (V c main_v80) (V c main_v13) (V c main_v100)) :=
  (dat7 V c).arrAt_eq_of_cover 4 _ (fun t _ => flushed_eq V c t) cover

end Cert.KernelIdeal.Reg7

end
-- ==== Proof.KernelChain.lean ====
/-
  The buffer contents at the kernel program's segment boundaries, followed from the launch to the result.

  Three buffers are written once, before the first region, and only read afterwards: the source words, the destination
  words and the column of node coefficients; no segment writes an argument array. They are carried from boundary to
  boundary: a region leaves every buffer that is not one of its arrays as it found it, a stretch of host operations every
  buffer it does not write. Beside them each boundary's new values are read: a matrix-product region leaves the product
  of its two input arrays, a stretch the neighbourhood sums of the table before it and the bias as a row, a combining
  region the layer's last step of its four input arrays. The result buffer ends holding four layers composed.
-/
import proofs.«174543_j66812511257314_1_alg».proof.Proof.Gen.KernelIdeal.Frame
import proofs.«174543_j66812511257314_1_alg».proof.Proof.KernelHost
import proofs.«174543_j66812511257314_1_alg».proof.Proof.Spec
import proofs.«174543_j66812511257314_1_alg».proof.Proof.Reg0
import proofs.«174543_j66812511257314_1_alg».proof.Proof.Reg1
import proofs.«174543_j66812511257314_1_alg».proof.Proof.Reg2
import proofs.«174543_j66812511257314_1_alg».proof.Proof.Reg3
import proofs.«174543_j66812511257314_1_alg».proof.Proof.Reg4
import proofs.«174543_j66812511257314_1_alg».proof.Proof.Reg5
import proofs.«174543_j66812511257314_1_alg».proof.Proof.Reg6
import proofs.«174543_j66812511257314_1_alg».proof.Proof.Reg7

set_option maxRecDepth 16384

noncomputable section

namespace Cert.KernelIdeal.Chain

open Cert.KernelIdeal Cert.KernelIdeal.Gen Cert.KernelIdeal.HostRead Cert.Gcn
open Idealize.ShloMosaic Idealize.ShloMosaic.TcCoe Idealize.SL.Sem

variable (m : (ℓ : Loc nD τ sig) → Buf (Elt Ideal) ℓ) (ρ : Dev nD → PrngReg) (c : Dev nD)

/-- One layer of 128 columns on the kernel's side, from the table `H` of transformed features and the bias `b`. -/
abbrev kLayer128 (ei : IVec S2x1600000 32) (H : FVec Ideal S100000x128 .f32) (b : FVec Ideal S128 .f32) :
    FVec Ideal S100000x128 .f32 :=
  combG (N := 100000) (C := 128) (kAgg128 (kSrc ei) (kDst ei) (kDinvCol (kDst ei)) H) H (kDinvCol (kDst ei)) (kBias128 b)

/-- One layer of 64 columns on the kernel's side. -/
abbrev kLayer64 (ei : IVec S2x1600000 32) (H : FVec Ideal S100000x64 .f32) (b : FVec Ideal S64 .f32) :
    FVec Ideal S100000x64 .f32 :=
  combG (N := 100000) (C := 64) (kAgg64 (kSrc ei) (kDst ei) (kDinvCol (kDst ei)) H) H (kDinvCol (kDst ei)) (kBias64 b)

/-- What is carried from boundary to boundary: the source words, the destination words, the coefficient column, and the
    argument arrays the later segments read. -/
structure Carry (W : Valuation τ sig (Elt Ideal)) : Prop where
  v1 : W (Proc.devRef .tc main_v1) = kSrc (m ((c : Thread nD τ).loc main_arg1))
  v3 : W (Proc.devRef .tc main_v3) = kDst (m ((c : Thread nD τ).loc main_arg1))
  v13 : W (Proc.devRef .tc main_v13) = kDinvCol (kDst (m ((c : Thread nD τ).loc main_arg1)))
  a3 : W (Proc.devRef .tc main_arg3) = m ((c : Thread nD τ).loc main_arg3)
  a4 : W (Proc.devRef .tc main_arg4) = m ((c : Thread nD τ).loc main_arg4)
  a5 : W (Proc.devRef .tc main_arg5) = m ((c : Thread nD τ).loc main_arg5)
  a6 : W (Proc.devRef .tc main_arg6) = m ((c : Thread nD τ).loc main_arg6)
  a7 : W (Proc.devRef .tc main_arg7) = m ((c : Thread nD τ).loc main_arg7)
  a8 : W (Proc.devRef .tc main_arg8) = m ((c : Thread nD τ).loc main_arg8)
  a9 : W (Proc.devRef .tc main_arg9) = m ((c : Thread nD τ).loc main_arg9)

theorem carry1 : Carry m c (W1 m ρ c) :=
  ⟨hostOps0_main_v1 (W0 m ρ c), hostOps0_main_v3 (W0 m ρ c), hostOps0_main_v13 (W0 m ρ c),
   hostOps0_keep_main_arg3 (W0 m ρ c), hostOps0_keep_main_arg4 (W0 m ρ c), hostOps0_keep_main_arg5 (W0 m ρ c), hostOps0_keep_main_arg6 (W0 m ρ c), hostOps0_keep_main_arg7 (W0 m ρ c), hostOps0_keep_main_arg8 (W0 m ρ c), hostOps0_keep_main_arg9 (W0 m ρ c)⟩
theorem carry2 : Carry m c (W2 m ρ c) :=
  ⟨(W2_of_ne m ρ c main_v1 (by decide)).trans (carry1 m ρ c).v1,
   (W2_of_ne m ρ c main_v3 (by decide)).trans (carry1 m ρ c).v3,
   (W2_of_ne m ρ c main_v13 (by decide)).trans (carry1 m ρ c).v13,
   (W2_of_ne m ρ c main_arg3 (by decide)).trans (carry1 m ρ c).a3,
   (W2_of_ne m ρ c main_arg4 (by decide)).trans (carry1 m ρ c).a4,
   (W2_of_ne m ρ c main_arg5 (by decide)).trans (carry1 m ρ c).a5,
   (W2_of_ne m ρ c main_arg6 (by decide)).trans (carry1 m ρ c).a6,
   (W2_of_ne m ρ c main_arg7 (by decide)).trans (carry1 m ρ c).a7,
   (W2_of_ne m ρ c main_arg8 (by decide)).trans (carry1 m ρ c).a8,
   (W2_of_ne m ρ c main_arg9 (by decide)).trans (carry1 m ρ c).a9⟩
theorem carry3 : Carry m c (W3 m ρ c) :=
  ⟨(hostOps1_keep_main_v1 (W2 m ρ c)).trans (carry2 m ρ c).v1,
   (hostOps1_keep_main_v3 (W2 m ρ c)).trans (carry2 m ρ c).v3,
   (hostOps1_keep_main_v13 (W2 m ρ c)).trans (carry2 m ρ c).v13,
   (hostOps1_keep_main_arg3 (W2 m ρ c)).trans (carry2 m ρ c).a3,
   (hostOps1_keep_main_arg4 (W2 m ρ c)).trans (carry2 m ρ c).a4,
   (hostOps1_keep_main_arg5 (W2 m ρ c)).trans (carry2 m ρ c).a5,
   (hostOps1_keep_main_arg6 (W2 m ρ c)).trans (carry2 m ρ c).a6,
   (hostOps1_keep_main_arg7 (W2 m ρ c)).trans (carry2 m ρ c).a7,
   (hostOps1_keep_main_arg8 (W2 m ρ c)).trans (carry2 m ρ c).a8,
   (hostOps1_keep_main_arg9 (W2 m ρ c)).trans (carry2 m ρ c).a9⟩
theorem carry4 : Carry m c (W4 m ρ c) :=
  ⟨(W4_of_ne m ρ c main_v1 (by decide)).trans (carry3 m ρ c).v1,
   (W4_of_ne m ρ c main_v3 (by decide)).trans (carry3 m ρ c).v3,
   ((W4_arr m ρ c 2).trans (((dat1 (V3 m ρ) c).arrAt_in 2 rfl _).trans (A_eq1 (V3 m ρ) c 2))).trans (carry3 m ρ c).v13,
   (W4_of_ne m ρ c main_arg3 (by decide)).trans (carry3 m ρ c).a3,
   (W4_of_ne m ρ c main_arg4 (by decide)).trans (carry3 m ρ c).a4,
   (W4_of_ne m ρ c main_arg5 (by decide)).trans (carry3 m ρ c).a5,
   (W4_of_ne m ρ c main_arg6 (by decide)).trans (carry3 m ρ c).a6,
   (W4_of_ne m ρ c main_arg7 (by decide)).trans (carry3 m ρ c).a7,
   (W4_of_ne m ρ c main_arg8 (by decide)).trans (carry3 m ρ c).a8,
   (W4_of_ne m ρ c main_arg9 (by decide)).trans (carry3 m ρ c).a9⟩
theorem carry5 : Carry m c (W5 m ρ c) :=
  ⟨(W5_of_ne m ρ c main_v1 (by decide)).trans (carry4 m ρ c).v1,
   (W5_of_ne m ρ c main_v3 (by decide)).trans (carry4 m ρ c).v3,
   (W5_of_ne m ρ c main_v13 (by decide)).trans (carry4 m ρ c).v13,
   (W5_of_ne m ρ c main_arg3 (by decide)).trans (carry4 m ρ c).a3,
   ((W5_arr m ρ c 1).trans (((dat2 (V4 m ρ) c).arrAt_in 1 rfl _).trans (A_eq2 (V4 m ρ) c 1))).trans (carry4 m ρ c).a4,
   (W5_of_ne m ρ c main_arg5 (by decide)).trans (carry4 m ρ c).a5,
   (W5_of_ne m ρ c main_arg6 (by decide)).trans (carry4 m ρ c).a6,
   (W5_of_ne m ρ c main_arg7 (by decide)).trans (carry4 m ρ c).a7,
   (W5_of_ne m ρ c main_arg8 (by decide)).trans (carry4 m ρ c).a8,
   (W5_of_ne m ρ c main_arg9 (by decide)).trans (carry4 m ρ c).a9⟩
theorem carry6 : Carry m c (W6 m ρ c) :=
  ⟨(hostOps3_keep_main_v1 (W5 m ρ c)).trans (carry5 m ρ c).v1,
   (hostOps3_keep_main_v3 (W5 m ρ c)).trans (carry5 m ρ c).v3,
   (hostOps3_keep_main_v13 (W5 m ρ c)).trans (carry5 m ρ c).v13,
   (hostOps3_keep_main_arg3 (W5 m ρ c)).trans (carry5 m ρ c).a3,
   (hostOps3_keep_main_arg4 (W5 m ρ c)).trans (carry5 m ρ c).a4,
   (hostOps3_keep_main_arg5 (W5 m ρ c)).trans (carry5 m ρ c).a5,
   (hostOps3_keep_main_arg6 (W5 m ρ c)).trans (carry5 m ρ c).a6,
   (hostOps3_keep_main_arg7 (W5 m ρ c)).trans (carry5 m ρ c).a7,
   (hostOps3_keep_main_arg8 (W5 m ρ c)).trans (carry5 m ρ c).a8,
   (hostOps3_keep_main_arg9 (W5 m ρ c)).trans (carry5 m ρ c).a9⟩
theorem carry7 : Carry m c (W7 m ρ c) :=
  ⟨(W7_of_ne m ρ c main_v1 (by decide)).trans (carry6 m ρ c).v1,
   (W7_of_ne m ρ c main_v3 (by decide)).trans (carry6 m ρ c).v3,
   ((W7_arr m ρ c 2).trans (((dat3 (V6 m ρ) c).arrAt_in 2 rfl _).trans (A_eq3 (V6 m ρ) c 2))).trans (carry6 m ρ c).v13,
   (W7_of_ne m ρ c main_arg3 (by decide)).trans (carry6 m ρ c).a3,
   (W7_of_ne m ρ c main_arg4 (by decide)).trans (carry6 m ρ c).a4,
   (W7_of_ne m ρ c main_arg5 (by decide)).trans (carry6 m ρ c).a5,
   (W7_of_ne m ρ c main_arg6 (by decide)).trans (carry6 m ρ c).a6,
   (W7_of_ne m ρ c main_arg7 (by decide)).trans (carry6 m ρ c).a7,
   (W7_of_ne m ρ c main_arg8 (by decide)).trans (carry6 m ρ c).a8,
   (W7_of_ne m ρ c main_arg9 (by decide)).trans (carry6 m ρ c).a9⟩
theorem carry8 : Carry m c (W8 m ρ c) :=
  ⟨(W8_of_ne m ρ c main_v1 (by decide)).trans (carry7 m ρ c).v1,
   (W8_of_ne m ρ c main_v3 (by decide)).trans (carry7 m ρ c).v3,
   (W8_of_ne m ρ c main_v13 (by decide)).trans (carry7 m ρ c).v13,
   (W8_of_ne m ρ c main_arg3 (by decide)).trans (carry7 m ρ c).a3,
   (W8_of_ne m ρ c main_arg4 (by decide)).trans (carry7 m ρ c).a4,
   (W8_of_ne m ρ c main_arg5 (by decide)).trans (carry7 m ρ c).a5,
   ((W8_arr m ρ c 1).trans (((dat4 (V7 m ρ) c).arrAt_in 1 rfl _).trans (A_eq4 (V7 m ρ) c 1))).trans (carry7 m ρ c).a6,
   (W8_of_ne m ρ c main_arg7 (by decide)).trans (carry7 m ρ c).a7,
   (W8_of_ne m ρ c main_arg8 (by decide)).trans (carry7 m ρ c).a8,
   (W8_of_ne m ρ c main_arg9 (by decide)).trans (carry7 m ρ c).a9⟩
theorem carry9 : Carry m c (W9 m ρ c) :=
  ⟨(hostOps5_keep_main_v1 (W8 m ρ c)).trans (carry8 m ρ c).v1,
   (hostOps5_keep_main_v3 (W8 m ρ c)).trans (carry8 m ρ c).v3,
   (hostOps5_keep_main_v13 (W8 m ρ c)).trans (carry8 m ρ c).v13,
   (hostOps5_keep_main_arg3 (W8 m ρ c)).trans (carry8 m ρ c).a3,
   (hostOps5_keep_main_arg4 (W8 m ρ c)).trans (carry8 m ρ c).a4,
   (hostOps5_keep_main_arg5 (W8 m ρ c)).trans (carry8 m ρ c).a5,
   (hostOps5_keep_main_arg6 (W8 m ρ c)).trans (carry8 m ρ c).a6,
   (hostOps5_keep_main_arg7 (W8 m ρ c)).trans (carry8 m ρ c).a7,
   (hostOps5_keep_main_arg8 (W8 m ρ c)).trans (carry8 m ρ c).a8,
   (hostOps5_keep_main_arg9 (W8 m ρ c)).trans (carry8 m ρ c).a9⟩
theorem carry10 : Carry m c (W10 m ρ c) :=
  ⟨(W10_of_ne m ρ c main_v1 (by decide)).trans (carry9 m ρ c).v1,
   (W10_of_ne m ρ c main_v3 (by decide)).trans (carry9 m ρ c).v3,
   ((W10_arr m ρ c 2).trans (((dat5 (V9 m ρ) c).arrAt_in 2 rfl _).trans (A_eq5 (V9 m ρ) c 2))).trans (carry9 m ρ c).v13,
   (W10_of_ne m ρ c main_arg3 (by decide)).trans (carry9 m ρ c).a3,
   (W10_of_ne m ρ c main_arg4 (by decide)).trans (carry9 m ρ c).a4,
   (W10_of_ne m ρ c main_arg5 (by decide)).trans (carry9 m ρ c).a5,
   (W10_of_ne m ρ c main_arg6 (by decide)).trans (carry9 m ρ c).a6,
   (W10_of_ne m ρ c main_arg7 (by decide)).trans (carry9 m ρ c).a7,
   (W10_of_ne m ρ c main_arg8 (by decide)).trans (carry9 m ρ c).a8,
   (W10_of_ne m ρ c main_arg9 (by decide)).trans (carry9 m ρ c).a9⟩
theorem carry11 : Carry m c (W11 m ρ c) :=
  ⟨(W11_of_ne m ρ c main_v1 (by decide)).trans (carry10 m ρ c).v1,
   (W11_of_ne m ρ c main_v3 (by decide)).trans (carry10 m ρ c).v3,
   (W11_of_ne m ρ c main_v13 (by decide)).trans (carry10 m ρ c).v13,
   (W11_of_ne m ρ c main_arg3 (by decide)).trans (carry10 m ρ c).a3,
   (W11_of_ne m ρ c main_arg4 (by decide)).trans (carry10 m ρ c).a4,
   (W11_of_ne m ρ c main_arg5 (by decide)).trans (carry10 m ρ c).a5,
   (W11_of_ne m ρ c main_arg6 (by decide)).trans (carry10 m ρ c).a6,
   (W11_of_ne m ρ c main_arg7 (by decide)).trans (carry10 m ρ c).a7,
   ((W11_arr m ρ c 1).trans (((dat6 (V10 m ρ) c).arrAt_in 1 rfl _).trans (A_eq6 (V10 m ρ) c 1))).trans (carry10 m ρ c).a8,
   (W11_of_ne m ρ c main_arg9 (by decide)).trans (carry10 m ρ c).a9⟩

/-! ### The first layer -/

/-- The first transformed table: the product of the features and the first weights. -/
abbrev H1 : FVec Ideal S100000x128 .f32 := mmG (N := 100000) (K := 128) (C := 128) (m ((c : Thread nD τ).loc main_arg0)) (m ((c : Thread nD τ).loc main_arg2))

theorem w2_v14 : W2 m ρ c (Proc.devRef .tc main_v14) = H1 m c := by
  have e0 : V1 m ρ c main_arg0 = m ((c : Thread nD τ).loc main_arg0) := hostOps0_keep_main_arg0 (W0 m ρ c)
  have e2 : V1 m ρ c main_arg2 = m ((c : Thread nD τ).loc main_arg2) := hostOps0_keep_main_arg2 (W0 m ρ c)
  show _ = mmG (N := 100000) (K := 128) (C := 128) (m ((c : Thread nD τ).loc main_arg0)) (m ((c : Thread nD τ).loc main_arg2))
  rw [← e0, ← e2]
  exact (W2_arr m ρ c 2).trans (Reg0.final (V1 m ρ) c)

theorem w3_v33 : W3 m ρ c (Proc.devRef .tc main_v33)
    = kAgg128 (kSrc (m ((c : Thread nD τ).loc main_arg1))) (kDst (m ((c : Thread nD τ).loc main_arg1))) (kDinvCol (kDst (m ((c : Thread nD τ).loc main_arg1)))) (H1 m c) :=
  (hostOps1_main_v33 (W2 m ρ c)).trans (by rw [(carry2 m ρ c).v1, (carry2 m ρ c).v3, (carry2 m ρ c).v13, w2_v14 m ρ c])
theorem w3_v34 : W3 m ρ c (Proc.devRef .tc main_v34) = kBias128 (m ((c : Thread nD τ).loc main_arg3)) :=
  (hostOps1_main_v34 (W2 m ρ c)).trans (by rw [(carry2 m ρ c).a3])
theorem w3_v14 : W3 m ρ c (Proc.devRef .tc main_v14) = H1 m c :=
  (hostOps1_keep_main_v14 (W2 m ρ c)).trans (w2_v14 m ρ c)

/-- The first layer's output. -/
abbrev X1 : FVec Ideal S100000x128 .f32 := reluG (kLayer128 (m ((c : Thread nD τ).loc main_arg1)) (H1 m c) (m ((c : Thread nD τ).loc main_arg3)))

theorem w4_v35 : W4 m ρ c (Proc.devRef .tc main_v35) = X1 m c :=
  (W4_arr m ρ c 4).trans ((Reg1.final (V3 m ρ) c).trans (by
    rw [show V3 m ρ c main_v33 = _ from w3_v33 m ρ c, show V3 m ρ c main_v14 = _ from w3_v14 m ρ c,
      show V3 m ρ c main_v13 = _ from (carry3 m ρ c).v13, show V3 m ρ c main_v34 = _ from w3_v34 m ρ c]))

/-! ### The second layer -/

abbrev H2 : FVec Ideal S100000x128 .f32 := mmG (N := 100000) (K := 128) (C := 128) (X1 m c) (m ((c : Thread nD τ).loc main_arg4))

theorem w5_v36 : W5 m ρ c (Proc.devRef .tc main_v36) = H2 m c :=
  (W5_arr m ρ c 2).trans ((Reg2.final (V4 m ρ) c).trans (by
    rw [show V4 m ρ c main_v35 = _ from w4_v35 m ρ c, show V4 m ρ c main_arg4 = _ from (carry4 m ρ c).a4]))

theorem w6_v55 : W6 m ρ c (Proc.devRef .tc main_v55)
    = kAgg128 (kSrc (m ((c : Thread nD τ).loc main_arg1))) (kDst (m ((c : Thread nD τ).loc main_arg1))) (kDinvCol (kDst (m ((c : Thread nD τ).loc main_arg1)))) (H2 m c) :=
  (hostOps3_main_v55 (W5 m ρ c)).trans (by rw [(carry5 m ρ c).v1, (carry5 m ρ c).v3, (carry5 m ρ c).v13, w5_v36 m ρ c])
theorem w6_v56 : W6 m ρ c (Proc.devRef .tc main_v56) = kBias128 (m ((c : Thread nD τ).loc main_arg5)) :=
  (hostOps3_main_v56 (W5 m ρ c)).trans (by rw [(carry5 m ρ c).a5])
theorem w6_v36 : W6 m ρ c (Proc.devRef .tc main_v36) = H2 m c :=
  (hostOps3_keep_main_v36 (W5 m ρ c)).trans (w5_v36 m ρ c)

abbrev X2 : FVec Ideal S100000x128 .f32 := reluG (kLayer128 (m ((c : Thread nD τ).loc main_arg1)) (H2 m c) (m ((c : Thread nD τ).loc main_arg5)))

theorem w7_v57 : W7 m ρ c (Proc.devRef .tc main_v57) = X2 m c :=
  (W7_arr m ρ c 4).trans ((Reg3.final (V6 m ρ) c).trans (by
    rw [show V6 m ρ c main_v55 = _ from w6_v55 m ρ c, show V6 m ρ c main_v36 = _ from w6_v36 m ρ c,
      show V6 m ρ c main_v13 = _ from (carry6 m ρ c).v13, show V6 m ρ c main_v56 = _ from w6_v56 m ρ c]))

/-! ### The third layer -/

abbrev H3 : FVec Ideal S100000x128 .f32 := mmG (N := 100000) (K := 128) (C := 128) (X2 m c) (m ((c : Thread nD τ).loc main_arg6))

theorem w8_v58 : W8 m ρ c (Proc.devRef .tc main_v58) = H3 m c :=
  (W8_arr m ρ c 2).trans ((Reg4.final (V7 m ρ) c).trans (by
    rw [show V7 m ρ c main_v57 = _ from w7_v57 m ρ c, show V7 m ρ c main_arg6 = _ from (carry7 m ρ c).a6]))

theorem w9_v77 : W9 m ρ c (Proc.devRef .tc main_v77)
    = kAgg128 (kSrc (m ((c : Thread nD τ).loc main_arg1))) (kDst (m ((c : Thread nD τ).loc main_arg1))) (kDinvCol (kDst (m ((c : Thread nD τ).loc main_arg1)))) (H3 m c) :=
  (hostOps5_main_v77 (W8 m ρ c)).trans (by rw [(carry8 m ρ c).v1, (carry8 m ρ c).v3, (carry8 m ρ c).v13, w8_v58 m ρ c])
theorem w9_v78 : W9 m ρ c (Proc.devRef .tc main_v78) = kBias128 (m ((c : Thread nD τ).loc main_arg7)) :=
  (hostOps5_main_v78 (W8 m ρ c)).trans (by rw [(carry8 m ρ c).a7])
theorem w9_v58 : W9 m ρ c (Proc.devRef .tc main_v58) = H3 m c :=
  (hostOps5_keep_main_v58 (W8 m ρ c)).trans (w8_v58 m ρ c)

abbrev X3 : FVec Ideal S100000x128 .f32 := reluG (kLayer128 (m ((c : Thread nD τ).loc main_arg1)) (H3 m c) (m ((c : Thread nD τ).loc main_arg7)))

theorem w10_v79 : W10 m ρ c (Proc.devRef .tc main_v79) = X3 m c :=
  (W10_arr m ρ c 4).trans ((Reg5.final (V9 m ρ) c).trans (by
    rw [show V9 m ρ c main_v77 = _ from w9_v77 m ρ c, show V9 m ρ c main_v58 = _ from w9_v58 m ρ c,
      show V9 m ρ c main_v13 = _ from (carry9 m ρ c).v13, show V9 m ρ c main_v78 = _ from w9_v78 m ρ c]))

/-! ### The last layer -/

abbrev H4 : FVec Ideal S100000x64 .f32 := mmG (N := 100000) (K := 128) (C := 64) (X3 m c) (m ((c : Thread nD τ).loc main_arg8))

theorem w11_v80 : W11 m ρ c (Proc.devRef .tc main_v80) = H4 m c :=
  (W11_arr m ρ c 2).trans ((Reg6.final (V10 m ρ) c).trans (by
    rw [show V10 m ρ c main_v79 = _ from w10_v79 m ρ c, show V10 m ρ c main_arg8 = _ from (carry10 m ρ c).a8]))

theorem w12_v99 : W12 m ρ c (Proc.devRef .tc main_v99)
    = kAgg64 (kSrc (m ((c : Thread nD τ).loc main_arg1))) (kDst (m ((c : Thread nD τ).loc main_arg1))) (kDinvCol (kDst (m ((c : Thread nD τ).loc main_arg1)))) (H4 m c) :=
  (hostOps7_main_v99 (W11 m ρ c)).trans (by rw [(carry11 m ρ c).v1, (carry11 m ρ c).v3, (carry11 m ρ c).v13, w11_v80 m ρ c])
theorem w12_v100 : W12 m ρ c (Proc.devRef .tc main_v100) = kBias64 (m ((c : Thread nD τ).loc main_arg9)) :=
  (hostOps7_main_v100 (W11 m ρ c)).trans (by rw [(carry11 m ρ c).a9])
theorem w12_v80 : W12 m ρ c (Proc.devRef .tc main_v80) = H4 m c :=
  (hostOps7_keep_main_v80 (W11 m ρ c)).trans (w11_v80 m ρ c)
theorem w12_v13 : W12 m ρ c (Proc.devRef .tc main_v13) = kDinvCol (kDst (m ((c : Thread nD τ).loc main_arg1))) :=
  (hostOps7_keep_main_v13 (W11 m ρ c)).trans (carry11 m ρ c).v13

/-- THE RESULT: the result buffer at the last boundary holds the four layers composed. -/
theorem w13_v101 : W13 m ρ c (Proc.devRef .tc main_v101) = kLayer64 (m ((c : Thread nD τ).loc main_arg1)) (H4 m c) (m ((c : Thread nD τ).loc main_arg9)) :=
  (W13_arr m ρ c 4).trans ((Reg7.final (V12 m ρ) c).trans (by
    rw [show V12 m ρ c main_v99 = _ from w12_v99 m ρ c, show V12 m ρ c main_v80 = _ from w12_v80 m ρ c,
      show V12 m ρ c main_v13 = _ from w12_v13 m ρ c, show V12 m ρ c main_v100 = _ from w12_v100 m ρ c]))

end Cert.KernelIdeal.Chain

end
-- ==== Proof.Edges.lean ====
/-
  The edge list as plain functions, and one layer of the network as a function of the edge list.

  An edge list is two rows of integer words: the source word and the destination word of each edge. An edge lands on
  the node its destination word names when read as a signed integer (an edge whose word names no node lands
  nowhere); it reads the node its source word names after the wrap of a negative word and the clamp into the node
  range. `specLayer` is one layer of the network with these two readings: the layer of `Cert.Gcn.layerK` over the edges
  that land on a node and the node each edge reads.
-/
import proofs.«174543_j66812511257314_1_alg».proof.Proof.Spec
import proofs.«174543_j66812511257314_1_alg».proof.Proof.LibRowScatter
import Idealize.ShloMosaic.Lib.IdealHost

noncomputable section

open scoped BigOperators

namespace Cert.Gcn

open Idealize.ShloMosaic Idealize.ShloMosaic.ValueIdx Cert.Lib.RowScatter

/-- The wrap of a possibly negative index word: a negative word has `k` added to it. -/
def wrapW (k w : BitVec 32) : BitVec 32 := Scalar.select (IntOp.cmpi .slt w 0#32) (IntOp.addi w k) w

/-- The row an index word reads: the word as a signed integer, negative values taken to `0`, cut to at most `N − 1`. -/
def rowOf (N : Nat) (hN : 0 < N) (w : BitVec 32) : Fin N := ⟨min w.toInt.toNat (N - 1), by omega⟩

/-- The row a gather reads is the row of its index word. -/
theorem gatherRow_eq (N : Nat) (hN : 0 < N) {M : Nat} (idx : IVec ⟨2, ![M, 1]⟩ 32) (e : Fin M) :
    gatherRow N hN idx e = rowOf N hN (idx (ix2 e (0 : Fin 1))) := rfl

/-- The edges whose destination word, read as a signed integer, is the node `n`. -/
def Lf {E : Nat} (dst : Fin E → BitVec 32) (N : Nat) (n : Fin N) : Finset (Fin E) :=
  Finset.univ.filter fun e => (dst e).toInt = (n.val : Int)

/-- The updates a scatter sends to row `n` are the edges whose word is `n`. -/
theorem landsOn_eq {M : Nat} (idx : IVec ⟨2, ![M, 1]⟩ 32) (N : Nat) (n : Fin N) :
    landsOn idx N n = Lf (fun e => idx (ix2 e (0 : Fin 1))) N n := rfl

/-- The node an edge reads: its source word wrapped, then clamped. -/
def gf {E : Nat} (N : Nat) (hN : 0 < N) (k : BitVec 32) (src : Fin E → BitVec 32) (e : Fin E) : Fin N :=
  rowOf N hN (wrapW k (src e))

/-- The source words of an edge list. -/
def srcOf {E : Nat} (ei : IVec ⟨2, ![2, E]⟩ 32) (e : Fin E) : BitVec 32 := ei (ix2 (0 : Fin 2) e)

/-- The destination words of an edge list. -/
def dstOf {E : Nat} (ei : IVec ⟨2, ![2, E]⟩ 32) (e : Fin E) : BitVec 32 := ei (ix2 (1 : Fin 2) e)

/-- One layer of the network over an edge list: from the table `H` of transformed features and the bias `b`. -/
def specLayer {E N C : Nat} (hN : 0 < N) (k : BitVec 32) (ei : IVec ⟨2, ![2, E]⟩ 32)
    (H : (⟨2, ![N, C]⟩ : Shape).Idx → EReal) (b : (⟨1, ![C]⟩ : Shape).Idx → EReal) : (⟨2, ![N, C]⟩ : Shape).Idx → EReal :=
  fun i => layerK (Lf (dstOf ei) N) (gf N hN k (srcOf ei)) (fun n c => H (ix2 n c)) (fun c => b (ix1 c)) (i 0) (i 1)

theorem specLayer_apply {E N C : Nat} (hN : 0 < N) (k : BitVec 32) (ei : IVec ⟨2, ![2, E]⟩ 32)
    (H : (⟨2, ![N, C]⟩ : Shape).Idx → EReal) (b : (⟨1, ![C]⟩ : Shape).Idx → EReal) (n : Fin N) (c : Fin C) :
    specLayer hN k ei H b (ix2 n c)
      = layerK (Lf (dstOf ei) N) (gf N hN k (srcOf ei)) (fun n c => H (ix2 n c)) (fun c => b (ix1 c)) n c := rfl

theorem toInt_ofNat_small (j : Nat) (hj : j < 2 ^ 31) : (BitVec.ofNat 32 j).toInt = (j : Int) := by
  have h1 : (BitVec.ofNat 32 j).toNat = j := by
    rw [BitVec.toNat_ofNat]; exact Nat.mod_eq_of_lt (by omega)
  rw [BitVec.toInt_eq_toNat_cond, h1, if_pos (by omega)]

/-- The network: four layers, each a matrix product followed by the layer over the edge list, with the maximum with zero
    between layers. -/
def specNet {E N : Nat} (hN : 0 < N) (k : BitVec 32) (ei : IVec ⟨2, ![2, E]⟩ 32)
    (x : (⟨2, ![N, 128]⟩ : Shape).Idx → EReal)
    (W0 : (⟨2, ![128, 128]⟩ : Shape).Idx → EReal) (b0 : (⟨1, ![128]⟩ : Shape).Idx → EReal)
    (W1 : (⟨2, ![128, 128]⟩ : Shape).Idx → EReal) (b1 : (⟨1, ![128]⟩ : Shape).Idx → EReal)
    (W2 : (⟨2, ![128, 128]⟩ : Shape).Idx → EReal) (b2 : (⟨1, ![128]⟩ : Shape).Idx → EReal)
    (W3 : (⟨2, ![128, 64]⟩ : Shape).Idx → EReal) (b3 : (⟨1, ![64]⟩ : Shape).Idx → EReal) :
    (⟨2, ![N, 64]⟩ : Shape).Idx → EReal :=
  specLayer hN k ei (mmG (reluG (specLayer hN k ei (mmG (reluG (specLayer hN k ei (mmG (reluG
    (specLayer hN k ei (mmG x W0) b0)) W1) b1)) W2) b2)) W3) b3

/-- A non-negative index word below `2^31` is left alone by the wrap, and reads the row it names. -/
theorem wrapW_ofNat (k : BitVec 32) (j : Nat) (hj : j < 2 ^ 31) : wrapW k (BitVec.ofNat 32 j) = BitVec.ofNat 32 j := by
  have hi : (BitVec.ofNat 32 j).toInt = (j : Int) := toInt_ofNat_small j hj
  have hs : (BitVec.ofNat 32 j).slt 0#32 = false := by
    rw [Bool.eq_false_iff]
    intro hs
    have hlt := BitVec.slt_iff_toInt_lt.mp hs
    rw [BitVec.toInt_zero, hi] at hlt
    omega
  show Scalar.select (BitVec.ofBool ((BitVec.ofNat 32 j).slt 0#32)) (IntOp.addi (BitVec.ofNat 32 j) k) (BitVec.ofNat 32 j) = _
  rw [hs]
  exact select_zero _ _

theorem rowOf_ofNat (N : Nat) (hN : 0 < N) (j : Fin N) (hj : j.val < 2 ^ 31) : rowOf N hN (BitVec.ofNat 32 j.val) = j := by
  refine Fin.ext ?_
  show min (BitVec.ofNat 32 j.val).toInt.toNat (N - 1) = j.val
  rw [toInt_ofNat_small _ hj, Int.toNat_natCast]
  have := j.isLt
  omega

/-- A word that lands on node `n` reads node `n` after the wrap and the clamp. -/
theorem rowOf_wrapW_of_toInt (N : Nat) (hN : 0 < N) (k w : BitVec 32) (n : Fin N) (h : w.toInt = (n.val : Int)) :
    rowOf N hN (wrapW k w) = n := by
  have hs : w.slt 0#32 = false := by
    rw [Bool.eq_false_iff]
    intro hs
    have hlt := BitVec.slt_iff_toInt_lt.mp hs
    rw [BitVec.toInt_zero, h] at hlt
    omega
  have hw : wrapW k w = w := by
    show Scalar.select (BitVec.ofBool (w.slt 0#32)) (IntOp.addi w k) w = w
    rw [hs]
    exact select_zero _ _
  rw [hw]
  refine Fin.ext ?_
  show min w.toInt.toNat (N - 1) = n.val
  rw [h, Int.toNat_natCast]
  have := n.isLt
  omega

/-- The host's reciprocal square root at an entry. -/
theorem hostRsqrt_apply {s : Shape} {φ : FTy} (x : FVec Ideal s φ) (i : s.Idx) :
    Host.rsqrt (F := Ideal) x i = Ideal.rsqrt (x i) := rfl

/-- A scalar repeated over any shape is the constant function. -/
theorem bcast_scalar_fun {T : Shape} {α : Type} (h : (⟨0, ![]⟩ : Shape).BroadcastsInDim T ![])
    (x : (⟨0, ![]⟩ : Shape).Idx → α) : broadcastInDim T ![] h x = fun _ => x ix0 :=
  funext (broadcastInDim_scalar_apply h x)

end Cert.Gcn

end
-- ==== Proof.LibScatter1.lean ====
/-
  A scatter-add into a column, read at an index.

  For a column `x` of `N` entries, a column `idx` of `M` integer words (shape `[M, 1]`) and `M` updates, the
  scatter-add puts update `e` onto the operand entry `idx[e]` read as a signed integer and not clamped (an update
  whose entry is outside `[0, N − 1]` is dropped): entry `n` of the result is
  `x n + ∑ e ∈ landsOn idx N n, upd e`, the sum over the updates whose index is `n` — the same set of updates a
  scatter-add of whole rows sends to row `n`.
-/
import Idealize.ShloMosaic.Lib.ValueIdx
import Idealize.ShloMosaic.PureOps.Ideal.Laws
import Idealize.ShloMosaic.Lib.Pipeline.Value
import proofs.«174543_j66812511257314_1_alg».proof.Proof.LibRowScatter

noncomputable section

open scoped BigOperators

namespace Cert.Lib.Scatter1

open Idealize.ShloMosaic Idealize.ShloMosaic.ValueIdx Cert.Lib.RowScatter

/-- The indices of a column of `M` entries are the numbers below `M`. -/
def idx1Equiv (M : Nat) : Fin M ≃ (⟨1, ![M]⟩ : Shape).Idx where
  toFun := ix1
  invFun j := j 0
  left_inv _ := rfl
  right_inv j := (eq_ix1 j).symm

/-- A sum over the indices of a column is the sum over its entries' numbers. -/
theorem sum_idx1 {A : Type*} [AddCommMonoid A] {M : Nat} (f : (⟨1, ![M]⟩ : Shape).Idx → A) :
    ∑ i, f i = ∑ e : Fin M, f (ix1 e) :=
  (Equiv.sum_comp (idx1Equiv M) f).symm

/-- The dimension numbers of a scatter of single entries into a column: operand `[N]`, scatter indices `[M, 1]`,
    updates `[M]`; no window axis, the operand's axis 0 inserted and named by the scatter index, the index vector along
    axis 1 of the scatter indices. Their conditions `wf` are decided on literal shapes. -/
abbrev scatter1Dims (N M : Nat)
    (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- The start of update `e` is the index word `idx (e, 0)` read as a signed integer. -/
theorem scatter1_start {N M w : Nat} (wf : ScatterDims.WF ⟨1, ![N]⟩ ⟨2, ![M, 1]⟩ ⟨1, ![M]⟩ [] [0] [0] 1)
    (idx : IVec ⟨2, ![M, 1]⟩ w) (e : Fin M) :
    (scatter1Dims N M wf).start (ix1 e) idx 0 = (idx (ix2 e (0 : Fin 1))).toInt := by
  unfold ScatterDims.start
  rw [dif_pos (show (0 : Fin 1) ∈ (scatter1Dims N M wf).scatterDimsToOperandDims from List.mem_singleton.mpr rfl)]
  have hsi : (scatter1Dims N M wf).siIdx (ix1 e)
      ⟨List.idxOf (0 : Fin 1) (scatter1Dims N M wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the one axis, an inserted one, the window coordinate is `0`. -/
theorem scatter1_window {N M : Nat} (wf : ScatterDims.WF ⟨1, ![N]⟩ ⟨2, ![M, 1]⟩ ⟨1, ![M]⟩ [] [0] [0] 1) (e : Fin M) :
    (scatter1Dims N M wf).window (ix1 e) 0 = 0 := by
  unfold ScatterDims.window
  rw [dif_neg (fun h => (mem_kept _ _).mp h (List.mem_singleton.mpr rfl))]

/-- Update `e` lands at operand entry `n` exactly when its signed index word is `n`. -/
theorem resultIdx?_one {N M w : Nat} (wf : ScatterDims.WF ⟨1, ![N]⟩ ⟨2, ![M, 1]⟩ ⟨1, ![M]⟩ [] [0] [0] 1)
    (idx : IVec ⟨2, ![M, 1]⟩ w) (e : Fin M) (n : Fin N) :
    (scatter1Dims N M wf).resultIdx? (ix1 e) idx = some (ix1 n)
      ↔ (idx (ix2 e (0 : Fin 1))).toInt = (n.val : Int) := by
  rw [resultIdx?_eq_some_iff]
  constructor
  · intro h
    have h0 := h 0
    rw [scatter1_start, scatter1_window] at h0
    change (idx (ix2 e (0 : Fin 1))).toInt + ((0 : Nat) : Int) = (n.val : Int) at h0
    omega
  · intro h a
    obtain rfl : a = 0 := Subsingleton.elim _ _
    rw [scatter1_start, scatter1_window]
    show _ + ((0 : Nat) : Int) = (n.val : Int)
    omega

/-- THE SCATTER-ADD INTO A COLUMN READ AT `n`: the operand's entry plus the sum, over the updates `e` whose signed
    index word is `n`, of update `e`. -/
theorem scatterAdd1_apply {N M w : Nat}
    (wf : ScatterDims.WF ⟨1, ![N]⟩ ⟨2, ![M, 1]⟩ ⟨1, ![M]⟩ [] [0] [0] 1)
    (x : FVec Ideal ⟨1, ![N]⟩ .f32) (idx : IVec ⟨2, ![M, 1]⟩ w) (upd : FVec Ideal ⟨1, ![M]⟩ .f32) (n : Fin N) :
    Host.scatterAdd (F := Ideal) (scatter1Dims N M wf) x idx upd (ix1 n)
      = x (ix1 n) + ∑ e ∈ landsOn idx N n, upd (ix1 e) := by
  unfold Host.scatterAdd
  rw [Ideal.hostScatterAdd_def]
  unfold Ideal.hostScatterAdd
  congr 1
  rw [Finset.sum_filter, sum_idx1]
  unfold landsOn
  rw [Finset.sum_filter]
  refine Finset.sum_congr rfl (fun e _ => ?_)
  simp only [resultIdx?_one]

end Cert.Lib.Scatter1

end
-- ==== Proof.KernelLayer.lean ====
/-
  The kernel program's layers read at an entry, and its result as the network over the edge list.

  On the kernel's side a layer is: the column of node coefficients (from the degrees counted over the given edges,
  plus one), the neighbourhood sums of the transformed table (each gathered source row scaled by the source node's
  coefficient, added into the destination rows from zero), and the combining step. Read at an entry this is the layer
  with the receiving node's coefficient applied to the finished sum, over the edges whose destination word names the
  node and the node each edge's wrapped source word names.
-/
import proofs.«174543_j66812511257314_1_alg».proof.Proof.KernelHost
import proofs.«174543_j66812511257314_1_alg».proof.Proof.KernelChain
import proofs.«174543_j66812511257314_1_alg».proof.Proof.Edges
import proofs.«174543_j66812511257314_1_alg».proof.Proof.LibScatter1
import proofs.«174543_j66812511257314_1_alg».proof.Proof.LibColumn
import Idealize.ShloMosaic.Lib.IdealHost
import Idealize.ShloMosaic.Lib.ValueIdx
import Idealize.ShloMosaic.Lib.Pipeline.Value

set_option maxRecDepth 16384

noncomputable section

open scoped BigOperators

namespace Cert.KernelIdeal.HostRead

open Cert.KernelIdeal Cert.KernelIdeal.Gen Cert.Gcn Cert.Lib.RowScatter Cert.Lib.Scatter1
open Idealize.ShloMosaic Idealize.ShloMosaic.TcCoe Idealize.ShloMosaic.ValueIdx

theorem hN : 0 < 100000 := by decide

/-- The row of source words read at an edge. -/
theorem kSrc_apply (ei : IVec S2x1600000 32) (e : Fin 1600000) : kSrc ei (ix1 e) = srcOf ei e := by
  unfold kSrc srcOf
  refine (shapeCast_apply _ shapeCasts_S1x1600000_S1600000 (ix1 e) (ix2 (0 : Fin 1) e) ?_).trans ?_
  · rw [Shape.rowMajor_val_two, Shape.rowMajor_val_one]; show 0 * 1600000 + e.val = e.val; omega
  · exact extractStridedSlice_apply ![0, 0] ei slices_S2x1600000_S1x1600000_0_0 (ix2 (0 : Fin 1) e) (ix2 (0 : Fin 2) e)
      (fun a => match a with
        | ⟨0, _⟩ => by show (0 : Nat) = 0 + 0; rfl
        | ⟨1, _⟩ => by show e.val = 0 + e.val; omega)

/-- The row of destination words read at an edge. -/
theorem kDst_apply (ei : IVec S2x1600000 32) (e : Fin 1600000) : kDst ei (ix1 e) = dstOf ei e := by
  unfold kDst dstOf
  refine (shapeCast_apply _ shapeCasts_S1x1600000_S1600000 (ix1 e) (ix2 (0 : Fin 1) e) ?_).trans ?_
  · rw [Shape.rowMajor_val_two, Shape.rowMajor_val_one]; show 0 * 1600000 + e.val = e.val; omega
  · exact extractStridedSlice_apply ![1, 0] ei slices_S2x1600000_S1x1600000_1_0 (ix2 (0 : Fin 1) e) (ix2 (1 : Fin 2) e)
      (fun a => match a with
        | ⟨0, _⟩ => by show (1 : Nat) = 1 + 0; rfl
        | ⟨1, _⟩ => by show e.val = 0 + e.val; omega)

/-- A vector as a column, read at a row. -/
theorem kCol_apply (v : IVec S1600000 32) (e : Fin 1600000) : kCol v (ix2 e (0 : Fin 1)) = v (ix1 e) := by
  unfold kCol
  exact broadcastInDim_apply _ bcast_S1600000_S1600000x1_0 v (ix2 e (0 : Fin 1)) (ix1 e) (fun a => match a with
    | ⟨0, _⟩ => by show e.val = if (1600000 : Nat) = 1 then 0 else e.val; rw [if_neg (by decide)])

/-- The wrap of a vector of index words, read at an edge. -/
theorem kWrap_apply (v : IVec S1600000 32) (e : Fin 1600000) : kWrap v (ix1 e) = wrapW 100000#32 (v (ix1 e)) := by
  unfold kWrap wrapW
  show Scalar.select (IntOp.cmpi .slt (v (ix1 e)) (broadcastInDim S1600000 ![] bcast_S_S1600000 (constantI S_ 32 0#32) (ix1 e)))
      (IntOp.addi (v (ix1 e)) (broadcastInDim S1600000 ![] bcast_S_S1600000 (constantI S_ 32 100000#32) (ix1 e))) (v (ix1 e)) = _
  rw [broadcastInDim_scalar_apply, broadcastInDim_scalar_apply]
  rfl

/-- The edges the scatter sends to node `n` are the edges whose destination word is `n`. -/
theorem lands_eq (ei : IVec S2x1600000 32) (n : Fin 100000) :
    landsOn (kCol (kDst ei)) 100000 n = Lf (dstOf ei) 100000 n := by
  rw [landsOn_eq]
  exact congrArg (fun d => Lf d 100000 n) (funext fun e => by rw [kCol_apply, kDst_apply])

/-- The row a gather reads for edge `e` is the node its wrapped source word names. -/
theorem row_eq (ei : IVec S2x1600000 32) (e : Fin 1600000) :
    gatherRow 100000 hN (kCol (kWrap (kSrc ei))) e = gf 100000 hN 100000#32 (srcOf ei) e := by
  rw [gatherRow_eq, kCol_apply, kWrap_apply, kSrc_apply]
  rfl

/-- The coefficient column at a node is `dinv` of the edges landing on it. -/
theorem kDinvCol_apply (ei : IVec S2x1600000 32) (n : Fin 100000) :
    kDinvCol (kDst ei) (ix2 n (0 : Fin 1)) = dinv (Lf (dstOf ei) 100000 n) := by
  unfold kDinvCol
  rw [Cert.Lib.Column.col_apply]
  rw [show scatter_S100000_S1600000x1_S1600000_n_0_0_1 = scatter1Dims 100000 1600000 scatter_S100000_S1600000x1_S1600000_n_0_0_1_wf from rfl]
  rw [hostRsqrt_apply, maximumf_apply, addf_apply, scatterAdd1_apply, lands_eq]
  rw [bcast_scalar_fun, bcast_scalar_fun, bcast_scalar_fun]
  beta_reduce
  rw [constant_apply, constant_apply, Ideal.ofBits_zero_f32, one_bits]
  rfl

/-- The neighbourhood sums of a table of `128` columns, read at an entry: from zero, over the edges whose destination word is
    `n`, the source row's feature times the source row's coefficient. -/
theorem kAgg128_apply (ei : IVec S2x1600000 32) (d : FVec Ideal S100000x1 .f32) (H : FVec Ideal S100000x128 .f32)
    (n : Fin 100000) (c : Fin 128) :
    kAgg128 (kSrc ei) (kDst ei) d H (ix2 n c)
      = 0 + ∑ e ∈ Lf (dstOf ei) 100000 n, H (ix2 (gf 100000 hN 100000#32 (srcOf ei) e) c)
          * d (ix2 (gf 100000 hN 100000#32 (srcOf ei) e) (0 : Fin 1)) := by
  unfold kAgg128
  rw [show scatter_S100000x128_S1600000x1_S1600000x128_1_0_0_1
      = rowScatterDims 100000 1600000 128 scatter_S100000x128_S1600000x1_S1600000x128_1_0_0_1_wf from rfl,
    scatterAdd_rows_apply, lands_eq]
  refine congrArg₂ (· + ·) ?_ ?_
  · rw [broadcastInDim_scalar_apply, constant_apply]; exact Ideal.ofBits_zero_f32
  · refine Finset.sum_congr rfl fun e _ => ?_
    rw [mulf_apply]
    refine congrArg₂ (· * ·) ?_ ?_
    · rw [show gather_S100000x128_S1600000x1_S1600000x128_1_0_n_n_0_1_1128
          = rowGatherDims 100000 1600000 128 gather_S100000x128_S1600000x1_S1600000x128_1_0_n_n_0_1_1128_wf from rfl,
        gather_rows_apply hN, row_eq]
    · refine (broadcastInDim_apply _ bcast_S1600000x1_S1600000x128_0_1 _ (ix2 e c) (ix2 e (0 : Fin 1)) (fun a => match a with
        | ⟨0, _⟩ => by show e.val = if (1600000 : Nat) = 1 then 0 else e.val; rw [if_neg (by decide)]
        | ⟨1, _⟩ => by show 0 = if (1 : Nat) = 1 then 0 else c.val; rw [if_pos rfl])).trans ?_
      rw [show gather_S100000x1_S1600000x1_S1600000x1_1_0_n_n_0_1_11
          = rowGatherDims 100000 1600000 1 gather_S100000x1_S1600000x1_S1600000x1_1_0_n_n_0_1_11_wf from rfl,
        gather_rows_apply hN, row_eq]

/-- A bias vector of length `128` viewed as a row, read at an entry. -/
theorem kBias128_apply (b : FVec Ideal S128 .f32) (c : Fin 128) : kBias128 b (ix2 (0 : Fin 1) c) = b (ix1 c) := by
  unfold kBias128
  refine shapeCast_apply b shapeCasts_S128_S1x128 (ix2 (0 : Fin 1) c) (ix1 c) ?_
  rw [Shape.rowMajor_val_one, Shape.rowMajor_val_two]
  show c.val = 0 * 128 + c.val
  omega

/-- One layer of `128` columns on the kernel's side is the layer over the edge list. -/
theorem kLayer128_eq (ei : IVec S2x1600000 32) (H : FVec Ideal S100000x128 .f32) (b : FVec Ideal S128 .f32) :
    Chain.kLayer128 ei H b = specLayer (E := 1600000) (N := 100000) (C := 128) hN 100000#32 ei H b := by
  funext i
  obtain ⟨n, c, rfl⟩ : ∃ (n : Fin 100000) (c : Fin 128), i = ix2 n c := ⟨i 0, i 1, eq_ix2 i⟩
  rw [specLayer_apply]
  unfold layerK
  show (kDinvCol (kDst ei) (ix2 n (0 : Fin 1)) * kAgg128 (kSrc ei) (kDst ei) (kDinvCol (kDst ei)) H (ix2 n c)
      + (kDinvCol (kDst ei) (ix2 n (0 : Fin 1)) * kDinvCol (kDst ei) (ix2 n (0 : Fin 1))) * H (ix2 n c))
    + kBias128 b (ix2 (0 : Fin 1) c) = _
  rw [kAgg128_apply, kDinvCol_apply, kBias128_apply]
  exact congrArg₂ (· + ·) (congrArg₂ (· + ·) (congrArg₂ (· * ·) rfl (congrArg₂ (· + ·) rfl
    (Finset.sum_congr rfl fun e _ => by rw [kDinvCol_apply]))) rfl) rfl

/-- The neighbourhood sums of a table of `64` columns, read at an entry: from zero, over the edges whose destination word is
    `n`, the source row's feature times the source row's coefficient. -/
theorem kAgg64_apply (ei : IVec S2x1600000 32) (d : FVec Ideal S100000x1 .f32) (H : FVec Ideal S100000x64 .f32)
    (n : Fin 100000) (c : Fin 64) :
    kAgg64 (kSrc ei) (kDst ei) d H (ix2 n c)
      = 0 + ∑ e ∈ Lf (dstOf ei) 100000 n, H (ix2 (gf 100000 hN 100000#32 (srcOf ei) e) c)
          * d (ix2 (gf 100000 hN 100000#32 (srcOf ei) e) (0 : Fin 1)) := by
  unfold kAgg64
  rw [show scatter_S100000x64_S1600000x1_S1600000x64_1_0_0_1
      = rowScatterDims 100000 1600000 64 scatter_S100000x64_S1600000x1_S1600000x64_1_0_0_1_wf from rfl,
    scatterAdd_rows_apply, lands_eq]
  refine congrArg₂ (· + ·) ?_ ?_
  · rw [broadcastInDim_scalar_apply, constant_apply]; exact Ideal.ofBits_zero_f32
  · refine Finset.sum_congr rfl fun e _ => ?_
    rw [mulf_apply]
    refine congrArg₂ (· * ·) ?_ ?_
    · rw [show gather_S100000x64_S1600000x1_S1600000x64_1_0_n_n_0_1_164
          = rowGatherDims 100000 1600000 64 gather_S100000x64_S1600000x1_S1600000x64_1_0_n_n_0_1_164_wf from rfl,
        gather_rows_apply hN, row_eq]
    · refine (broadcastInDim_apply _ bcast_S1600000x1_S1600000x64_0_1 _ (ix2 e c) (ix2 e (0 : Fin 1)) (fun a => match a with
        | ⟨0, _⟩ => by show e.val = if (1600000 : Nat) = 1 then 0 else e.val; rw [if_neg (by decide)]
        | ⟨1, _⟩ => by show 0 = if (1 : Nat) = 1 then 0 else c.val; rw [if_pos rfl])).trans ?_
      rw [show gather_S100000x1_S1600000x1_S1600000x1_1_0_n_n_0_1_11
          = rowGatherDims 100000 1600000 1 gather_S100000x1_S1600000x1_S1600000x1_1_0_n_n_0_1_11_wf from rfl,
        gather_rows_apply hN, row_eq]

/-- A bias vector of length `64` viewed as a row, read at an entry. -/
theorem kBias64_apply (b : FVec Ideal S64 .f32) (c : Fin 64) : kBias64 b (ix2 (0 : Fin 1) c) = b (ix1 c) := by
  unfold kBias64
  refine shapeCast_apply b shapeCasts_S64_S1x64 (ix2 (0 : Fin 1) c) (ix1 c) ?_
  rw [Shape.rowMajor_val_one, Shape.rowMajor_val_two]
  show c.val = 0 * 64 + c.val
  omega

/-- One layer of `64` columns on the kernel's side is the layer over the edge list. -/
theorem kLayer64_eq (ei : IVec S2x1600000 32) (H : FVec Ideal S100000x64 .f32) (b : FVec Ideal S64 .f32) :
    Chain.kLayer64 ei H b = specLayer (E := 1600000) (N := 100000) (C := 64) hN 100000#32 ei H b := by
  funext i
  obtain ⟨n, c, rfl⟩ : ∃ (n : Fin 100000) (c : Fin 64), i = ix2 n c := ⟨i 0, i 1, eq_ix2 i⟩
  rw [specLayer_apply]
  unfold layerK
  show (kDinvCol (kDst ei) (ix2 n (0 : Fin 1)) * kAgg64 (kSrc ei) (kDst ei) (kDinvCol (kDst ei)) H (ix2 n c)
      + (kDinvCol (kDst ei) (ix2 n (0 : Fin 1)) * kDinvCol (kDst ei) (ix2 n (0 : Fin 1))) * H (ix2 n c))
    + kBias64 b (ix2 (0 : Fin 1) c) = _
  rw [kAgg64_apply, kDinvCol_apply, kBias64_apply]
  exact congrArg₂ (· + ·) (congrArg₂ (· + ·) (congrArg₂ (· * ·) rfl (congrArg₂ (· + ·) rfl
    (Finset.sum_congr rfl fun e _ => by rw [kDinvCol_apply]))) rfl) rfl

/-- THE KERNEL'S RESULT: the result buffer at the last boundary holds the network over the edge list, of the argument
    arrays. -/
theorem kernel_value (m : (ℓ : Loc nD τ sig) → Buf (Elt Ideal) ℓ) (ρ : Dev nD → PrngReg) (c : Dev nD) :
    W13 m ρ c (Proc.devRef .tc main_v101)
      = specNet (E := 1600000) (N := 100000) hN 100000#32 (m ((c : Thread nD τ).loc main_arg1)) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  rw [Chain.w13_v101]
  delta Chain.H4 Chain.X3 Chain.H3 Chain.X2 Chain.H2 Chain.X1 Chain.H1 specNet
  rw [kLayer64_eq, kLayer128_eq, kLayer128_eq, kLayer128_eq]

end Cert.KernelIdeal.HostRead

end
-- ==== Proof.RefLayers.lean ====
/-
  The reference program's term, layer by layer.

  The reference runs four layers over a long edge list: the given edges followed by one self loop per node (the node
  numbers `0 … N − 1` appended to the source and to the destination words). For each layer it counts the degrees by
  adding a one per long-list edge into a zero column, takes the coefficients `1/sqrt(max(deg, 1))`, multiplies the two
  coefficients of each edge, gathers the transformed features along the sources, scales, adds into the destinations
  from zero and adds the bias; between layers it takes the maximum with zero. Its generated term, stage by stage, is
  these four layers composed.
-/
import proofs.«174543_j66812511257314_1_alg».proof.Proof.Gen.ReferenceIdeal.Read
import Idealize.ShloMosaic.PureOps.Ideal.Laws
import Idealize.ShloMosaic.Lib.Pipeline.Value

set_option maxRecDepth 16384

noncomputable section

namespace Cert.ReferenceIdeal.Layers

open Cert.ReferenceIdeal Cert.ReferenceIdeal.Gen Cert.ReferenceIdeal.Read
open Idealize.ShloMosaic Idealize.ShloMosaic.TcCoe

/-- The row of source words of the edge list. -/
def rSrc (ei : IVec S2x1600000 32) : IVec S1600000 32 :=
  shapeCast _ (extractStridedSlice S1x1600000 ![0, 0] ei slices_S2x1600000_S1x1600000_0_0) shapeCasts_S1x1600000_S1600000

/-- The row of destination words of the edge list. -/
def rDst (ei : IVec S2x1600000 32) : IVec S1600000 32 :=
  shapeCast _ (extractStridedSlice S1x1600000 ![1, 0] ei slices_S2x1600000_S1x1600000_1_0) shapeCasts_S1x1600000_S1600000

/-- A row of edge words followed by the node numbers: one self loop per node. -/
def rCat (v : IVec S1600000 32) : IVec S1700000 32 :=
  concatenate S1700000 0 [⟨S1600000, v⟩, ⟨S100000, iotaInDim S100000 32 0⟩] concatenates_S1600000_S100000_S1700000_d0

/-- A vector of index words as a column of index vectors of length one. -/
def rCol {α : Type} (v : S1700000.Idx → α) : S1700000x1.Idx → α := broadcastInDim S1700000x1 ![0] bcast_S1700000_S1700000x1_0 v

/-- The wrap of possibly negative indices. -/
def rWrap (v : IVec S1700000 32) : IVec S1700000 32 :=
  select (cmpi .slt v (broadcastInDim S1700000 ![] bcast_S_S1700000 (constantI S_ 32 0#32)))
    (addi v (broadcastInDim S1700000 ![] bcast_S_S1700000 (constantI S_ 32 100000#32))) v

/-- The node coefficients, from the long list of destination words. -/
def rDinv (d : IVec S1700000 32) : FVec Ideal S100000 .f32 :=
  Host.rsqrt (F := Ideal) (maximumf (Host.scatterAdd (F := Ideal) scatter_S100000_S1700000x1_S1700000_n_0_0_1
      (broadcastInDim S100000 ![] bcast_S_S100000 (constant (F := Ideal) S_ .f32 0x00000000#32)) (rCol d)
      (broadcastInDim S1700000 ![] bcast_S_S1700000 (constant (F := Ideal) S_ .f32 0x3F800000#32)))
    (broadcastInDim S100000 ![] bcast_S_S100000 (constant (F := Ideal) S_ .f32 0x3F800000#32)))

/-- The product of the two coefficients of each long-list edge. -/
def rNorm (s d : IVec S1700000 32) : FVec Ideal S1700000 .f32 :=
  mulf (Host.gather gather_S100000_S1700000x1_S1700000_n_0_n_n_0_1_1 (rDinv d) (rCol (rWrap s)))
    (Host.gather gather_S100000_S1700000x1_S1700000_n_0_n_n_0_1_1 (rDinv d) (rCol (rWrap d)))

/-- One layer of the reference over a table `X`: the transformed features gathered along the long edge list, each row
    scaled by the product of the two coefficients of its edge, added into the destination rows from zero; then the bias. -/
def rLayer128 (X : FVec Ideal S100000x128 .f32) (ei : IVec S2x1600000 32) (W : FVec Ideal S128x128 .f32)
    (b : FVec Ideal S128 .f32) : FVec Ideal S100000x128 .f32 :=
  addf (Host.scatterAdd (F := Ideal) scatter_S100000x128_S1700000x1_S1700000x128_1_0_0_1
      (broadcastInDim S100000x128 ![] bcast_S_S100000x128 (constant (F := Ideal) S_ .f32 0x00000000#32))
      (rCol (rCat (rDst ei)))
      (mulf (Host.gather gather_S100000x128_S1700000x1_S1700000x128_1_0_n_n_0_1_1128
          (Host.dotGeneral (F := Ideal) dot_S100000x128_S128x128_S100000x128_1_0_0_1_n_n none X W) (rCol (rWrap (rCat (rSrc ei)))))
        (broadcastInDim S1700000x128 ![0, 1] bcast_S1700000x1_S1700000x128_0_1
          (broadcastInDim S1700000x1 ![0] bcast_S1700000_S1700000x1_0 (rNorm (rCat (rSrc ei)) (rCat (rDst ei)))))))
    (broadcastInDim S100000x128 ![0, 1] bcast_S1x128_S100000x128_0_1 (broadcastInDim S1x128 ![1] bcast_S128_S1x128_1 b))

/-- One layer of the reference over a table `X`: the transformed features gathered along the long edge list, each row
    scaled by the product of the two coefficients of its edge, added into the destination rows from zero; then the bias. -/
def rLayer64 (X : FVec Ideal S100000x128 .f32) (ei : IVec S2x1600000 32) (W : FVec Ideal S128x64 .f32)
    (b : FVec Ideal S64 .f32) : FVec Ideal S100000x64 .f32 :=
  addf (Host.scatterAdd (F := Ideal) scatter_S100000x64_S1700000x1_S1700000x64_1_0_0_1
      (broadcastInDim S100000x64 ![] bcast_S_S100000x64 (constant (F := Ideal) S_ .f32 0x00000000#32))
      (rCol (rCat (rDst ei)))
      (mulf (Host.gather gather_S100000x64_S1700000x1_S1700000x64_1_0_n_n_0_1_164
          (Host.dotGeneral (F := Ideal) dot_S100000x128_S128x64_S100000x64_1_0_0_1_n_n none X W) (rCol (rWrap (rCat (rSrc ei)))))
        (broadcastInDim S1700000x64 ![0, 1] bcast_S1700000x1_S1700000x64_0_1
          (broadcastInDim S1700000x1 ![0] bcast_S1700000_S1700000x1_0 (rNorm (rCat (rSrc ei)) (rCat (rDst ei)))))))
    (broadcastInDim S100000x64 ![0, 1] bcast_S1x64_S100000x64_0_1 (broadcastInDim S1x64 ![1] bcast_S64_S1x64_1 b))

/-- The maximum with zero between layers. -/
def rRelu (y : FVec Ideal S100000x128 .f32) : FVec Ideal S100000x128 .f32 :=
  maximumf y (broadcastInDim S100000x128 ![] bcast_S_S100000x128 (constant (F := Ideal) S_ .f32 0x00000000#32))

theorem layer1_eq (x0 : FVec Ideal S100000x128 .f32) (x1 : IVec S2x1600000 32) (x2 : FVec Ideal S128x128 .f32) (x3 : FVec Ideal S128 .f32) : val_main_v45 (F := Ideal) x0 x1 x2 x3 = rLayer128 x0 x1 x2 x3 := rfl
theorem relu1_eq (x0 : FVec Ideal S100000x128 .f32) (x1 : IVec S2x1600000 32) (x2 : FVec Ideal S128x128 .f32) (x3 : FVec Ideal S128 .f32) : val_main_v46 (F := Ideal) x0 x1 x2 x3 = rRelu (val_main_v45 (F := Ideal) x0 x1 x2 x3) := rfl
theorem layer2_eq (x0 : FVec Ideal S100000x128 .f32) (x1 : IVec S2x1600000 32) (x2 : FVec Ideal S128x128 .f32) (x3 : FVec Ideal S128 .f32) (x4 : FVec Ideal S128x128 .f32) (x5 : FVec Ideal S128 .f32) : val_main_v88 (F := Ideal) x0 x1 x2 x3 x4 x5 = rLayer128 (val_main_v46 (F := Ideal) x0 x1 x2 x3) x1 x4 x5 := rfl
theorem relu2_eq (x0 : FVec Ideal S100000x128 .f32) (x1 : IVec S2x1600000 32) (x2 : FVec Ideal S128x128 .f32) (x3 : FVec Ideal S128 .f32) (x4 : FVec Ideal S128x128 .f32) (x5 : FVec Ideal S128 .f32) : val_main_v89 (F := Ideal) x0 x1 x2 x3 x4 x5 = rRelu (val_main_v88 (F := Ideal) x0 x1 x2 x3 x4 x5) := rfl
theorem layer3_eq (x0 : FVec Ideal S100000x128 .f32) (x1 : IVec S2x1600000 32) (x2 : FVec Ideal S128x128 .f32) (x3 : FVec Ideal S128 .f32) (x4 : FVec Ideal S128x128 .f32) (x5 : FVec Ideal S128 .f32) (x6 : FVec Ideal S128x128 .f32) (x7 : FVec Ideal S128 .f32) : val_main_v131 (F := Ideal) x0 x1 x2 x3 x4 x5 x6 x7 = rLayer128 (val_main_v89 (F := Ideal) x0 x1 x2 x3 x4 x5) x1 x6 x7 := rfl
theorem relu3_eq (x0 : FVec Ideal S100000x128 .f32) (x1 : IVec S2x1600000 32) (x2 : FVec Ideal S128x128 .f32) (x3 : FVec Ideal S128 .f32) (x4 : FVec Ideal S128x128 .f32) (x5 : FVec Ideal S128 .f32) (x6 : FVec Ideal S128x128 .f32) (x7 : FVec Ideal S128 .f32) : val_main_v132 (F := Ideal) x0 x1 x2 x3 x4 x5 x6 x7 = rRelu (val_main_v131 (F := Ideal) x0 x1 x2 x3 x4 x5 x6 x7) := rfl
theorem layer4_eq (x0 : FVec Ideal S100000x128 .f32) (x1 : IVec S2x1600000 32) (x2 : FVec Ideal S128x128 .f32) (x3 : FVec Ideal S128 .f32) (x4 : FVec Ideal S128x128 .f32) (x5 : FVec Ideal S128 .f32) (x6 : FVec Ideal S128x128 .f32) (x7 : FVec Ideal S128 .f32) (x8 : FVec Ideal S128x64 .f32) (x9 : FVec Ideal S64 .f32) : val_main_v174 (F := Ideal) x0 x1 x2 x3 x4 x5 x6 x7 x8 x9 = rLayer64 (val_main_v132 (F := Ideal) x0 x1 x2 x3 x4 x5 x6 x7) x1 x8 x9 := rfl

/-- The reference's result term is the four layers composed. -/
theorem result_eq (x0 : FVec Ideal S100000x128 .f32) (x1 : IVec S2x1600000 32) (x2 : FVec Ideal S128x128 .f32) (x3 : FVec Ideal S128 .f32) (x4 : FVec Ideal S128x128 .f32) (x5 : FVec Ideal S128 .f32) (x6 : FVec Ideal S128x128 .f32) (x7 : FVec Ideal S128 .f32) (x8 : FVec Ideal S128x64 .f32) (x9 : FVec Ideal S64 .f32) : val_main_v174 (F := Ideal) x0 x1 x2 x3 x4 x5 x6 x7 x8 x9
    = rLayer64 (rRelu (rLayer128 (rRelu (rLayer128 (rRelu (rLayer128 x0 x1 x2 x3)) x1 x4 x5)) x1 x6 x7)) x1 x8 x9 := by
  rw [layer4_eq, relu3_eq, layer3_eq, relu2_eq, layer2_eq, relu1_eq, layer1_eq]

end Cert.ReferenceIdeal.Layers

end
-- ==== Proof.LibGather1.lean ====
/-
  A gather from a column, read at an index, and two facts about the row a gather reads.

  For a column `x` of `N` entries and a column `idx` of `M` integer words (shape `[M, 1]`), the gather takes result entry
  `e` from the operand entry `idx[e]` read as a signed integer and clamped into `[0, N − 1]`: entry `e` of the result is
  `x (gatherRow idx e)`, the same clamped row that a gather of whole rows reads.

  * An index word whose signed reading is `n < N` makes the gather read row `n`: the clamp does nothing.
  * The usual wrap of a possibly negative index, `select (w < 0) (w + k) w`, leaves a non-negative word as it is.
-/
import Idealize.ShloMosaic.Lib.ValueIdx
import Idealize.ShloMosaic.Lib.Pipeline.Value
import proofs.«174543_j66812511257314_1_alg».proof.Proof.LibRowScatter

noncomputable section

namespace Cert.Lib.Gather1

open Idealize.ShloMosaic Idealize.ShloMosaic.ValueIdx Cert.Lib.RowScatter

section Gather
variable {α : Type}

/-- The dimension numbers of a gather of single entries from a column: operand `[N]`, start indices `[M, 1]`, result
    `[M]`; no offset axis, the operand's axis 0 collapsed and named by the start index, the index vector along axis 1
    of the start indices, a slice one entry. Their conditions `wf` are decided on literal shapes. -/
abbrev gather1Dims (N M : Nat)
    (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- THE GATHER FROM A COLUMN READ AT `e`: the operand at `gatherRow N hN idx e`, the start index `idx (e, 0)` read signed
    and clamped into `[0, N − 1]`. -/
theorem gather1_apply {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (gather1Dims N M wf) x idx (ix1 e) = x (ix1 (gatherRow N hN idx e)) := by
  unfold Host.gather
  congr 1
  funext a
  obtain rfl : a = 0 := Subsingleton.elim _ _
  refine Fin.ext ?_
  show (gather1Dims N M wf).start (ix1 e) idx 0 + (gather1Dims N M wf).batchCoord (ix1 e) 0
    + (gather1Dims N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gather1Dims N M wf).startIndexMap from List.mem_singleton.mpr rfl)]
  have hsi : (gather1Dims N M wf).siIdx (ix1 e) ⟨List.idxOf (0 : Fin 1) (gather1Dims N M wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Gather

/-- An index word whose signed reading is the row `n` makes a gather read row `n`. -/
theorem gatherRow_eq_of_toInt {N M w : Nat} (hN : 0 < N) (idx : IVec ⟨2, ![M, 1]⟩ w) (e : Fin M) (n : Fin N)
    (h : (idx (ix2 e (0 : Fin 1))).toInt = (n.val : Int)) : gatherRow N hN idx e = n := by
  refine Fin.ext ?_
  show min (idx (ix2 e (0 : Fin 1))).toInt.toNat (N - 1) = n.val
  rw [h, Int.toNat_natCast]
  have := n.isLt
  omega

/-- The wrap of a possibly negative index leaves a word whose signed reading is not negative as it is. -/
theorem select_wrap_of_nonneg (x k : BitVec 32) (h : 0 ≤ x.toInt) :
    Scalar.select (IntOp.cmpi .slt x 0#32) (IntOp.addi x k) x = x := by
  have hs : x.slt 0#32 = false := by
    rw [Bool.eq_false_iff]
    intro hs
    have hlt := BitVec.slt_iff_toInt_lt.mp hs
    rw [BitVec.toInt_zero] at hlt
    omega
  show Scalar.select (BitVec.ofBool (x.slt 0#32)) (IntOp.addi x k) x = x
  rw [hs]
  exact select_zero _ _

end Cert.Lib.Gather1

end
-- ==== Proof.RefLayer.lean ====
/-
  One layer of the reference read at an entry.

  The long edge list is the given edges followed by one self loop per node; `σ` places an edge and a node's self loop
  in it. The long list's words at a given edge are that edge's words; at a self loop both words are the node's number,
  which the wrap leaves alone and the clamp leaves alone. So the long-list edges landing on node `n` are the given edges
  landing on `n` and `n`'s own self loop; the degree counted over the long list is the given edges' count plus one; an
  edge landing on `n` has destination coefficient `dinv n`; and a self loop's two coefficients are `dinv n` twice. That is
  the layer with both coefficients inside the sum and the self loop as a term, which the non-negative real `dinv n` turns
  into the layer with the coefficient applied to the finished sum.
-/
import proofs.«174543_j66812511257314_1_alg».proof.Proof.RefLayers
import proofs.«174543_j66812511257314_1_alg».proof.Proof.Edges
import proofs.«174543_j66812511257314_1_alg».proof.Proof.LibScatter1
import proofs.«174543_j66812511257314_1_alg».proof.Proof.LibGather1
import proofs.«174543_j66812511257314_1_alg».proof.Proof.LibPlainDot
import Idealize.ShloMosaic.Lib.IdealHost
import Idealize.ShloMosaic.Lib.ValueIdx
import Idealize.ShloMosaic.Lib.Pipeline.Value

set_option maxRecDepth 16384

noncomputable section

open scoped BigOperators

namespace Cert.ReferenceIdeal.Layers

open Cert.ReferenceIdeal Cert.ReferenceIdeal.Gen Cert.Gcn Cert.Lib.RowScatter Cert.Lib.Scatter1 Cert.Lib.Gather1
open Idealize.ShloMosaic Idealize.ShloMosaic.TcCoe Idealize.ShloMosaic.ValueIdx

theorem hN : 0 < 100000 := by decide

/-- The place of a given edge, and of a node's self loop, in the long edge list. -/
def σ : Fin 1600000 ⊕ Fin 100000 ≃ Fin 1700000 := finSumFinEquiv

theorem σ_inl (e : Fin 1600000) : (σ (Sum.inl e)).val = e.val := rfl
theorem σ_inr (j : Fin 100000) : (σ (Sum.inr j)).val = 1600000 + j.val := rfl

theorem rSrc_apply (ei : IVec S2x1600000 32) (e : Fin 1600000) : rSrc ei (ix1 e) = srcOf ei e := by
  unfold rSrc srcOf
  refine (shapeCast_apply _ shapeCasts_S1x1600000_S1600000 (ix1 e) (ix2 (0 : Fin 1) e) ?_).trans ?_
  · rw [Shape.rowMajor_val_two, Shape.rowMajor_val_one]; show 0 * 1600000 + e.val = e.val; omega
  · exact extractStridedSlice_apply ![0, 0] ei slices_S2x1600000_S1x1600000_0_0 (ix2 (0 : Fin 1) e) (ix2 (0 : Fin 2) e)
      (fun a => match a with
        | ⟨0, _⟩ => by show (0 : Nat) = 0 + 0; rfl
        | ⟨1, _⟩ => by show e.val = 0 + e.val; omega)

theorem rDst_apply (ei : IVec S2x1600000 32) (e : Fin 1600000) : rDst ei (ix1 e) = dstOf ei e := by
  unfold rDst dstOf
  refine (shapeCast_apply _ shapeCasts_S1x1600000_S1600000 (ix1 e) (ix2 (0 : Fin 1) e) ?_).trans ?_
  · rw [Shape.rowMajor_val_two, Shape.rowMajor_val_one]; show 0 * 1600000 + e.val = e.val; omega
  · exact extractStridedSlice_apply ![1, 0] ei slices_S2x1600000_S1x1600000_1_0 (ix2 (0 : Fin 1) e) (ix2 (1 : Fin 2) e)
      (fun a => match a with
        | ⟨0, _⟩ => by show (1 : Nat) = 1 + 0; rfl
        | ⟨1, _⟩ => by show e.val = 0 + e.val; omega)

/-- The long list at a given edge is the edge's word. -/
theorem rCat_inl (v : IVec S1600000 32) (e : Fin 1600000) : rCat v (ix1 (σ (Sum.inl e))) = v (ix1 e) := by
  unfold rCat
  exact concatenate_pair_apply_left (0 : Fin 1) v (iotaInDim S100000 32 0) concatenates_S1600000_S100000_S1700000_d0
    (ix1 (σ (Sum.inl e))) rfl (ix1 e) (fun b => by obtain rfl : b = 0 := Subsingleton.elim _ _; exact (σ_inl e).symm)

/-- The long list at a node's self loop is the node's number. -/
theorem rCat_inr (v : IVec S1600000 32) (j : Fin 100000) : rCat v (ix1 (σ (Sum.inr j))) = BitVec.ofNat 32 j.val := by
  unfold rCat
  refine (concatenate_pair_apply_right (0 : Fin 1) v (iotaInDim S100000 32 0) concatenates_S1600000_S100000_S1700000_d0
    (ix1 (σ (Sum.inr j))) rfl rfl (ix1 j) (fun b hb => absurd (Subsingleton.elim _ _) hb) ?_).trans ?_
  · show j.val + 1600000 = (σ (Sum.inr j)).val
    rw [σ_inr]; omega
  · rfl

theorem rCol_apply {α : Type} (v : S1700000.Idx → α) (e : Fin 1700000) : rCol v (ix2 e (0 : Fin 1)) = v (ix1 e) := by
  unfold rCol
  exact broadcastInDim_apply _ bcast_S1700000_S1700000x1_0 v (ix2 e (0 : Fin 1)) (ix1 e) (fun a => match a with
    | ⟨0, _⟩ => by show e.val = if (1700000 : Nat) = 1 then 0 else e.val; rw [if_neg (by decide)])

theorem rWrap_apply (v : IVec S1700000 32) (e : Fin 1700000) : rWrap v (ix1 e) = wrapW 100000#32 (v (ix1 e)) := by
  unfold rWrap wrapW
  show Scalar.select (IntOp.cmpi .slt (v (ix1 e)) (broadcastInDim S1700000 ![] bcast_S_S1700000 (constantI S_ 32 0#32) (ix1 e)))
      (IntOp.addi (v (ix1 e)) (broadcastInDim S1700000 ![] bcast_S_S1700000 (constantI S_ 32 100000#32) (ix1 e))) (v (ix1 e)) = _
  rw [broadcastInDim_scalar_apply, broadcastInDim_scalar_apply]
  rfl

/-- A sum over the long-list edges landing on node `n`: the given edges landing on `n`, and `n`'s self loop. -/
theorem sum_lands (ei : IVec S2x1600000 32) {A : Type*} [AddCommMonoid A] (f : Fin 1700000 → A) (n : Fin 100000) :
    ∑ e' ∈ landsOn (rCol (rCat (rDst ei))) 100000 n, f e'
      = ∑ e ∈ Lf (dstOf ei) 100000 n, f (σ (Sum.inl e)) + f (σ (Sum.inr n)) := by
  refine sum_landsOn_concat σ (fun i => dstOf ei (i 0)) (rCol (rCat (rDst ei))) (fun e => ?_) (fun j => ?_) f n
  · rw [rCol_apply, rCat_inl, rDst_apply]
  · rw [rCol_apply, rCat_inr]
    exact toInt_ofNat_small _ (by have := j.isLt; omega)

theorem srow_inl (ei : IVec S2x1600000 32) (e : Fin 1600000) :
    gatherRow 100000 hN (rCol (rWrap (rCat (rSrc ei)))) (σ (Sum.inl e)) = gf 100000 hN 100000#32 (srcOf ei) e := by
  rw [gatherRow_eq, rCol_apply, rWrap_apply, rCat_inl, rSrc_apply]; rfl

theorem srow_inr (ei : IVec S2x1600000 32) (j : Fin 100000) :
    gatherRow 100000 hN (rCol (rWrap (rCat (rSrc ei)))) (σ (Sum.inr j)) = j := by
  rw [gatherRow_eq, rCol_apply, rWrap_apply, rCat_inr, wrapW_ofNat _ _ (by have := j.isLt; omega)]
  exact rowOf_ofNat _ _ j (by have := j.isLt; omega)

theorem drow_inl (ei : IVec S2x1600000 32) (e : Fin 1600000) (n : Fin 100000) (he : e ∈ Lf (dstOf ei) 100000 n) :
    gatherRow 100000 hN (rCol (rWrap (rCat (rDst ei)))) (σ (Sum.inl e)) = n := by
  rw [gatherRow_eq, rCol_apply, rWrap_apply, rCat_inl, rDst_apply]
  exact rowOf_wrapW_of_toInt _ _ _ _ n (Finset.mem_filter.mp he).2

theorem drow_inr (ei : IVec S2x1600000 32) (j : Fin 100000) :
    gatherRow 100000 hN (rCol (rWrap (rCat (rDst ei)))) (σ (Sum.inr j)) = j := by
  rw [gatherRow_eq, rCol_apply, rWrap_apply, rCat_inr, wrapW_ofNat _ _ (by have := j.isLt; omega)]
  exact rowOf_ofNat _ _ j (by have := j.isLt; omega)

/-- The reference's coefficient of node `n` is `dinv` of the given edges landing on `n`. -/
theorem rDinv_apply (ei : IVec S2x1600000 32) (n : Fin 100000) :
    rDinv (rCat (rDst ei)) (ix1 n) = dinv (Lf (dstOf ei) 100000 n) := by
  unfold rDinv
  rw [show scatter_S100000_S1700000x1_S1700000_n_0_0_1 = scatter1Dims 100000 1700000 scatter_S100000_S1700000x1_S1700000_n_0_0_1_wf from rfl]
  rw [hostRsqrt_apply, maximumf_apply, scatterAdd1_apply, sum_lands]
  rw [bcast_scalar_fun, bcast_scalar_fun, bcast_scalar_fun]
  beta_reduce
  rw [constant_apply, constant_apply, Ideal.ofBits_zero_f32, one_bits, deg_self]
  rfl

/-- The product of an edge's two coefficients, read at a long-list edge. -/
theorem rNorm_apply (s d : IVec S1700000 32) (e' : Fin 1700000) :
    rNorm s d (ix1 e') = rDinv d (ix1 (gatherRow 100000 hN (rCol (rWrap s)) e')) * rDinv d (ix1 (gatherRow 100000 hN (rCol (rWrap d)) e')) := by
  unfold rNorm
  rw [mulf_apply, show gather_S100000_S1700000x1_S1700000_n_0_n_n_0_1_1
      = gather1Dims 100000 1700000 gather_S100000_S1700000x1_S1700000_n_0_n_n_0_1_1_wf from rfl,
    gather1_apply hN, gather1_apply hN]

/-- The reference's matrix product of `128` columns, at an entry. -/
theorem dot128_apply (X : FVec Ideal S100000x128 .f32) (W : FVec Ideal S128x128 .f32) (n : Fin 100000) (c : Fin 128) :
    Host.dotGeneral (F := Ideal) dot_S100000x128_S128x128_S100000x128_1_0_0_1_n_n none X W (ix2 n c)
      = mmG (N := 100000) (K := 128) (C := 128) X W (ix2 n c) := by
  unfold Host.dotGeneral
  exact Cert.Lib.PlainDot.dotGeneral_apply (M := 100000) (K := 128) (N := 128) none _ X W n c

/-- The reference's matrix product of `64` columns, at an entry. -/
theorem dot64_apply (X : FVec Ideal S100000x128 .f32) (W : FVec Ideal S128x64 .f32) (n : Fin 100000) (c : Fin 64) :
    Host.dotGeneral (F := Ideal) dot_S100000x128_S128x64_S100000x64_1_0_0_1_n_n none X W (ix2 n c)
      = mmG (N := 100000) (K := 128) (C := 64) X W (ix2 n c) := by
  unfold Host.dotGeneral
  exact Cert.Lib.PlainDot.dotGeneral_apply (M := 100000) (K := 128) (N := 64) none _ X W n c

/-- One layer of the reference, of `128` columns, read at an entry: the layer with both coefficients inside the sum and the
    self loop as one of its terms. -/
theorem rLayer128_apply (X : FVec Ideal S100000x128 .f32) (ei : IVec S2x1600000 32) (W : FVec Ideal S128x128 .f32)
    (b : FVec Ideal S128 .f32) (n : Fin 100000) (c : Fin 128) :
    rLayer128 X ei W b (ix2 n c)
      = layerR (Lf (dstOf ei) 100000) (gf 100000 hN 100000#32 (srcOf ei))
          (fun n c => mmG (N := 100000) (K := 128) (C := 128) X W (ix2 n c)) (fun c => b (ix1 c)) n c := by
  unfold rLayer128 layerR
  rw [addf_apply]
  refine congrArg₂ (· + ·) ?_ ?_
  · rw [show scatter_S100000x128_S1700000x1_S1700000x128_1_0_0_1
        = rowScatterDims 100000 1700000 128 scatter_S100000x128_S1700000x1_S1700000x128_1_0_0_1_wf from rfl,
      scatterAdd_rows_apply, sum_lands]
    refine congrArg₂ (· + ·) ?_ ?_
    · rw [broadcastInDim_scalar_apply, constant_apply]; exact Ideal.ofBits_zero_f32
    · have hterm : ∀ e' : Fin 1700000,
          mulf (Host.gather gather_S100000x128_S1700000x1_S1700000x128_1_0_n_n_0_1_1128
              (Host.dotGeneral (F := Ideal) dot_S100000x128_S128x128_S100000x128_1_0_0_1_n_n none X W) (rCol (rWrap (rCat (rSrc ei)))))
            (broadcastInDim S1700000x128 ![0, 1] bcast_S1700000x1_S1700000x128_0_1
              (broadcastInDim S1700000x1 ![0] bcast_S1700000_S1700000x1_0 (rNorm (rCat (rSrc ei)) (rCat (rDst ei))))) (ix2 e' c)
          = mmG (N := 100000) (K := 128) (C := 128) X W (ix2 (gatherRow 100000 hN (rCol (rWrap (rCat (rSrc ei)))) e') c)
            * (rDinv (rCat (rDst ei)) (ix1 (gatherRow 100000 hN (rCol (rWrap (rCat (rSrc ei)))) e'))
              * rDinv (rCat (rDst ei)) (ix1 (gatherRow 100000 hN (rCol (rWrap (rCat (rDst ei)))) e'))) := by
        intro e'
        rw [mulf_apply]
        refine congrArg₂ (· * ·) ?_ ?_
        · rw [show gather_S100000x128_S1700000x1_S1700000x128_1_0_n_n_0_1_1128
              = rowGatherDims 100000 1700000 128 gather_S100000x128_S1700000x1_S1700000x128_1_0_n_n_0_1_1128_wf from rfl,
            gather_rows_apply hN]
          exact dot128_apply X W _ c
        · refine (broadcastInDim_apply _ bcast_S1700000x1_S1700000x128_0_1 _ (ix2 e' c) (ix2 e' (0 : Fin 1)) (fun a => match a with
            | ⟨0, _⟩ => by show e'.val = if (1700000 : Nat) = 1 then 0 else e'.val; rw [if_neg (by decide)]
            | ⟨1, _⟩ => by show 0 = if (1 : Nat) = 1 then 0 else c.val; rw [if_pos rfl])).trans ?_
          exact (rCol_apply _ e').trans (rNorm_apply _ _ e')
      rw [Finset.sum_congr rfl fun e he => by rw [hterm, srow_inl, drow_inl ei e n he, rDinv_apply, rDinv_apply]]
      rw [hterm, srow_inr, drow_inr, rDinv_apply]
  · refine (broadcastInDim_apply _ bcast_S1x128_S100000x128_0_1 _ (ix2 n c) (ix2 (0 : Fin 1) c) (fun a => match a with
      | ⟨0, _⟩ => by show 0 = if (1 : Nat) = 1 then 0 else n.val; rw [if_pos rfl]
      | ⟨1, _⟩ => by show c.val = if (128 : Nat) = 1 then 0 else c.val; rw [if_neg (by decide)])).trans ?_
    exact broadcastInDim_apply _ bcast_S128_S1x128_1 b (ix2 (0 : Fin 1) c) (ix1 c) (fun a => match a with
      | ⟨0, _⟩ => by show c.val = if (128 : Nat) = 1 then 0 else c.val; rw [if_neg (by decide)])

/-- One layer of the reference of `128` columns is the layer over the edge list. -/
theorem rLayer128_eq (X : FVec Ideal S100000x128 .f32) (ei : IVec S2x1600000 32) (W : FVec Ideal S128x128 .f32)
    (b : FVec Ideal S128 .f32) :
    rLayer128 X ei W b = specLayer (E := 1600000) (N := 100000) (C := 128) hN 100000#32 ei
      (mmG (N := 100000) (K := 128) (C := 128) X W) b := by
  funext i
  obtain ⟨n, c, rfl⟩ : ∃ (n : Fin 100000) (c : Fin 128), i = ix2 n c := ⟨i 0, i 1, eq_ix2 i⟩
  rw [rLayer128_apply, specLayer_apply, layerK_eq_layerR]

/-- One layer of the reference, of `64` columns, read at an entry: the layer with both coefficients inside the sum and the
    self loop as one of its terms. -/
theorem rLayer64_apply (X : FVec Ideal S100000x128 .f32) (ei : IVec S2x1600000 32) (W : FVec Ideal S128x64 .f32)
    (b : FVec Ideal S64 .f32) (n : Fin 100000) (c : Fin 64) :
    rLayer64 X ei W b (ix2 n c)
      = layerR (Lf (dstOf ei) 100000) (gf 100000 hN 100000#32 (srcOf ei))
          (fun n c => mmG (N := 100000) (K := 128) (C := 64) X W (ix2 n c)) (fun c => b (ix1 c)) n c := by
  unfold rLayer64 layerR
  rw [addf_apply]
  refine congrArg₂ (· + ·) ?_ ?_
  · rw [show scatter_S100000x64_S1700000x1_S1700000x64_1_0_0_1
        = rowScatterDims 100000 1700000 64 scatter_S100000x64_S1700000x1_S1700000x64_1_0_0_1_wf from rfl,
      scatterAdd_rows_apply, sum_lands]
    refine congrArg₂ (· + ·) ?_ ?_
    · rw [broadcastInDim_scalar_apply, constant_apply]; exact Ideal.ofBits_zero_f32
    · have hterm : ∀ e' : Fin 1700000,
          mulf (Host.gather gather_S100000x64_S1700000x1_S1700000x64_1_0_n_n_0_1_164
              (Host.dotGeneral (F := Ideal) dot_S100000x128_S128x64_S100000x64_1_0_0_1_n_n none X W) (rCol (rWrap (rCat (rSrc ei)))))
            (broadcastInDim S1700000x64 ![0, 1] bcast_S1700000x1_S1700000x64_0_1
              (broadcastInDim S1700000x1 ![0] bcast_S1700000_S1700000x1_0 (rNorm (rCat (rSrc ei)) (rCat (rDst ei))))) (ix2 e' c)
          = mmG (N := 100000) (K := 128) (C := 64) X W (ix2 (gatherRow 100000 hN (rCol (rWrap (rCat (rSrc ei)))) e') c)
            * (rDinv (rCat (rDst ei)) (ix1 (gatherRow 100000 hN (rCol (rWrap (rCat (rSrc ei)))) e'))
              * rDinv (rCat (rDst ei)) (ix1 (gatherRow 100000 hN (rCol (rWrap (rCat (rDst ei)))) e'))) := by
        intro e'
        rw [mulf_apply]
        refine congrArg₂ (· * ·) ?_ ?_
        · rw [show gather_S100000x64_S1700000x1_S1700000x64_1_0_n_n_0_1_164
              = rowGatherDims 100000 1700000 64 gather_S100000x64_S1700000x1_S1700000x64_1_0_n_n_0_1_164_wf from rfl,
            gather_rows_apply hN]
          exact dot64_apply X W _ c
        · refine (broadcastInDim_apply _ bcast_S1700000x1_S1700000x64_0_1 _ (ix2 e' c) (ix2 e' (0 : Fin 1)) (fun a => match a with
            | ⟨0, _⟩ => by show e'.val = if (1700000 : Nat) = 1 then 0 else e'.val; rw [if_neg (by decide)]
            | ⟨1, _⟩ => by show 0 = if (1 : Nat) = 1 then 0 else c.val; rw [if_pos rfl])).trans ?_
          exact (rCol_apply _ e').trans (rNorm_apply _ _ e')
      rw [Finset.sum_congr rfl fun e he => by rw [hterm, srow_inl, drow_inl ei e n he, rDinv_apply, rDinv_apply]]
      rw [hterm, srow_inr, drow_inr, rDinv_apply]
  · refine (broadcastInDim_apply _ bcast_S1x64_S100000x64_0_1 _ (ix2 n c) (ix2 (0 : Fin 1) c) (fun a => match a with
      | ⟨0, _⟩ => by show 0 = if (1 : Nat) = 1 then 0 else n.val; rw [if_pos rfl]
      | ⟨1, _⟩ => by show c.val = if (64 : Nat) = 1 then 0 else c.val; rw [if_neg (by decide)])).trans ?_
    exact broadcastInDim_apply _ bcast_S64_S1x64_1 b (ix2 (0 : Fin 1) c) (ix1 c) (fun a => match a with
      | ⟨0, _⟩ => by show c.val = if (64 : Nat) = 1 then 0 else c.val; rw [if_neg (by decide)])

/-- One layer of the reference of `64` columns is the layer over the edge list. -/
theorem rLayer64_eq (X : FVec Ideal S100000x128 .f32) (ei : IVec S2x1600000 32) (W : FVec Ideal S128x64 .f32)
    (b : FVec Ideal S64 .f32) :
    rLayer64 X ei W b = specLayer (E := 1600000) (N := 100000) (C := 64) hN 100000#32 ei
      (mmG (N := 100000) (K := 128) (C := 64) X W) b := by
  funext i
  obtain ⟨n, c, rfl⟩ : ∃ (n : Fin 100000) (c : Fin 64), i = ix2 n c := ⟨i 0, i 1, eq_ix2 i⟩
  rw [rLayer64_apply, specLayer_apply, layerK_eq_layerR]

/-- The maximum with zero between layers, entry by entry. -/
theorem rRelu_eq (y : FVec Ideal S100000x128 .f32) : rRelu y = reluG y := by
  funext i
  unfold rRelu reluG
  rw [maximumf_apply, broadcastInDim_scalar_apply, constant_apply]

/-- THE REFERENCE'S RESULT: its generated term is the network over the edge list, of the argument arrays. -/
theorem ref_value (x0 : FVec Ideal S100000x128 .f32) (x1 : IVec S2x1600000 32) (x2 : FVec Ideal S128x128 .f32) (x3 : FVec Ideal S128 .f32) (x4 : FVec Ideal S128x128 .f32) (x5 : FVec Ideal S128 .f32) (x6 : FVec Ideal S128x128 .f32) (x7 : FVec Ideal S128 .f32) (x8 : FVec Ideal S128x64 .f32) (x9 : FVec Ideal S64 .f32) :
    Read.val_main_v174 (F := Ideal) x0 x1 x2 x3 x4 x5 x6 x7 x8 x9
      = specNet (E := 1600000) (N := 100000) hN 100000#32 x1 x0 x2 x3 x4 x5 x6 x7 x8 x9 := by
  rw [result_eq]
  delta specNet
  rw [rLayer64_eq, rLayer128_eq, rLayer128_eq, rLayer128_eq, rRelu_eq, rRelu_eq, rRelu_eq]

end Cert.ReferenceIdeal.Layers

end
-- ==== Proof.lean ====
/-
  The certificate of a four-layer graph convolution network: a Pallas kernel program (a matrix-product kernel and a
  combining kernel per layer, the gathers and scatter-adds between them on the host) against its jnp reference.

  Both programs compute, per layer, `out = D^(-1/2) (A + I) D^(-1/2) (h W) + b` with `D` the degrees counted with self
  loops, and the maximum with zero between layers. The kernel program applies the receiving node's coefficient to the
  finished neighbourhood sum and adds the self-loop term separately; the reference appends one self loop per node to
  the edge list and puts both coefficients inside the sum. A node's coefficient is `1/sqrt(max(deg, 1))` of a degree that
  is a count plus one: a non-negative REAL number whatever the inputs, so it distributes over the sum even when a feature
  is infinite, and the two spellings are one function on the extended reals — the precondition is never opened. The
  matrix products are sums of products on both sides (the kernel's change of float format is the identity there).

  The three frames: the two kernel programs' are the generated frame certificates; the reference's is its generated run
  with the result dropped. The ideal pass rewrote nothing, so `preserves` is trivial. For `algebraic`: the kernel
  program's run with its result buffer named (the generated frame's run, its post extended by that buffer), the buffer
  contents followed through the thirteen segments to the network over the edge list; the reference's generated run and
  its term read layer by layer to the same network.
-/
import proofs.«174543_j66812511257314_1_alg».proof.Defs
import proofs.«174543_j66812511257314_1_alg».proof.Proof.Gen.Kernel
import proofs.«174543_j66812511257314_1_alg».proof.Proof.Gen.Kernel.Skeleton
import proofs.«174543_j66812511257314_1_alg».proof.Proof.Gen.Kernel.Launch
import proofs.«174543_j66812511257314_1_alg».proof.Proof.Gen.Kernel.Points
import proofs.«174543_j66812511257314_1_alg».proof.Proof.Gen.Kernel.Frame
import proofs.«174543_j66812511257314_1_alg».proof.Proof.Gen.KernelIdeal
import proofs.«174543_j66812511257314_1_alg».proof.Proof.Gen.KernelIdeal.Skeleton
import proofs.«174543_j66812511257314_1_alg».proof.Proof.Gen.KernelIdeal.Launch
import proofs.«174543_j66812511257314_1_alg».proof.Proof.Gen.KernelIdeal.Points
import proofs.«174543_j66812511257314_1_alg».proof.Proof.Gen.KernelIdeal.Frame
import proofs.«174543_j66812511257314_1_alg».proof.Proof.Gen.ReferenceIdeal
import proofs.«174543_j66812511257314_1_alg».proof.Proof.Gen.ReferenceIdeal.Run
import proofs.«174543_j66812511257314_1_alg».proof.Proof.Gen.ReferenceIdeal.Read
import proofs.«174543_j66812511257314_1_alg».proof.Proof.Gen.Pre_finite_inputs
import proofs.«174543_j66812511257314_1_alg».proof.Proof.KernelRun
import proofs.«174543_j66812511257314_1_alg».proof.Proof.KernelLayer
import proofs.«174543_j66812511257314_1_alg».proof.Proof.RefLayer
import Idealize.ShloMosaic.Adequacy
import Idealize.ShloMosaic.Init

set_option maxRecDepth 16384

noncomputable section

namespace Cert.Proof

open Idealize.ShloMosaic Idealize.ShloMosaic.TcCoe Idealize.SL.Sem Cert.Gcn

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the network over the edge list, of arguments that agree. -/
theorem algebraic : Cert.algebraic_KernelIdeal_ReferenceIdeal := by
  intro m ρ m' ρ' _ hagree
  refine ⟨fun c => specNet (E := 1600000) (N := 100000) Cert.KernelIdeal.HostRead.hN 100000#32
      (m ((c.tc : Thread Cert.KernelIdeal.nD Cert.KernelIdeal.τ).loc Cert.KernelIdeal.main_arg1)) (m ((c.tc : Thread Cert.KernelIdeal.nD Cert.KernelIdeal.τ).loc Cert.KernelIdeal.main_arg0)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.HostRead.kernel_value m ρ c), (h c).2⟩)
      (Cert.KernelIdeal.Result.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7, a8, a9⟩ := hagree c
    rw [Cert.ReferenceIdeal.Read.val_main_v174_eq, a0, a1, a2, a3, a4, a5, a6, a7, a8, a9]
    exact Cert.ReferenceIdeal.Layers.ref_value _ _ _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
